-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x8 : Shape := ⟨2, ![2097152, 8]⟩
abbrev S16x3 : Shape := ⟨2, ![16, 3]⟩
abbrev S16 : Shape := ⟨1, ![16]⟩
abbrev S16x16 : Shape := ⟨2, ![16, 16]⟩
abbrev S8x2 : Shape := ⟨2, ![8, 2]⟩
abbrev S8 : Shape := ⟨1, ![8]⟩
abbrev S8x8 : Shape := ⟨2, ![8, 8]⟩
abbrev S8x3 : Shape := ⟨2, ![8, 3]⟩
abbrev S64x32 : Shape := ⟨2, ![64, 32]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S2097152x8 : S_.BroadcastsInDim S2097152x8 (![] : Fin 0 → Fin S2097152x8.rank)
  reducesTo_S2097152x8_S_d0_1 : S2097152x8.ReducesTo [0, 1] S_
  h_S_ : 0 < S_.numel
  bcast_S_S16x3 : S_.BroadcastsInDim S16x3 (![] : Fin 0 → Fin S16x3.rank)
  reducesTo_S16x3_S_d0_1 : S16x3.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S8x2 : S_.BroadcastsInDim S8x2 (![] : Fin 0 → Fin S8x2.rank)
  reducesTo_S8x2_S_d0_1 : S8x2.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x3 : S_.BroadcastsInDim S8x3 (![] : Fin 0 → Fin S8x3.rank)
  reducesTo_S8x3_S_d0_1 : S8x3.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg18 : FVec F S32 .f32) (main_arg19 : FVec F S64x32 .f32) (main_arg20 : FVec F S64 .f32) (main_v83 : IVec S_ 1) (main_v84 : FVec F S32x64 .f32) (main_cst_32 : FVec F S_ .f32) : IVec S_ 1 :=
  let main_v85 : FVec F S32x64 .f32 := broadcastInDim S32x64 ![] bcast_S_S32x64 main_cst_32
  let main_v86 : IVec S32x64 1 := cmpf .olt main_v84 main_v85
  let main_c_33 : IVec S_ 1 := constantI S_ 1 1#1
  let main_v87 : IVec S_ 1 := (fun x v => Host.reduce IntOp.andi x v reducesTo_S32x64_S_d0_1 h_S_) main_v86 main_c_33
  let main_v88 : IVec S_ 1 := andi main_v83 main_v87
  let main_v89 : FVec F S32 .f32 := Host.absf main_arg18
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S64x32 .f32 := Host.absf main_arg19
  let main_cst_36 : FVec F S_ .f32 := constant S_ .f32 0x7F800000#32
  let main_v95 : FVec F S64x32 .f32 := broadcastInDim S64x32 ![] bcast_S_S64x32 main_cst_36
  let main_v96 : IVec S64x32 1 := cmpf .olt main_v94 main_v95
  let main_c_37 : IVec S_ 1 := constantI S_ 1 1#1
  let main_v97 : IVec S_ 1 := (fun x v => Host.reduce IntOp.andi x v reducesTo_S64x32_S_d0_1 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg14 : FVec F S64 .f32) (main_arg15 : FVec F S64 .f32) (main_arg16 : FVec F S64 .f32) (main_arg17 : FVec F S32x64 .f32) (main_arg18 : FVec F S32 .f32) (main_arg19 : FVec F S64x32 .f32) (main_arg20 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S32x64 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S8x8 .f32) (main_arg12 : FVec F S8 .f32) (main_arg13 : FVec F S64x32 .f32) (main_arg14 : FVec F S64 .f32) (main_arg15 : FVec F S64 .f32) (main_arg16 : FVec F S64 .f32) (main_arg17 : FVec F S32x64 .f32) (main_arg18 : FVec F S32 .f32) (main_arg19 : FVec F S64x32 .f32) (main_arg20 : FVec F S64 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x8 .f32 := Host.absf main_arg11
  let main_cst_20 : FVec F S_ .f32 := constant S_ .f32 0x7F800000#32
  let main_v55 : FVec F S8x8 .f32 := broadcastInDim S8x8 ![] bcast_S_S8x8 main_cst_20
  let main_v56 : IVec S8x8 1 := cmpf .olt main_v54 main_v55
  let main_c_21 : IVec S_ 1 := constantI S_ 1 1#1
  let main_v57 : IVec S_ 1 := (fun x v => Host.reduce IntOp.andi x v reducesTo_S8x8_S_d0_1 h_S_) main_v56 main_c_21
  let main_v58 : IVec S_ 1 := andi main_v53 main_v57
  let main_v59 : FVec F S8 .f32 := Host.absf main_arg12
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S64x32 .f32 := Host.absf main_arg13
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S8x8 .f32) (main_arg8 : FVec F S8 .f32) (main_arg9 : FVec F S8x3 .f32) (main_arg10 : FVec F S8 .f32) (main_arg11 : FVec F S8x8 .f32) (main_arg12 : FVec F S8 .f32) (main_arg13 : FVec F S64x32 .f32) (main_arg14 : FVec F S64 .f32) (main_arg15 : FVec F S64 .f32) (main_arg16 : FVec F S64 .f32) (main_arg17 : FVec F S32x64 .f32) (main_arg18 : FVec F S32 .f32) (main_arg19 : FVec F S64x32 .f32) (main_arg20 : FVec F S64 .f32) (main_v33 : IVec S_ 1) : IVec S_ 1 :=
  let main_v34 : FVec F S8x8 .f32 := Host.absf main_arg7
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x3 .f32 := Host.absf main_arg9
  let main_cst_16 : FVec F S_ .f32 := constant S_ .f32 0x7F800000#32
  let main_v45 : FVec F S8x3 .f32 := broadcastInDim S8x3 ![] bcast_S_S8x3 main_cst_16
  let main_v46 : IVec S8x3 1 := cmpf .olt main_v44 main_v45
  let main_c_17 : IVec S_ 1 := constantI S_ 1 1#1
  let main_v47 : IVec S_ 1 := (fun x v => Host.reduce IntOp.andi x v reducesTo_S8x3_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S16 .f32) (main_arg5 : FVec F S8x2 .f32) (main_arg6 : FVec F S8 .f32) (main_arg7 : FVec F S8x8 .f32) (main_arg8 : FVec F S8 .f32) (main_arg9 : FVec F S8x3 .f32) (main_arg10 : FVec F S8 .f32) (main_arg11 : FVec F S8x8 .f32) (main_arg12 : FVec F S8 .f32) (main_arg13 : FVec F S64x32 .f32) (main_arg14 : FVec F S64 .f32) (main_arg15 : FVec F S64 .f32) (main_arg16 : FVec F S64 .f32) (main_arg17 : FVec F S32x64 .f32) (main_arg18 : FVec F S32 .f32) (main_arg19 : FVec F S64x32 .f32) (main_arg20 : FVec F S64 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S8x2 .f32 := Host.absf main_arg5
  let main_cst_8 : FVec F S_ .f32 := constant S_ .f32 0x7F800000#32
  let main_v25 : FVec F S8x2 .f32 := broadcastInDim S8x2 ![] bcast_S_S8x2 main_cst_8
  let main_v26 : IVec S8x2 1 := cmpf .olt main_v24 main_v25
  let main_c_9 : IVec S_ 1 := constantI S_ 1 1#1
  let main_v27 : IVec S_ 1 := (fun x v => Host.reduce IntOp.andi x v reducesTo_S8x2_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S2097152x8 .f32) (main_arg1 : FVec F S16x3 .f32) (main_arg2 : FVec F S16 .f32) (main_arg3 : FVec F S16x16 .f32) (main_arg4 : FVec F S16 .f32) (main_arg5 : FVec F S8x2 .f32) (main_arg6 : FVec F S8 .f32) (main_arg7 : FVec F S8x8 .f32) (main_arg8 : FVec F S8 .f32) (main_arg9 : FVec F S8x3 .f32) (main_arg10 : FVec F S8 .f32) (main_arg11 : FVec F S8x8 .f32) (main_arg12 : FVec F S8 .f32) (main_arg13 : FVec F S64x32 .f32) (main_arg14 : FVec F S64 .f32) (main_arg15 : FVec F S64 .f32) (main_arg16 : FVec F S64 .f32) (main_arg17 : FVec F S32x64 .f32) (main_arg18 : FVec F S32 .f32) (main_arg19 : FVec F S64x32 .f32) (main_arg20 : FVec F S64 .f32) : IVec S_ 1 :=
  let main_v0 : FVec F S2097152x8 .f32 := Host.absf main_arg0
  let main_cst : FVec F S_ .f32 := constant S_ .f32 0x7F800000#32
  let main_v1 : FVec F S2097152x8 .f32 := broadcastInDim S2097152x8 ![] bcast_S_S2097152x8 main_cst
  let main_v2 : IVec S2097152x8 1 := cmpf .olt main_v0 main_v1
  let main_c : IVec S_ 1 := constantI S_ 1 1#1
  let main_v3 : IVec S_ 1 := (fun x v => Host.reduce IntOp.andi x v reducesTo_S2097152x8_S_d0_1 h_S_) main_v2 main_c
  let main_v4 : FVec F S16x3 .f32 := Host.absf main_arg1
  let main_cst_0 : FVec F S_ .f32 := constant S_ .f32 0x7F800000#32
  let main_v5 : FVec F S16x3 .f32 := broadcastInDim S16x3 ![] bcast_S_S16x3 main_cst_0
  let main_v6 : IVec S16x3 1 := cmpf .olt main_v4 main_v5
  let main_c_1 : IVec S_ 1 := constantI S_ 1 1#1
  let main_v7 : IVec S_ 1 := (fun x v => Host.reduce IntOp.andi x v reducesTo_S16x3_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S2097152x8 : Shape := ⟨2, ![2097152, 8]⟩
abbrev S16x3 : Shape := ⟨2, ![16, 3]⟩
abbrev S16 : Shape := ⟨1, ![16]⟩
abbrev S16x16 : Shape := ⟨2, ![16, 16]⟩
abbrev S8x2 : Shape := ⟨2, ![8, 2]⟩
abbrev S8 : Shape := ⟨1, ![8]⟩
abbrev S8x8 : Shape := ⟨2, ![8, 8]⟩
abbrev S8x3 : Shape := ⟨2, ![8, 3]⟩
abbrev S64x32 : Shape := ⟨2, ![64, 32]⟩
abbrev S64 : Shape := ⟨1, ![64]⟩
abbrev S32x64 : Shape := ⟨2, ![32, 64]⟩
abbrev S32 : Shape := ⟨1, ![32]⟩
abbrev S_ : Shape := ⟨0, ![]⟩
abbrev S32x8 : Shape := ⟨2, ![32, 8]⟩
abbrev S1 : Shape := ⟨1, ![1]⟩
abbrev S2 : Shape := ⟨1, ![2]⟩
abbrev S32x32 : Shape := ⟨2, ![32, 32]⟩
abbrev S2097152x64 : Shape := ⟨2, ![2097152, 64]⟩
abbrev S8192x8 : Shape := ⟨2, ![8192, 8]⟩
abbrev S8192x64 : Shape := ⟨2, ![8192, 64]⟩
abbrev S8x32 : Shape := ⟨2, ![8, 32]⟩
abbrev S8192x32 : Shape := ⟨2, ![8192, 32]⟩
abbrev S1x32 : Shape := ⟨2, ![1, 32]⟩
abbrev S1x64 : Shape := ⟨2, ![1, 64]⟩
abbrev S8192 : Shape := ⟨1, ![8192]⟩
abbrev S8192x1 : Shape := ⟨2, ![8192, 1]⟩

abbrev nBuf : Space → Nat
  | .hbm => 64
  | .vmem => 16
  | .smem => 0
  | _ => 0

abbrev bufTy : (tb : Table) → Fin (tcTables nBuf tb) → BufTy
  | .hbm, ⟨0, _⟩ => ⟨S2097152x8, .f32⟩
  | .hbm, ⟨1, _⟩ => ⟨S16x3, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S8x2, .f32⟩
  | .hbm, ⟨6, _⟩ => ⟨S8, .f32⟩
  | .hbm, ⟨7, _⟩ => ⟨S8x8, .f32⟩
  | .hbm, ⟨8, _⟩ => ⟨S8, .f32⟩
  | .hbm, ⟨9, _⟩ => ⟨S8x3, .f32⟩
  | .hbm, ⟨10, _⟩ => ⟨S8, .f32⟩
  | .hbm, ⟨11, _⟩ => ⟨S8x8, .f32⟩
  | .hbm, ⟨12, _⟩ => ⟨S8, .f32⟩
  | .hbm, ⟨13, _⟩ => ⟨S64x32, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S32x64, .f32⟩
  | .hbm, ⟨18, _⟩ => ⟨S32, .f32⟩
  | .hbm, ⟨19, _⟩ => ⟨S64x32, .f32⟩
  | .hbm, ⟨20, _⟩ => ⟨S64, .f32⟩
  | .hbm, ⟨21, _⟩ => ⟨S_, .f32⟩
  | .hbm, ⟨22, _⟩ => ⟨S32x8, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S32x8, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S32x8, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S32x8, .f32⟩
  | .hbm, ⟨41, _⟩ => ⟨S32, .f32⟩
  | .hbm, ⟨42, _⟩ => ⟨S_, .f32⟩
  | .hbm, ⟨43, _⟩ => ⟨S32x32, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S32x32, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S32x32, .f32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S2, .i32⟩
  | .hbm, ⟨61, _⟩ => ⟨S32x32, .f32⟩
  | .hbm, ⟨62, _⟩ => ⟨S32, .f32⟩
  | .hbm, ⟨63, _⟩ => ⟨S2097152x64, .f32⟩
  | .local _ .vmem, ⟨0, _⟩ => ⟨S8192x8, .f32⟩
  | .local _ .vmem, ⟨1, _⟩ => ⟨S8192x8, .f32⟩
  | .local _ .vmem, ⟨2, _⟩ => ⟨S32x8, .f32⟩
  | .local _ .vmem, ⟨3, _⟩ => ⟨S32, .f32⟩
  | .local _ .vmem, ⟨4, _⟩ => ⟨S32x32, .f32⟩
  | .local _ .vmem, ⟨5, _⟩ => ⟨S32, .f32⟩
  | .local _ .vmem, ⟨6, _⟩ => ⟨S64x32, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S32x64, .f32⟩
  | .local _ .vmem, ⟨11, _⟩ => ⟨S32, .f32⟩
  | .local _ .vmem, ⟨12, _⟩ => ⟨S64x32, .f32⟩
  | .local _ .vmem, ⟨13, _⟩ => ⟨S64, .f32⟩
  | .local _ .vmem, ⟨14, _⟩ => ⟨S8192x64, .f32⟩
  | .local _ .vmem, ⟨15, _⟩ => ⟨S8192x64, .f32⟩
  | _, _ => ⟨S2097152x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_c_2 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_c_4 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_5 : Ref sig .tc := ⟨.hbm, 42, rfl⟩
abbrev main_v14 : Ref sig .tc := ⟨.hbm, 43, rfl⟩
abbrev main_c_6 : Ref sig .tc := ⟨.hbm, 44, rfl⟩
abbrev main_v15 : Ref sig .tc := ⟨.hbm, 45, rfl⟩
abbrev main_c_7 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_c_8 : Ref sig .tc := ⟨.hbm, 50, rfl⟩
abbrev main_v19 : Ref sig .tc := ⟨.hbm, 51, rfl⟩
abbrev main_c_9 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_c_10 : Ref sig .tc := ⟨.hbm, 56, rfl⟩
abbrev main_v23 : Ref sig .tc := ⟨.hbm, 57, rfl⟩
abbrev main_c_11 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8192x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S32x8 : S_.BroadcastsInDim S32x8 (![] : Fin 0 → Fin S32x8.rank)
  bcast_S_S1 : S_.BroadcastsInDim S1 (![] : Fin 0 → Fin S1.rank)
  concatenates_S1_S1_S2_d0 : Shape.Concatenates [S1, S1] S2 0
  concatenates_S16_S8_S8_S32_d0 : Shape.Concatenates [S16, S8, S8] S32 0
  bcast_S_S32x32 : S_.BroadcastsInDim S32x32 (![] : Fin 0 → Fin S32x32.rank)
  inb_S8192x8_S8192x8_0_0 : ∀ a, (![0, 0] : Fin 2 → Nat) a + S8192x8.size a ≤ S8192x8.size a
  h_S8192x8 : 0 < S8192x8.numel
  inb_S32x8_S32x8_0_0 : ∀ a, (![0, 0] : Fin 2 → Nat) a + S32x8.size a ≤ S32x8.size a
  h_S32x8 : 0 < S32x8.numel
  shapeCasts_S32x8_S32x8 : S32x8.ShapeCasts S32x8
  bitsLt_bf16_f32 : FTy.bits .bf16 < FTy.bits .f32
  transposes_S32x8_p1_0_S8x32 : S32x8.Transposes [1, 0] S8x32
  inb_S32_S32_0 : ∀ a, (![0] : Fin 1 → Nat) a + S32.size a ≤ S32.size a
  h_S32 : 0 < S32.numel
  shapeCasts_S32_S32 : S32.ShapeCasts S32
  shapeCasts_S32_S1x32 : S32.ShapeCasts S1x32
  broadcasts_S1x32_S8192x32 : S1x32.Broadcasts S8192x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  transposes_S32x32_p1_0_S32x32 : S32x32.Transposes [1, 0] S32x32
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  reduces_S8192x64_S8192 : S8192x64.Reduces [1] S8192
  shapeCasts_S8192_S8192x1 : S8192.ShapeCasts S8192x1
  broadcasts_S8192x1_S8192x64 : S8192x1.Broadcasts S8192x64
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S8192x64_S8192x64_0_0 : ∀ a, (![0, 0] : Fin 2 → Nat) a + S8192x64.size a ≤ S8192x64.size a
  h_S8192x64 : 0 < S8192x64.numel
  scatter_S32x8_S2_S16x3_01_n_01_0_wf : ScatterDims.WF S32x8 S2 S16x3 [0, 1] [] [0, 1] 0
  scatter_S32x8_S2_S8x2_01_n_01_0_wf : ScatterDims.WF S32x8 S2 S8x2 [0, 1] [] [0, 1] 0
  scatter_S32x8_S2_S8x3_01_n_01_0_wf : ScatterDims.WF S32x8 S2 S8x3 [0, 1] [] [0, 1] 0
  scatter_S32x32_S2_S16x16_01_n_01_0_wf : ScatterDims.WF S32x32 S2 S16x16 [0, 1] [] [0, 1] 0
  scatter_S32x32_S2_S8x8_01_n_01_0_wf : ScatterDims.WF S32x32 S2 S8x8 [0, 1] [] [0, 1] 0
  dot_S8192x8_S8x32_S8192x32_1_0_0_1_n_n_wf : DotDims.WF S8192x8 S8x32 S8192x32 [1] [0] [0] [1] [] []
  dot_S8192x32_S32x32_S8192x32_1_0_0_1_n_n_wf : DotDims.WF S8192x32 S32x32 S8192x32 [1] [0] [0] [1] [] []
  dot_S8192x32_S32x64_S8192x64_1_0_0_1_n_n_wf : DotDims.WF S8192x32 S32x64 S8192x64 [1] [0] [0] [1] [] []
  dot_S8192x64_S64x32_S8192x32_1_0_0_1_n_n_wf : DotDims.WF S8192x64 S64x32 S8192x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S2097152x8.size a
  hwx0_0 : ∀ i : grid0.Coords, EltTy.bits .f32 = 32 ∨ (Rect.block (s := S2097152x8) S8192x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x8.size a ≤ S32x8.size a
  hwx0_1 : ∀ i : grid0.Coords, EltTy.bits .f32 = 32 ∨ (Rect.block (s := S32x8) S32x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x64.size a ≤ S32x64.size a
  hwx0_9 : ∀ i : grid0.Coords, EltTy.bits .f32 = 32 ∨ (Rect.block (s := S32x64) S32x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x32.size a ≤ S64x32.size a
  hwx0_11 : ∀ i : grid0.Coords, EltTy.bits .f32 = 32 ∨ (Rect.block (s := S64x32) S64x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8192x64.size a ≤ S2097152x64.size a
  hwx0_13 : ∀ i : grid0.Coords, EltTy.bits .f32 = 32 ∨ (Rect.block (s := S2097152x64) S8192x64.size (cc0_transform_13 i) (hinb0_13 i)).WholeWords (EltTy.packing .f32)

variable [Facts₀]

def scatter_S32x8_S2_S16x3_01_n_01_0 : ScatterDims S32x8 S2 S16x3 where
  updateWindowDims := [0, 1]
  insertedWindowDims := []
  scatterDimsToOperandDims := [0, 1]
  indexVectorDim := 0
  wf := scatter_S32x8_S2_S16x3_01_n_01_0_wf
def scatter_S32x8_S2_S8x2_01_n_01_0 : ScatterDims S32x8 S2 S8x2 where
  updateWindowDims := [0, 1]
  insertedWindowDims := []
  scatterDimsToOperandDims := [0, 1]
  indexVectorDim := 0
  wf := scatter_S32x8_S2_S8x2_01_n_01_0_wf
def scatter_S32x8_S2_S8x3_01_n_01_0 : ScatterDims S32x8 S2 S8x3 where
  updateWindowDims := [0, 1]
  insertedWindowDims := []
  scatterDimsToOperandDims := [0, 1]
  indexVectorDim := 0
  wf := scatter_S32x8_S2_S8x3_01_n_01_0_wf
def scatter_S32x32_S2_S16x16_01_n_01_0 : ScatterDims S32x32 S2 S16x16 where
  updateWindowDims := [0, 1]
  insertedWindowDims := []
  scatterDimsToOperandDims := [0, 1]
  indexVectorDim := 0
  wf := scatter_S32x32_S2_S16x16_01_n_01_0_wf
def scatter_S32x32_S2_S8x8_01_n_01_0 : ScatterDims S32x32 S2 S8x8 where
  updateWindowDims := [0, 1]
  insertedWindowDims := []
  scatterDimsToOperandDims := [0, 1]
  indexVectorDim := 0
  wf := scatter_S32x32_S2_S8x8_01_n_01_0_wf
def dot_S8192x8_S8x32_S8192x32_1_0_0_1_n_n : DotDims S8192x8 S8x32 S8192x32 where
  lhsContracting := [1]
  rhsContracting := [0]
  lhsNonContracting := [0]
  rhsNonContracting := [1]
  lhsBatch := []
  rhsBatch := []
  wf := dot_S8192x8_S8x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf

abbrev win0_0 : Pipeline.Window sig grid0 :=
  Pipeline.Window.ofSpec (Memref.whole main_arg0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S32x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg15) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg16) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg17) S32x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg18) S32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg19) S64x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg20) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v28) S8192x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S2097152x8 : Shape := ⟨2, ![2097152, 8]⟩
abbrev S16x3 : Shape := ⟨2, ![16, 3]⟩
abbrev S16 : Shape := ⟨1, ![16]⟩
abbrev S16x16 : Shape := ⟨2, ![16, 16]⟩
abbrev S8x2 : Shape := ⟨2, ![8, 2]⟩
abbrev S8 : Shape := ⟨1, ![8]⟩
abbrev S8x8 : Shape := ⟨2, ![8, 8]⟩
abbrev S8x3 : Shape := ⟨2, ![8, 3]⟩
abbrev S64x32 : Shape := ⟨2, ![64, 32]⟩
abbrev S64 : Shape := ⟨1, ![64]⟩
abbrev S32x64 : Shape := ⟨2, ![32, 64]⟩
abbrev S32 : Shape := ⟨1, ![32]⟩
abbrev S2097152x3 : Shape := ⟨2, ![2097152, 3]⟩
abbrev S2097152x2 : Shape := ⟨2, ![2097152, 2]⟩
abbrev S3x16 : Shape := ⟨2, ![3, 16]⟩
abbrev S2097152x16 : Shape := ⟨2, ![2097152, 16]⟩
abbrev S1x16 : Shape := ⟨2, ![1, 16]⟩
abbrev S_ : Shape := ⟨0, ![]⟩
abbrev S2x8 : Shape := ⟨2, ![2, 8]⟩
abbrev S1x8 : Shape := ⟨2, ![1, 8]⟩
abbrev S3x8 : Shape := ⟨2, ![3, 8]⟩
abbrev S2097152x32 : Shape := ⟨2, ![2097152, 32]⟩
abbrev S2097152x64 : Shape := ⟨2, ![2097152, 64]⟩
abbrev S1x64 : Shape := ⟨2, ![1, 64]⟩
abbrev S2097152 : Shape := ⟨1, ![2097152]⟩
abbrev S2097152x1 : Shape := ⟨2, ![2097152, 1]⟩
abbrev S1x32 : Shape := ⟨2, ![1, 32]⟩

abbrev nBuf : Space → Nat
  | .hbm => 113
  | .vmem => 0
  | .smem => 0
  | _ => 0

abbrev bufTy : (tb : Table) → Fin (tcTables nBuf tb) → BufTy
  | .hbm, ⟨0, _⟩ => ⟨S2097152x8, .f32⟩
  | .hbm, ⟨1, _⟩ => ⟨S16x3, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S8x2, .f32⟩
  | .hbm, ⟨6, _⟩ => ⟨S8, .f32⟩
  | .hbm, ⟨7, _⟩ => ⟨S8x8, .f32⟩
  | .hbm, ⟨8, _⟩ => ⟨S8, .f32⟩
  | .hbm, ⟨9, _⟩ => ⟨S8x3, .f32⟩
  | .hbm, ⟨10, _⟩ => ⟨S8, .f32⟩
  | .hbm, ⟨11, _⟩ => ⟨S8x8, .f32⟩
  | .hbm, ⟨12, _⟩ => ⟨S8, .f32⟩
  | .hbm, ⟨13, _⟩ => ⟨S64x32, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S32x64, .f32⟩
  | .hbm, ⟨18, _⟩ => ⟨S32, .f32⟩
  | .hbm, ⟨19, _⟩ => ⟨S64x32, .f32⟩
  | .hbm, ⟨20, _⟩ => ⟨S64, .f32⟩
  | .hbm, ⟨21, _⟩ => ⟨S2097152x3, .f32⟩
  | .hbm, ⟨22, _⟩ => ⟨S2097152x2, .f32⟩
  | .hbm, ⟨23, _⟩ => ⟨S2097152x3, .f32⟩
  | .hbm, ⟨24, _⟩ => ⟨S3x16, .f32⟩
  | .hbm, ⟨25, _⟩ => ⟨S2097152x16, .f32⟩
  | .hbm, ⟨26, _⟩ => ⟨S1x16, .f32⟩
  | .hbm, ⟨27, _⟩ => ⟨S2097152x16, .f32⟩
  | .hbm, ⟨28, _⟩ => ⟨S2097152x16, .f32⟩
  | .hbm, ⟨29, _⟩ => ⟨S_, .f32⟩
  | .hbm, ⟨30, _⟩ => ⟨S2097152x16, .f32⟩
  | .hbm, ⟨31, _⟩ => ⟨S2097152x16, .f32⟩
  | .hbm, ⟨32, _⟩ => ⟨S16x16, .f32⟩
  | .hbm, ⟨33, _⟩ => ⟨S2097152x16, .f32⟩
  | .hbm, ⟨34, _⟩ => ⟨S1x16, .f32⟩
  | .hbm, ⟨35, _⟩ => ⟨S2097152x16, .f32⟩
  | .hbm, ⟨36, _⟩ => ⟨S2097152x16, .f32⟩
  | .hbm, ⟨37, _⟩ => ⟨S2x8, .f32⟩
  | .hbm, ⟨38, _⟩ => ⟨S2097152x8, .f32⟩
  | .hbm, ⟨39, _⟩ => ⟨S1x8, .f32⟩
  | .hbm, ⟨40, _⟩ => ⟨S2097152x8, .f32⟩
  | .hbm, ⟨41, _⟩ => ⟨S2097152x8, .f32⟩
  | .hbm, ⟨42, _⟩ => ⟨S_, .f32⟩
  | .hbm, ⟨43, _⟩ => ⟨S2097152x8, .f32⟩
  | .hbm, ⟨44, _⟩ => ⟨S2097152x8, .f32⟩
  | .hbm, ⟨45, _⟩ => ⟨S8x8, .f32⟩
  | .hbm, ⟨46, _⟩ => ⟨S2097152x8, .f32⟩
  | .hbm, ⟨47, _⟩ => ⟨S1x8, .f32⟩
  | .hbm, ⟨48, _⟩ => ⟨S2097152x8, .f32⟩
  | .hbm, ⟨49, _⟩ => ⟨S2097152x8, .f32⟩
  | .hbm, ⟨50, _⟩ => ⟨S3x8, .f32⟩
  | .hbm, ⟨51, _⟩ => ⟨S2097152x8, .f32⟩
  | .hbm, ⟨52, _⟩ => ⟨S1x8, .f32⟩
  | .hbm, ⟨53, _⟩ => ⟨S2097152x8, .f32⟩
  | .hbm, ⟨54, _⟩ => ⟨S2097152x8, .f32⟩
  | .hbm, ⟨55, _⟩ => ⟨S_, .f32⟩
  | .hbm, ⟨56, _⟩ => ⟨S2097152x8, .f32⟩
  | .hbm, ⟨57, _⟩ => ⟨S2097152x8, .f32⟩
  | .hbm, ⟨58, _⟩ => ⟨S8x8, .f32⟩
  | .hbm, ⟨59, _⟩ => ⟨S2097152x8, .f32⟩
  | .hbm, ⟨60, _⟩ => ⟨S1x8, .f32⟩
  | .hbm, ⟨61, _⟩ => ⟨S2097152x8, .f32⟩
  | .hbm, ⟨62, _⟩ => ⟨S2097152x8, .f32⟩
  | .hbm, ⟨63, _⟩ => ⟨S2097152x32, .f32⟩
  | .hbm, ⟨64, _⟩ => ⟨S32x64, .f32⟩
  | .hbm, ⟨65, _⟩ => ⟨S2097152x64, .f32⟩
  | .hbm, ⟨66, _⟩ => ⟨S1x64, .f32⟩
  | .hbm, ⟨67, _⟩ => ⟨S2097152x64, .f32⟩
  | .hbm, ⟨68, _⟩ => ⟨S2097152x64, .f32⟩
  | .hbm, ⟨69, _⟩ => ⟨S_, .f32⟩
  | .hbm, ⟨70, _⟩ => ⟨S2097152, .f32⟩
  | .hbm, ⟨71, _⟩ => ⟨S2097152x1, .f32⟩
  | .hbm, ⟨72, _⟩ => ⟨S_, .f32⟩
  | .hbm, ⟨73, _⟩ => ⟨S2097152x1, .f32⟩
  | .hbm, ⟨74, _⟩ => ⟨S2097152x1, .f32⟩
  | .hbm, ⟨75, _⟩ => ⟨S2097152x64, .f32⟩
  | .hbm, ⟨76, _⟩ => ⟨S2097152x64, .f32⟩
  | .hbm, ⟨77, _⟩ => ⟨S2097152x64, .f32⟩
  | .hbm, ⟨78, _⟩ => ⟨S_, .f32⟩
  | .hbm, ⟨79, _⟩ => ⟨S2097152, .f32⟩
  | .hbm, ⟨80, _⟩ => ⟨S2097152x1, .f32⟩
  | .hbm, ⟨81, _⟩ => ⟨S_, .f32⟩
  | .hbm, ⟨82, _⟩ => ⟨S2097152x1, .f32⟩
  | .hbm, ⟨83, _⟩ => ⟨S2097152x1, .f32⟩
  | .hbm, ⟨84, _⟩ => ⟨S2097152x64, .f32⟩
  | .hbm, ⟨85, _⟩ => ⟨S2097152x64, .f32⟩
  | .hbm, ⟨86, _⟩ => ⟨S_, .f32⟩
  | .hbm, ⟨87, _⟩ => ⟨S2097152x1, .f32⟩
  | .hbm, ⟨88, _⟩ => ⟨S2097152x1, .f32⟩
  | .hbm, ⟨89, _⟩ => ⟨S2097152x1, .f32⟩
  | .hbm, ⟨90, _⟩ => ⟨S2097152x64, .f32⟩
  | .hbm, ⟨91, _⟩ => ⟨S2097152x64, .f32⟩
  | .hbm, ⟨92, _⟩ => ⟨S1x64, .f32⟩
  | .hbm, ⟨93, _⟩ => ⟨S2097152x64, .f32⟩
  | .hbm, ⟨94, _⟩ => ⟨S2097152x64, .f32⟩
  | .hbm, ⟨95, _⟩ => ⟨S1x64, .f32⟩
  | .hbm, ⟨96, _⟩ => ⟨S2097152x64, .f32⟩
  | .hbm, ⟨97, _⟩ => ⟨S2097152x64, .f32⟩
  | .hbm, ⟨98, _⟩ => ⟨S2097152x64, .f32⟩
  | .hbm, ⟨99, _⟩ => ⟨S64x32, .f32⟩
  | .hbm, ⟨100, _⟩ => ⟨S2097152x32, .f32⟩
  | .hbm, ⟨101, _⟩ => ⟨S1x32, .f32⟩
  | .hbm, ⟨102, _⟩ => ⟨S2097152x32, .f32⟩
  | .hbm, ⟨103, _⟩ => ⟨S2097152x32, .f32⟩
  | .hbm, ⟨104, _⟩ => ⟨S_, .f32⟩
  | .hbm, ⟨105, _⟩ => ⟨S2097152x32, .f32⟩
  | .hbm, ⟨106, _⟩ => ⟨S2097152x32, .f32⟩
  | .hbm, ⟨107, _⟩ => ⟨S32x64, .f32⟩
  | .hbm, ⟨108, _⟩ => ⟨S2097152x64, .f32⟩
  | .hbm, ⟨109, _⟩ => ⟨S1x64, .f32⟩
  | .hbm, ⟨110, _⟩ => ⟨S2097152x64, .f32⟩
  | .hbm, ⟨111, _⟩ => ⟨S2097152x64, .f32⟩
  | .hbm, ⟨112, _⟩ => ⟨S2097152x64, .f32⟩
  | _, _ => ⟨S2097152x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call0_cst : Ref sig .tc := ⟨.hbm, 29, rfl⟩
abbrev main_call0_v0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call1_cst : Ref sig .tc := ⟨.hbm, 42, rfl⟩
abbrev main_call1_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call2_cst : Ref sig .tc := ⟨.hbm, 55, rfl⟩
abbrev main_call2_v0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst : Ref sig .tc := ⟨.hbm, 69, rfl⟩
abbrev main_v42 : Ref sig .tc := ⟨.hbm, 70, rfl⟩
abbrev main_v43 : Ref sig .tc := ⟨.hbm, 71, rfl⟩
abbrev main_cst_0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_1 : Ref sig .tc := ⟨.hbm, 78, rfl⟩
abbrev main_v49 : Ref sig .tc := ⟨.hbm, 79, rfl⟩
abbrev main_v50 : Ref sig .tc := ⟨.hbm, 80, rfl⟩
abbrev main_cst_2 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_3 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call3_cst : Ref sig .tc := ⟨.hbm, 104, rfl⟩
abbrev main_call3_v0 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]

class Facts₀ : Prop where
  slices_S2097152x8_S2097152x3_0_0 : S2097152x8.Slices ![0, 0] S2097152x3
  slices_S2097152x8_S2097152x2_0_3 : S2097152x8.Slices ![0, 3] S2097152x2
  slices_S2097152x8_S2097152x3_0_5 : S2097152x8.Slices ![0, 5] S2097152x3
  transposes_S16x3_S3x16_1_0 : S16x3.Transposes [1, 0] S3x16
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  bcast_S_S2097152x16 : S_.BroadcastsInDim S2097152x16 (![] : Fin 0 → Fin S2097152x16.rank)
  transposes_S16x16_S16x16_1_0 : S16x16.Transposes [1, 0] S16x16
  transposes_S8x2_S2x8_1_0 : S8x2.Transposes [1, 0] S2x8
  bcast_S8_S1x8_1 : S8.BroadcastsInDim S1x8 (![1] : Fin 1 → Fin S1x8.rank)
  bcast_S1x8_S2097152x8_0_1 : S1x8.BroadcastsInDim S2097152x8 (![0, 1] : Fin 2 → Fin S2097152x8.rank)
  bcast_S_S2097152x8 : S_.BroadcastsInDim S2097152x8 (![] : Fin 0 → Fin S2097152x8.rank)
  transposes_S8x8_S8x8_1_0 : S8x8.Transposes [1, 0] S8x8
  transposes_S8x3_S3x8_1_0 : S8x3.Transposes [1, 0] S3x8
  concatenates_S2097152x16_S2097152x8_S2097152x8_S2097152x32_d1 : Shape.Concatenates [S2097152x16, S2097152x8, S2097152x8] S2097152x32 1
  transposes_S64x32_S32x64_1_0 : S64x32.Transposes [1, 0] S32x64
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  reducesTo_S2097152x64_S2097152_d1 : S2097152x64.ReducesTo [1] S2097152
  h_S_ : 0 < S_.numel
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S2097152x1_S2097152x64_0_1 : S2097152x1.BroadcastsInDim S2097152x64 (![0, 1] : Fin 2 → Fin S2097152x64.rank)
  transposes_S32x64_S64x32_1_0 : S32x64.Transposes [1, 0] S64x32
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  bcast_S_S2097152x32 : S_.BroadcastsInDim S2097152x32 (![] : Fin 0 → Fin S2097152x32.rank)
  dot_S2097152x3_S3x16_S2097152x16_1_0_0_1_n_n_wf : DotDims.WF S2097152x3 S3x16 S2097152x16 [1] [0] [0] [1] [] []
  dot_S2097152x16_S16x16_S2097152x16_1_0_0_1_n_n_wf : DotDims.WF S2097152x16 S16x16 S2097152x16 [1] [0] [0] [1] [] []
  dot_S2097152x2_S2x8_S2097152x8_1_0_0_1_n_n_wf : DotDims.WF S2097152x2 S2x8 S2097152x8 [1] [0] [0] [1] [] []
  dot_S2097152x8_S8x8_S2097152x8_1_0_0_1_n_n_wf : DotDims.WF S2097152x8 S8x8 S2097152x8 [1] [0] [0] [1] [] []
  dot_S2097152x3_S3x8_S2097152x8_1_0_0_1_n_n_wf : DotDims.WF S2097152x3 S3x8 S2097152x8 [1] [0] [0] [1] [] []
  dot_S2097152x32_S32x64_S2097152x64_1_0_0_1_n_n_wf : DotDims.WF S2097152x32 S32x64 S2097152x64 [1] [0] [0] [1] [] []
  dot_S2097152x64_S64x32_S2097152x32_1_0_0_1_n_n_wf : DotDims.WF S2097152x64 S64x32 S2097152x32 [1] [0] [0] [1] [] []

variable [Facts₀]

def dot_S2097152x3_S3x16_S2097152x16_1_0_0_1_n_n : DotDims S2097152x3 S3x16 S2097152x16 where
  lhsContracting := [1]
  rhsContracting := [0]
  lhsNonContracting := [0]
  rhsNonContracting := [1]
  lhsBatch := []
  rhsBatch := []
  wf := dot_S2097152x3_S3x16_S2097152x16_1_0_0_1_n_n_wf
def dot_S2097152x16_S16x16_S2097152x16_1_0_0_1_n_n : DotDims S2097152x16 S16x16 S2097152x16 where
  lhsContracting := [1]
  rhsContracting := [0]
  lhsNonContracting := [0]
  rhsNonContracting := [1]
  lhsBatch := []
  rhsBatch := []
  wf := dot_S2097152x16_S16x16_S2097152x16_1_0_0_1_n_n_wf
def dot_S2097152x2_S2x8_S2097152x8_1_0_0_1_n_n : DotDims S2097152x2 S2x8 S2097152x8 where
  lhsContracting := [1]
  rhsContracting := [0]
  lhsNonContracting := [0]
  rhsNonContracting := [1]
  lhsBatch := []
  rhsBatch := []
  wf := dot_S2097152x2_S2x8_S2097152x8_1_0_0_1_n_n_wf
def dot_S2097152x8_S8x8_S2097152x8_1_0_0_1_n_n : DotDims S2097152x8 S8x8 S2097152x8 where
  lhsContracting := [1]
  rhsContracting := [0]
  lhsNonContracting := [0]
  rhsNonContracting := [1]
  lhsBatch := []
  rhsBatch := []
  wf := dot_S2097152x8_S8x8_S2097152x8_1_0_0_1_n_n_wf
def dot_S2097152x3_S3x8_S2097152x8_1_0_0_1_n_n : DotDims S2097152x3 S3x8 S2097152x8 where
  lhsContracting := [1]
  rhsContracting := [0]
  lhsNonContracting := [0]
  rhsNonContracting := [1]
  lhsBatch := []
  rhsBatch := []
  wf := dot_S2097152x3_S3x8_S2097152x8_1_0_0_1_n_n_wf
def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x32_S2097152x32_1_0_0_1_n_n : DotDims S2097152x64 S64x32 S2097152x32 where
  lhsContracting := [1]
  rhsContracting := [0]
  lhsNonContracting := [0]
  rhsNonContracting := [1]
  lhsBatch := []
  rhsBatch := []
  wf := dot_S2097152x64_S64x32_S2097152x32_1_0_0_1_n_n_wf

class Facts : Prop extends Facts₀ where

variable [Facts]
-- ==== Proof.KernelFrame.lean ====
/-
  The frame of the program: the host operations before the launch only write buffers of their own, so the
  launch finds every argument array as it was; the pipeline stages, at each of the 256 grid points, one block
  of 8192 rows of the row input and the whole of each of the twelve small operands, runs the body — which
  loads every staged block whole, computes, and stores one whole block of 8192 x 64 results — and writes that
  block back. Stated at any float instance: what the output's staging buffer holds after the body is one
  function of the thirteen input blocks, the body's one store over its loads.
-/
import proofs.«166149_j47193100648813_2_alg».proof.Proof.Gen.Kernel.Launch
import proofs.«166149_j47193100648813_2_alg».proof.Proof.Gen.Kernel.Skeleton
import proofs.«166149_j47193100648813_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- The buffers of a core when the launch is reached: the memory after the host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Every host operation writes a buffer of its own, never argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 18. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 19. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 20. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The blocks -/

/-- The block of window `w` at grid point `t`, read off the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether the block was fetched there or was
    already in place because the block index had not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether the block was fetched there or was
    already in place because the block index had not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether the block was fetched there or was
    already in place because the block index had not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether the block was fetched there or was
    already in place because the block index had not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether the block was fetched there or was
    already in place because the block index had not moved. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether the block was fetched there or was
    already in place because the block index had not moved. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whether the block was fetched there or was
    already in place because the block index had not moved. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, whether the block was fetched there or was
    already in place because the block index had not moved. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, whether the block was fetched there or was
    already in place because the block index had not moved. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, whether the block was fetched there or was
    already in place because the block index had not moved. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, whether the block was fetched there or was
    already in place because the block index had not moved. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, whether the block was fetched there or was
    already in place because the block index had not moved. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, whether the block was fetched there or was
    already in place because the block index had not moved. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run of the pipeline to its post — every staged array at what the proof data computes, every other
    buffer as the launch found it — the arguments end as they began: a staged argument is an input window's array,
    which no block is written back to; the others are not touched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 5).trans (((dats 0 c).arrAt_in 5 rfl _).trans ((hA c 5).trans (V_main_arg13 m c))),
      ((h c).1 6).trans (((dats 0 c).arrAt_in 6 rfl _).trans ((hA c 6).trans (V_main_arg14 m c))),
      ((h c).1 7).trans (((dats 0 c).arrAt_in 7 rfl _).trans ((hA c 7).trans (V_main_arg15 m c))),
      ((h c).1 8).trans (((dats 0 c).arrAt_in 8 rfl _).trans ((hA c 8).trans (V_main_arg16 m c))),
      ((h c).1 9).trans (((dats 0 c).arrAt_in 9 rfl _).trans ((hA c 9).trans (V_main_arg17 m c))),
      ((h c).1 10).trans (((dats 0 c).arrAt_in 10 rfl _).trans ((hA c 10).trans (V_main_arg18 m c))),
      ((h c).1 11).trans (((dats 0 c).arrAt_in 11 rfl _).trans ((hA c 11).trans (V_main_arg19 m c))),
      ((h c).1 12).trans (((dats 0 c).arrAt_in 12 rfl _).trans ((hA c 12).trans (V_main_arg20 m c)))⟩) h

/-! ## The body's accesses: every load and the store take a whole block -/

abbrev rw_S8192x8 : Rect S8192x8 := Rect.unit (s := S8192x8) ![0, 0] S8192x8.size inb_S8192x8_S8192x8_0_0
abbrev rw_S32x8 : Rect S32x8 := Rect.unit (s := S32x8) ![0, 0] S32x8.size inb_S32x8_S32x8_0_0
abbrev rw_S32 : Rect S32 := Rect.unit (s := S32) ![0] S32.size inb_S32_S32_0
abbrev rw_S32x32 : Rect S32x32 := Rect.unit (s := S32x32) ![0, 0] S32x32.size inb_S32x32_S32x32_0_0
abbrev rw_S64x32 : Rect S64x32 := Rect.unit (s := S64x32) ![0, 0] S64x32.size inb_S64x32_S64x32_0_0
abbrev rw_S64 : Rect S64 := Rect.unit (s := S64) ![0] S64.size inb_S64_S64_0
abbrev rw_S32x64 : Rect S32x64 := Rect.unit (s := S32x64) ![0, 0] S32x64.size inb_S32x64_S32x64_0_0
abbrev rw_S8192x64 : Rect S8192x64 := Rect.unit (s := S8192x64) ![0, 0] S8192x64.size inb_S8192x64_S8192x64_0_0

/-! ## What the body leaves in the output's staging buffer -/

/-- The output block after the body, from the thirteen input blocks: the body's one store, of its arithmetic over
    its loads. -/
def out13 (x0 : Vec F S8192x8 .f32) (x1 : Vec F S32x8 .f32) (x2 : Vec F S32 .f32) (x3 : Vec F S32x32 .f32) (x4 : Vec F S32 .f32) (x5 : Vec F S64x32 .f32) (x6 : Vec F S64 .f32) (x7 : Vec F S64 .f32) (x8 : Vec F S64 .f32) (x9 : Vec F S32x64 .f32) (x10 : Vec F S32 .f32) (x11 : Vec F S64x32 .f32) (x12 : Vec F S64 .f32) : Vec F S8192x64 .f32 :=
  View.canon [⟨rw_S8192x64, k0_pay1 (k0_pay2 (View.ld x0 rw_S8192x8) (View.ld x1 rw_S32x8) (View.ld x2 rw_S32) (View.ld x3 rw_S32x32) (View.ld x4 rw_S32) (View.ld x5 rw_S64x32) (View.ld x6 rw_S64)) (k0_pay3 (View.ld x0 rw_S8192x8) (View.ld x1 rw_S32x8) (View.ld x2 rw_S32) (View.ld x3 rw_S32x32) (View.ld x4 rw_S32) (View.ld x5 rw_S64x32) (View.ld x6 rw_S64)) (k0_pay4 (View.ld x0 rw_S8192x8) (View.ld x1 rw_S32x8) (View.ld x2 rw_S32) (View.ld x3 rw_S32x32) (View.ld x4 rw_S32) (View.ld x5 rw_S64x32) (View.ld x6 rw_S64)) (View.ld x7 rw_S64) (View.ld x8 rw_S64) (View.ld x9 rw_S32x64) (View.ld x10 rw_S32) (View.ld x11 rw_S64x32) (View.ld x12 rw_S64)⟩]

/-- The one store covers the block. -/
theorem cover13 (p0 : Vec F S8192x64 .f32) (y : S8192x64.Idx) :
    ∃ pc ∈ ([⟨rw_S8192x64, p0⟩] : List (View.Piece (Elt F) S8192x64 .f32)), y ∈ pc.1.set :=
  View.cover_of_tiled [⟨rw_S8192x64, p0⟩] S8192x64.size (by rfl) y

/-! ## The body's triple -/

set_option maxHeartbeats 4000000 in
/-- The body on whole staging buffers — the inputs' at given contents, the output's at anything — runs to its end,
    leaves the inputs' as they were and the output's at `out13` of the inputs. -/
theorem sound_kernel (c : Dev nD) (E : Set ℕ) (i : grid0.Coords) (arg0 : Memref sig .tc .vmem S8192x8 .f32) (harg0 : arg0.IsWhole) (arg1 : Memref sig .tc .vmem S32x8 .f32) (harg1 : arg1.IsWhole) (arg2 : Memref sig .tc .vmem S32 .f32) (harg2 : arg2.IsWhole) (arg3 : Memref sig .tc .vmem S32x32 .f32) (harg3 : arg3.IsWhole) (arg4 : Memref sig .tc .vmem S32 .f32) (harg4 : arg4.IsWhole) (arg5 : Memref sig .tc .vmem S64x32 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S32x64 .f32) (harg9 : arg9.IsWhole) (arg10 : Memref sig .tc .vmem S32 .f32) (harg10 : arg10.IsWhole) (arg11 : Memref sig .tc .vmem S64x32 .f32) (harg11 : arg11.IsWhole) (arg12 : Memref sig .tc .vmem S64 .f32) (harg12 : arg12.IsWhole) (arg13 : Memref sig .tc .vmem S8192x64 .f32) (harg13 : arg13.IsWhole)
    (x0 : Vec F S8192x8 .f32) (x1 : Vec F S32x8 .f32) (x2 : Vec F S32 .f32) (x3 : Vec F S32x32 .f32) (x4 : Vec F S32 .f32) (x5 : Vec F S64x32 .f32) (x6 : Vec F S64 .f32) (x7 : Vec F S64 .f32) (x8 : Vec F S64 .f32) (x9 : Vec F S32x64 .f32) (x10 : Vec F S32 .f32) (x11 : Vec F S64x32 .f32) (x12 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (out13 x0 x1 x2 x3 x4 x5 x6 x7 x8 x9 x10 x11 x12)) -∗ K ⟨⟩))
      ⊢ wp frame (wpE (defs₀ (F := F)) Variants.none c none) E (cc0__kernel i arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover13 _)

/-! ## The pipeline's proof data -/

/-- The proof data of the pipeline on a core: the arrays as the launch finds them; after the body at point `t` each
    input's buffer still at its block and the output's at `out13` of the input blocks; nothing else held or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body's triple at every grid point, the windows conjoined as the launch hands them over. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, every staged array ending at what the
    proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and its arguments end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

end Cert.Kernel.Hand

end
-- ==== Proof.KernelIdealFrame.lean ====
/-
  The frame of the program: the host operations before the launch only write buffers of their own, so the
  launch finds every argument array as it was; the pipeline stages, at each of the 256 grid points, one block
  of 8192 rows of the row input and the whole of each of the twelve small operands, runs the body — which
  loads every staged block whole, computes, and stores one whole block of 8192 x 64 results — and writes that
  block back. Stated at any float instance: what the output's staging buffer holds after the body is one
  function of the thirteen input blocks, the body's one store over its loads.
-/
import proofs.«166149_j47193100648813_2_alg».proof.Proof.Gen.KernelIdeal.Launch
import proofs.«166149_j47193100648813_2_alg».proof.Proof.Gen.KernelIdeal.Skeleton
import proofs.«166149_j47193100648813_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- The buffers of a core when the launch is reached: the memory after the host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Every host operation writes a buffer of its own, never argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 18. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 19. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- Every host operation writes a buffer of its own, never argument 20. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The blocks -/

/-- The block of window `w` at grid point `t`, read off the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether the block was fetched there or was
    already in place because the block index had not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether the block was fetched there or was
    already in place because the block index had not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether the block was fetched there or was
    already in place because the block index had not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether the block was fetched there or was
    already in place because the block index had not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether the block was fetched there or was
    already in place because the block index had not moved. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether the block was fetched there or was
    already in place because the block index had not moved. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whether the block was fetched there or was
    already in place because the block index had not moved. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, whether the block was fetched there or was
    already in place because the block index had not moved. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, whether the block was fetched there or was
    already in place because the block index had not moved. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, whether the block was fetched there or was
    already in place because the block index had not moved. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, whether the block was fetched there or was
    already in place because the block index had not moved. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, whether the block was fetched there or was
    already in place because the block index had not moved. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, whether the block was fetched there or was
    already in place because the block index had not moved. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run of the pipeline to its post — every staged array at what the proof data computes, every other
    buffer as the launch found it — the arguments end as they began: a staged argument is an input window's array,
    which no block is written back to; the others are not touched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 5).trans (((dats 0 c).arrAt_in 5 rfl _).trans ((hA c 5).trans (V_main_arg13 m c))),
      ((h c).1 6).trans (((dats 0 c).arrAt_in 6 rfl _).trans ((hA c 6).trans (V_main_arg14 m c))),
      ((h c).1 7).trans (((dats 0 c).arrAt_in 7 rfl _).trans ((hA c 7).trans (V_main_arg15 m c))),
      ((h c).1 8).trans (((dats 0 c).arrAt_in 8 rfl _).trans ((hA c 8).trans (V_main_arg16 m c))),
      ((h c).1 9).trans (((dats 0 c).arrAt_in 9 rfl _).trans ((hA c 9).trans (V_main_arg17 m c))),
      ((h c).1 10).trans (((dats 0 c).arrAt_in 10 rfl _).trans ((hA c 10).trans (V_main_arg18 m c))),
      ((h c).1 11).trans (((dats 0 c).arrAt_in 11 rfl _).trans ((hA c 11).trans (V_main_arg19 m c))),
      ((h c).1 12).trans (((dats 0 c).arrAt_in 12 rfl _).trans ((hA c 12).trans (V_main_arg20 m c)))⟩) h

/-! ## The body's accesses: every load and the store take a whole block -/

abbrev rw_S8192x8 : Rect S8192x8 := Rect.unit (s := S8192x8) ![0, 0] S8192x8.size inb_S8192x8_S8192x8_0_0
abbrev rw_S32x8 : Rect S32x8 := Rect.unit (s := S32x8) ![0, 0] S32x8.size inb_S32x8_S32x8_0_0
abbrev rw_S32 : Rect S32 := Rect.unit (s := S32) ![0] S32.size inb_S32_S32_0
abbrev rw_S32x32 : Rect S32x32 := Rect.unit (s := S32x32) ![0, 0] S32x32.size inb_S32x32_S32x32_0_0
abbrev rw_S64x32 : Rect S64x32 := Rect.unit (s := S64x32) ![0, 0] S64x32.size inb_S64x32_S64x32_0_0
abbrev rw_S64 : Rect S64 := Rect.unit (s := S64) ![0] S64.size inb_S64_S64_0
abbrev rw_S32x64 : Rect S32x64 := Rect.unit (s := S32x64) ![0, 0] S32x64.size inb_S32x64_S32x64_0_0
abbrev rw_S8192x64 : Rect S8192x64 := Rect.unit (s := S8192x64) ![0, 0] S8192x64.size inb_S8192x64_S8192x64_0_0

/-! ## What the body leaves in the output's staging buffer -/

/-- The output block after the body, from the thirteen input blocks: the body's one store, of its arithmetic over
    its loads. -/
def out13 (x0 : Vec F S8192x8 .f32) (x1 : Vec F S32x8 .f32) (x2 : Vec F S32 .f32) (x3 : Vec F S32x32 .f32) (x4 : Vec F S32 .f32) (x5 : Vec F S64x32 .f32) (x6 : Vec F S64 .f32) (x7 : Vec F S64 .f32) (x8 : Vec F S64 .f32) (x9 : Vec F S32x64 .f32) (x10 : Vec F S32 .f32) (x11 : Vec F S64x32 .f32) (x12 : Vec F S64 .f32) : Vec F S8192x64 .f32 :=
  View.canon [⟨rw_S8192x64, k0_pay1 (k0_pay2 (View.ld x0 rw_S8192x8) (View.ld x1 rw_S32x8) (View.ld x2 rw_S32) (View.ld x3 rw_S32x32) (View.ld x4 rw_S32) (View.ld x5 rw_S64x32) (View.ld x6 rw_S64)) (k0_pay3 (View.ld x0 rw_S8192x8) (View.ld x1 rw_S32x8) (View.ld x2 rw_S32) (View.ld x3 rw_S32x32) (View.ld x4 rw_S32) (View.ld x5 rw_S64x32) (View.ld x6 rw_S64)) (k0_pay4 (View.ld x0 rw_S8192x8) (View.ld x1 rw_S32x8) (View.ld x2 rw_S32) (View.ld x3 rw_S32x32) (View.ld x4 rw_S32) (View.ld x5 rw_S64x32) (View.ld x6 rw_S64)) (View.ld x7 rw_S64) (View.ld x8 rw_S64) (View.ld x9 rw_S32x64) (View.ld x10 rw_S32) (View.ld x11 rw_S64x32) (View.ld x12 rw_S64)⟩]

/-- The one store covers the block. -/
theorem cover13 (p0 : Vec F S8192x64 .f32) (y : S8192x64.Idx) :
    ∃ pc ∈ ([⟨rw_S8192x64, p0⟩] : List (View.Piece (Elt F) S8192x64 .f32)), y ∈ pc.1.set :=
  View.cover_of_tiled [⟨rw_S8192x64, p0⟩] S8192x64.size (by rfl) y

/-! ## The body's triple -/

set_option maxHeartbeats 4000000 in
/-- The body on whole staging buffers — the inputs' at given contents, the output's at anything — runs to its end,
    leaves the inputs' as they were and the output's at `out13` of the inputs. -/
theorem sound_kernel (c : Dev nD) (E : Set ℕ) (i : grid0.Coords) (arg0 : Memref sig .tc .vmem S8192x8 .f32) (harg0 : arg0.IsWhole) (arg1 : Memref sig .tc .vmem S32x8 .f32) (harg1 : arg1.IsWhole) (arg2 : Memref sig .tc .vmem S32 .f32) (harg2 : arg2.IsWhole) (arg3 : Memref sig .tc .vmem S32x32 .f32) (harg3 : arg3.IsWhole) (arg4 : Memref sig .tc .vmem S32 .f32) (harg4 : arg4.IsWhole) (arg5 : Memref sig .tc .vmem S64x32 .f32) (harg5 : arg5.IsWhole) (arg6 : Memref sig .tc .vmem S64 .f32) (harg6 : arg6.IsWhole) (arg7 : Memref sig .tc .vmem S64 .f32) (harg7 : arg7.IsWhole) (arg8 : Memref sig .tc .vmem S64 .f32) (harg8 : arg8.IsWhole) (arg9 : Memref sig .tc .vmem S32x64 .f32) (harg9 : arg9.IsWhole) (arg10 : Memref sig .tc .vmem S32 .f32) (harg10 : arg10.IsWhole) (arg11 : Memref sig .tc .vmem S64x32 .f32) (harg11 : arg11.IsWhole) (arg12 : Memref sig .tc .vmem S64 .f32) (harg12 : arg12.IsWhole) (arg13 : Memref sig .tc .vmem S8192x64 .f32) (harg13 : arg13.IsWhole)
    (x0 : Vec F S8192x8 .f32) (x1 : Vec F S32x8 .f32) (x2 : Vec F S32 .f32) (x3 : Vec F S32x32 .f32) (x4 : Vec F S32 .f32) (x5 : Vec F S64x32 .f32) (x6 : Vec F S64 .f32) (x7 : Vec F S64 .f32) (x8 : Vec F S64 .f32) (x9 : Vec F S32x64 .f32) (x10 : Vec F S32 .f32) (x11 : Vec F S64x32 .f32) (x12 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (out13 x0 x1 x2 x3 x4 x5 x6 x7 x8 x9 x10 x11 x12)) -∗ K ⟨⟩))
      ⊢ wp frame (wpE (defs₀ (F := F)) Variants.none c none) E (cc0__kernel i arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover13 _)

/-! ## The pipeline's proof data -/

/-- The proof data of the pipeline on a core: the arrays as the launch finds them; after the body at point `t` each
    input's buffer still at its block and the output's at `out13` of the input blocks; nothing else held or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body's triple at every grid point, the windows conjoined as the launch hands them over. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, every staged array ending at what the
    proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and its arguments end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

end Cert.KernelIdeal.Hand

end
-- ==== Proof.KernelIdealOps.lean ====
/-
  The body's operations read at an index, at the ideal instance: a column kept as a unit axis and spread back
  over the rows' entries, the sum of a row, and the product of a block of rows with a matrix as, entry by entry,
  the sum over the contracted position of the products of the two operands' entries.
-/
import proofs.«166149_j47193100648813_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.Hand

open Cert.KernelIdeal Cert.KernelIdeal.Gen
open Idealize.ShloMosaic Idealize.ShloMosaic.ValueIdx

variable {α : Type}

/-- A vector of `a` entries cast to a column reads, at row `p`, its entry `p`. -/
theorem cast_col {a : ℕ} (x : (⟨1, ![a]⟩ : Shape).Idx → α) (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column spread over `b` entries per row reads, at `(p, c)`, the column's entry at row `p`. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 64 entries of each of 8192 rows, read at row `p`. -/
theorem rowsum64 (v : FVec Ideal S8192x64 .f32) (h : S8192x64.Reduces [1] S8192) (hφ : FKind.Formats .f32)
    (hacc : (0x00000000#32 : BitVec 32) = 0x00000000#32) (p : Fin 8192) :
    multiReduction .add [1] S8192 v 0x00000000#32 h hφ hacc (ix1 p) = ∑ k : Fin 64, v (ix2 p k) :=
  (Ideal.multiReduction_add_single v 0x00000000#32 h hφ hacc (ix1 p)).trans
    (Finset.sum_congr rfl fun k _ => congrArg v (funext fun ax => Fin.ext (by
      match ax with
      | ⟨0, _⟩ => rfl
      | ⟨1, _⟩ => rfl)))

theorem lhs0_8_32 (i : S8192x32.Idx) (c : dot_S8192x8_S8x32_S8192x32_1_0_0_1_n_n.contr.Idx) : (dot_S8192x8_S8x32_S8192x32_1_0_0_1_n_n.lhsIdx i c 0).val = (i 0).val := by
  unfold DotDims.lhsIdx
  rw [dif_neg (show ¬(0 : Fin S8192x8.rank) ∈ dot_S8192x8_S8x32_S8192x32_1_0_0_1_n_n.lhsBatch by decide), dif_pos (show (0 : Fin S8192x8.rank) ∈ dot_S8192x8_S8x32_S8192x32_1_0_0_1_n_n.lhsNonContracting by decide)]
  rfl
theorem rhs1_8_32 (i : S8192x32.Idx) (c : dot_S8192x8_S8x32_S8192x32_1_0_0_1_n_n.contr.Idx) : (dot_S8192x8_S8x32_S8192x32_1_0_0_1_n_n.rhsIdx i c 1).val = (i 1).val := by
  unfold DotDims.rhsIdx
  rw [dif_neg (show ¬(1 : Fin S8x32.rank) ∈ dot_S8192x8_S8x32_S8192x32_1_0_0_1_n_n.rhsBatch by decide), dif_pos (show (1 : Fin S8x32.rank) ∈ dot_S8192x8_S8x32_S8192x32_1_0_0_1_n_n.rhsNonContracting by decide)]
  rfl
/-- Rows of 8 entries times a 8 × 32 matrix into a zero accumulator: entry `(p, q)` is the sum over `k` of
    the row's entry `k` times the matrix's entry `(k, q)`. -/
theorem mm_8_32 (l : FVec Ideal S8192x8 .bf16) (r : FVec Ideal S8x32 .bf16) (p : Fin 8192) (q : Fin 32) :
    matmul dot_S8192x8_S8x32_S8192x32_1_0_0_1_n_n none l r (constant (F := Ideal) S8192x32 .f32 0x00000000#32) (ix2 p q)
      = ∑ k : Fin 8, l (ix2 p k) * r (ix2 k q) := by
  refine (Ideal.matmul_constant_zero_apply dot_S8192x8_S8x32_S8192x32_1_0_0_1_n_n none l r (ix2 p q)).trans ?_
  rw [← Equiv.sum_comp (ValueIdx.contrEquiv1 dot_S8192x8_S8x32_S8192x32_1_0_0_1_n_n 8 rfl rfl).symm]
  refine Finset.sum_congr rfl fun k _ => ?_
  have hk := ValueIdx.contrEquiv1_symm_val dot_S8192x8_S8x32_S8192x32_1_0_0_1_n_n 8 rfl rfl k
  have el : dot_S8192x8_S8x32_S8192x32_1_0_0_1_n_n.lhsIdx (ix2 p q) ((ValueIdx.contrEquiv1 dot_S8192x8_S8x32_S8192x32_1_0_0_1_n_n 8 rfl rfl).symm k) = ix2 p k := funext fun a => Fin.ext (by
    match a with
    | ⟨0, _⟩ => exact lhs0_8_32 _ _
    | ⟨1, _⟩ => exact (dot_S8192x8_S8x32_S8192x32_1_0_0_1_n_n.lhsIdx_val_of_single rfl _ _).trans hk)
  have er : dot_S8192x8_S8x32_S8192x32_1_0_0_1_n_n.rhsIdx (ix2 p q) ((ValueIdx.contrEquiv1 dot_S8192x8_S8x32_S8192x32_1_0_0_1_n_n 8 rfl rfl).symm k) = ix2 k q := funext fun a => Fin.ext (by
    match a with
    | ⟨0, _⟩ => exact (dot_S8192x8_S8x32_S8192x32_1_0_0_1_n_n.rhsIdx_val_of_single rfl _ _).trans hk
    | ⟨1, _⟩ => exact rhs1_8_32 _ _)
  rw [el, er]

theorem lhs0_32_32 (i : S8192x32.Idx) (c : dot_S8192x32_S32x32_S8192x32_1_0_0_1_n_n.contr.Idx) : (dot_S8192x32_S32x32_S8192x32_1_0_0_1_n_n.lhsIdx i c 0).val = (i 0).val := by
  unfold DotDims.lhsIdx
  rw [dif_neg (show ¬(0 : Fin S8192x32.rank) ∈ dot_S8192x32_S32x32_S8192x32_1_0_0_1_n_n.lhsBatch by decide), dif_pos (show (0 : Fin S8192x32.rank) ∈ dot_S8192x32_S32x32_S8192x32_1_0_0_1_n_n.lhsNonContracting by decide)]
  rfl
theorem rhs1_32_32 (i : S8192x32.Idx) (c : dot_S8192x32_S32x32_S8192x32_1_0_0_1_n_n.contr.Idx) : (dot_S8192x32_S32x32_S8192x32_1_0_0_1_n_n.rhsIdx i c 1).val = (i 1).val := by
  unfold DotDims.rhsIdx
  rw [dif_neg (show ¬(1 : Fin S32x32.rank) ∈ dot_S8192x32_S32x32_S8192x32_1_0_0_1_n_n.rhsBatch by decide), dif_pos (show (1 : Fin S32x32.rank) ∈ dot_S8192x32_S32x32_S8192x32_1_0_0_1_n_n.rhsNonContracting by decide)]
  rfl
/-- Rows of 32 entries times a 32 × 32 matrix into a zero accumulator: entry `(p, q)` is the sum over `k` of
    the row's entry `k` times the matrix's entry `(k, q)`. -/
theorem mm_32_32 (l : FVec Ideal S8192x32 .bf16) (r : FVec Ideal S32x32 .bf16) (p : Fin 8192) (q : Fin 32) :
    matmul dot_S8192x32_S32x32_S8192x32_1_0_0_1_n_n none l r (constant (F := Ideal) S8192x32 .f32 0x00000000#32) (ix2 p q)
      = ∑ k : Fin 32, l (ix2 p k) * r (ix2 k q) := by
  refine (Ideal.matmul_constant_zero_apply dot_S8192x32_S32x32_S8192x32_1_0_0_1_n_n none l r (ix2 p q)).trans ?_
  rw [← Equiv.sum_comp (ValueIdx.contrEquiv1 dot_S8192x32_S32x32_S8192x32_1_0_0_1_n_n 32 rfl rfl).symm]
  refine Finset.sum_congr rfl fun k _ => ?_
  have hk := ValueIdx.contrEquiv1_symm_val dot_S8192x32_S32x32_S8192x32_1_0_0_1_n_n 32 rfl rfl k
  have el : dot_S8192x32_S32x32_S8192x32_1_0_0_1_n_n.lhsIdx (ix2 p q) ((ValueIdx.contrEquiv1 dot_S8192x32_S32x32_S8192x32_1_0_0_1_n_n 32 rfl rfl).symm k) = ix2 p k := funext fun a => Fin.ext (by
    match a with
    | ⟨0, _⟩ => exact lhs0_32_32 _ _
    | ⟨1, _⟩ => exact (dot_S8192x32_S32x32_S8192x32_1_0_0_1_n_n.lhsIdx_val_of_single rfl _ _).trans hk)
  have er : dot_S8192x32_S32x32_S8192x32_1_0_0_1_n_n.rhsIdx (ix2 p q) ((ValueIdx.contrEquiv1 dot_S8192x32_S32x32_S8192x32_1_0_0_1_n_n 32 rfl rfl).symm k) = ix2 k q := funext fun a => Fin.ext (by
    match a with
    | ⟨0, _⟩ => exact (dot_S8192x32_S32x32_S8192x32_1_0_0_1_n_n.rhsIdx_val_of_single rfl _ _).trans hk
    | ⟨1, _⟩ => exact rhs1_32_32 _ _)
  rw [el, er]

theorem lhs0_32_64 (i : S8192x64.Idx) (c : dot_S8192x32_S32x64_S8192x64_1_0_0_1_n_n.contr.Idx) : (dot_S8192x32_S32x64_S8192x64_1_0_0_1_n_n.lhsIdx i c 0).val = (i 0).val := by
  unfold DotDims.lhsIdx
  rw [dif_neg (show ¬(0 : Fin S8192x32.rank) ∈ dot_S8192x32_S32x64_S8192x64_1_0_0_1_n_n.lhsBatch by decide), dif_pos (show (0 : Fin S8192x32.rank) ∈ dot_S8192x32_S32x64_S8192x64_1_0_0_1_n_n.lhsNonContracting by decide)]
  rfl
theorem rhs1_32_64 (i : S8192x64.Idx) (c : dot_S8192x32_S32x64_S8192x64_1_0_0_1_n_n.contr.Idx) : (dot_S8192x32_S32x64_S8192x64_1_0_0_1_n_n.rhsIdx i c 1).val = (i 1).val := by
  unfold DotDims.rhsIdx
  rw [dif_neg (show ¬(1 : Fin S32x64.rank) ∈ dot_S8192x32_S32x64_S8192x64_1_0_0_1_n_n.rhsBatch by decide), dif_pos (show (1 : Fin S32x64.rank) ∈ dot_S8192x32_S32x64_S8192x64_1_0_0_1_n_n.rhsNonContracting by decide)]
  rfl
/-- Rows of 32 entries times a 32 × 64 matrix into a zero accumulator: entry `(p, q)` is the sum over `k` of
    the row's entry `k` times the matrix's entry `(k, q)`. -/
theorem mm_32_64 (l : FVec Ideal S8192x32 .bf16) (r : FVec Ideal S32x64 .bf16) (p : Fin 8192) (q : Fin 64) :
    matmul dot_S8192x32_S32x64_S8192x64_1_0_0_1_n_n none l r (constant (F := Ideal) S8192x64 .f32 0x00000000#32) (ix2 p q)
      = ∑ k : Fin 32, l (ix2 p k) * r (ix2 k q) := by
  refine (Ideal.matmul_constant_zero_apply dot_S8192x32_S32x64_S8192x64_1_0_0_1_n_n none l r (ix2 p q)).trans ?_
  rw [← Equiv.sum_comp (ValueIdx.contrEquiv1 dot_S8192x32_S32x64_S8192x64_1_0_0_1_n_n 32 rfl rfl).symm]
  refine Finset.sum_congr rfl fun k _ => ?_
  have hk := ValueIdx.contrEquiv1_symm_val dot_S8192x32_S32x64_S8192x64_1_0_0_1_n_n 32 rfl rfl k
  have el : dot_S8192x32_S32x64_S8192x64_1_0_0_1_n_n.lhsIdx (ix2 p q) ((ValueIdx.contrEquiv1 dot_S8192x32_S32x64_S8192x64_1_0_0_1_n_n 32 rfl rfl).symm k) = ix2 p k := funext fun a => Fin.ext (by
    match a with
    | ⟨0, _⟩ => exact lhs0_32_64 _ _
    | ⟨1, _⟩ => exact (dot_S8192x32_S32x64_S8192x64_1_0_0_1_n_n.lhsIdx_val_of_single rfl _ _).trans hk)
  have er : dot_S8192x32_S32x64_S8192x64_1_0_0_1_n_n.rhsIdx (ix2 p q) ((ValueIdx.contrEquiv1 dot_S8192x32_S32x64_S8192x64_1_0_0_1_n_n 32 rfl rfl).symm k) = ix2 k q := funext fun a => Fin.ext (by
    match a with
    | ⟨0, _⟩ => exact (dot_S8192x32_S32x64_S8192x64_1_0_0_1_n_n.rhsIdx_val_of_single rfl _ _).trans hk
    | ⟨1, _⟩ => exact rhs1_32_64 _ _)
  rw [el, er]

theorem lhs0_64_32 (i : S8192x32.Idx) (c : dot_S8192x64_S64x32_S8192x32_1_0_0_1_n_n.contr.Idx) : (dot_S8192x64_S64x32_S8192x32_1_0_0_1_n_n.lhsIdx i c 0).val = (i 0).val := by
  unfold DotDims.lhsIdx
  rw [dif_neg (show ¬(0 : Fin S8192x64.rank) ∈ dot_S8192x64_S64x32_S8192x32_1_0_0_1_n_n.lhsBatch by decide), dif_pos (show (0 : Fin S8192x64.rank) ∈ dot_S8192x64_S64x32_S8192x32_1_0_0_1_n_n.lhsNonContracting by decide)]
  rfl
theorem rhs1_64_32 (i : S8192x32.Idx) (c : dot_S8192x64_S64x32_S8192x32_1_0_0_1_n_n.contr.Idx) : (dot_S8192x64_S64x32_S8192x32_1_0_0_1_n_n.rhsIdx i c 1).val = (i 1).val := by
  unfold DotDims.rhsIdx
  rw [dif_neg (show ¬(1 : Fin S64x32.rank) ∈ dot_S8192x64_S64x32_S8192x32_1_0_0_1_n_n.rhsBatch by decide), dif_pos (show (1 : Fin S64x32.rank) ∈ dot_S8192x64_S64x32_S8192x32_1_0_0_1_n_n.rhsNonContracting by decide)]
  rfl
/-- Rows of 64 entries times a 64 × 32 matrix into a zero accumulator: entry `(p, q)` is the sum over `k` of
    the row's entry `k` times the matrix's entry `(k, q)`. -/
theorem mm_64_32 (l : FVec Ideal S8192x64 .bf16) (r : FVec Ideal S64x32 .bf16) (p : Fin 8192) (q : Fin 32) :
    matmul dot_S8192x64_S64x32_S8192x32_1_0_0_1_n_n none l r (constant (F := Ideal) S8192x32 .f32 0x00000000#32) (ix2 p q)
      = ∑ k : Fin 64, l (ix2 p k) * r (ix2 k q) := by
  refine (Ideal.matmul_constant_zero_apply dot_S8192x64_S64x32_S8192x32_1_0_0_1_n_n none l r (ix2 p q)).trans ?_
  rw [← Equiv.sum_comp (ValueIdx.contrEquiv1 dot_S8192x64_S64x32_S8192x32_1_0_0_1_n_n 64 rfl rfl).symm]
  refine Finset.sum_congr rfl fun k _ => ?_
  have hk := ValueIdx.contrEquiv1_symm_val dot_S8192x64_S64x32_S8192x32_1_0_0_1_n_n 64 rfl rfl k
  have el : dot_S8192x64_S64x32_S8192x32_1_0_0_1_n_n.lhsIdx (ix2 p q) ((ValueIdx.contrEquiv1 dot_S8192x64_S64x32_S8192x32_1_0_0_1_n_n 64 rfl rfl).symm k) = ix2 p k := funext fun a => Fin.ext (by
    match a with
    | ⟨0, _⟩ => exact lhs0_64_32 _ _
    | ⟨1, _⟩ => exact (dot_S8192x64_S64x32_S8192x32_1_0_0_1_n_n.lhsIdx_val_of_single rfl _ _).trans hk)
  have er : dot_S8192x64_S64x32_S8192x32_1_0_0_1_n_n.rhsIdx (ix2 p q) ((ValueIdx.contrEquiv1 dot_S8192x64_S64x32_S8192x32_1_0_0_1_n_n 64 rfl rfl).symm k) = ix2 k q := funext fun a => Fin.ext (by
    match a with
    | ⟨0, _⟩ => exact (dot_S8192x64_S64x32_S8192x32_1_0_0_1_n_n.rhsIdx_val_of_single rfl _ _).trans hk
    | ⟨1, _⟩ => exact rhs1_64_32 _ _)
  rw [el, er]

end Cert.KernelIdeal.Hand

end
-- ==== Proof.RowSpec.lean ====
/-
  One row of the network, as plain mathematics on the extended reals.

  A dense layer sends a vector `x` to `j ↦ (∑ i, x i * W j i) + b j`. The network takes a row of eight inputs,
  splits it into columns 0-2, 3-4 and 5-7, sends each part through its own two dense layers with a rectifier
  between them, joins the three results (16 + 8 + 8 = 32 entries), and applies the rest: a dense layer to 64
  entries, normalisation of the 64 entries by their mean and variance, a scale and a shift, the hyperbolic
  tangent, and a residual two-layer network.

  The same 32 entries are also the result of ONE two-layer network on the whole row whose weight matrices carry
  the three parts' matrices as diagonal blocks and zeros elsewhere: the zero entries contribute nothing to any
  sum, because `x * 0 = 0` for every extended real `x`, infinite or not.
-/
import Idealize.ShloMosaic.PureOps.Ideal

open scoped BigOperators

noncomputable section

namespace Cert.Row

open Idealize.ShloMosaic

/-- A dense layer: entry `j` of the result is the sum of the products of `x` with row `j` of `W`, plus `b j`. -/
def lin {n k : ℕ} (W : Fin n → Fin k → EReal) (b : Fin n → EReal) (x : Fin k → EReal) : Fin n → EReal :=
  fun j => (∑ i, x i * W j i) + b j

/-- The rectifier, entry by entry. -/
def relu {n : ℕ} (x : Fin n → EReal) : Fin n → EReal := fun j => max (x j) 0

/-- The entries `a, a + 1, …, a + k - 1` of a vector. -/
def part {n k : ℕ} (a : ℕ) (h : a + k ≤ n) (x : Fin n → EReal) : Fin k → EReal :=
  fun i => x ⟨a + i.val, by have := i.isLt; omega⟩

/-- Three vectors of 16, 8 and 8 entries joined into one of 32. -/
def cat3 (a : Fin 16 → EReal) (b c : Fin 8 → EReal) : Fin 32 → EReal :=
  fun j => if h : j.val < 16 then a ⟨j.val, h⟩
    else if h2 : j.val < 24 then b ⟨j.val - 16, by omega⟩
    else c ⟨j.val - 24, by have := j.isLt; omega⟩

/-- A matrix with an `H × W` block `u` written over it at rows `r0 …` and columns `c0 …`. -/
def win {A B H W : ℕ} (r0 c0 : ℕ) (x : Fin A → Fin B → EReal) (u : Fin H → Fin W → EReal) : Fin A → Fin B → EReal :=
  fun p q => if h : (r0 ≤ p.val ∧ p.val < r0 + H) ∧ (c0 ≤ q.val ∧ q.val < c0 + W)
    then u ⟨p.val - r0, by omega⟩ ⟨q.val - c0, by omega⟩ else x p q

/-- The first layers' matrices as the diagonal blocks of a 32 × 8 matrix of zeros: rows 0-15 over columns 0-2,
    rows 16-23 over columns 3-4, rows 24-31 over columns 5-7. -/
def W1b (Wr : Fin 16 → Fin 3 → EReal) (Wi : Fin 8 → Fin 2 → EReal) (Wn : Fin 8 → Fin 3 → EReal) : Fin 32 → Fin 8 → EReal :=
  win 24 5 (win 16 3 (win 0 0 (fun _ _ => 0) Wr) Wi) Wn

/-- The second layers' matrices as the diagonal blocks of a 32 × 32 matrix of zeros. -/
def W2b (Wr : Fin 16 → Fin 16 → EReal) (Wi Wn : Fin 8 → Fin 8 → EReal) : Fin 32 → Fin 32 → EReal :=
  win 24 24 (win 16 16 (win 0 0 (fun _ _ => 0) Wr) Wi) Wn

/-- The three parts' two-layer networks on their columns of the row, joined. -/
def branches (Wr1 : Fin 16 → Fin 3 → EReal) (br1 : Fin 16 → EReal) (Wr2 : Fin 16 → Fin 16 → EReal) (br2 : Fin 16 → EReal)
    (Wi1 : Fin 8 → Fin 2 → EReal) (bi1 : Fin 8 → EReal) (Wi2 : Fin 8 → Fin 8 → EReal) (bi2 : Fin 8 → EReal)
    (Wn1 : Fin 8 → Fin 3 → EReal) (bn1 : Fin 8 → EReal) (Wn2 : Fin 8 → Fin 8 → EReal) (bn2 : Fin 8 → EReal)
    (x : Fin 8 → EReal) : Fin 32 → EReal :=
  cat3 (lin Wr2 br2 (relu (lin Wr1 br1 (part 0 (by decide) x))))
    (lin Wi2 bi2 (relu (lin Wi1 bi1 (part 3 (by decide) x))))
    (lin Wn2 bn2 (relu (lin Wn1 bn1 (part 5 (by decide) x))))

/-- The one two-layer network with block-diagonal matrices on the whole row. -/
def fused (Wr1 : Fin 16 → Fin 3 → EReal) (br1 : Fin 16 → EReal) (Wr2 : Fin 16 → Fin 16 → EReal) (br2 : Fin 16 → EReal)
    (Wi1 : Fin 8 → Fin 2 → EReal) (bi1 : Fin 8 → EReal) (Wi2 : Fin 8 → Fin 8 → EReal) (bi2 : Fin 8 → EReal)
    (Wn1 : Fin 8 → Fin 3 → EReal) (bn1 : Fin 8 → EReal) (Wn2 : Fin 8 → Fin 8 → EReal) (bn2 : Fin 8 → EReal)
    (x : Fin 8 → EReal) : Fin 32 → EReal :=
  lin (W2b Wr2 Wi2 Wn2) (cat3 br2 bi2 bn2) (relu (lin (W1b Wr1 Wi1 Wn1) (cat3 br1 bi1 bn1) x))

/-- The rest of the network after the 32 joined entries: a dense layer to 64 entries `h`; their mean `μ` and the
    mean `v` of the squares of `h - μ`, each a sum divided by `c64`; `tanh ((h - μ) * rsqrt (v + eps) * g + be)`;
    and that plus a residual two-layer network of it. -/
def rest (c64 eps : EReal) (Wc : Fin 64 → Fin 32 → EReal) (bc g be : Fin 64 → EReal)
    (Ws1 : Fin 32 → Fin 64 → EReal) (bs1 : Fin 32 → EReal) (Ws2 : Fin 64 → Fin 32 → EReal) (bs2 : Fin 64 → EReal)
    (comb : Fin 32 → EReal) : Fin 64 → EReal :=
  fun q =>
    (fun j => Ideal.tanh (((lin Wc bc comb j - Ideal.div (∑ j', lin Wc bc comb j') c64)
        * Ideal.rsqrt (Ideal.div (∑ j', (lin Wc bc comb j' - Ideal.div (∑ j'', lin Wc bc comb j'') c64)
            * (lin Wc bc comb j' - Ideal.div (∑ j'', lin Wc bc comb j'') c64)) c64 + eps)) * g j + be j)) q
    + lin Ws2 bs2 (relu (lin Ws1 bs1 (fun j => Ideal.tanh (((lin Wc bc comb j - Ideal.div (∑ j', lin Wc bc comb j') c64)
        * Ideal.rsqrt (Ideal.div (∑ j', (lin Wc bc comb j' - Ideal.div (∑ j'', lin Wc bc comb j'') c64)
            * (lin Wc bc comb j' - Ideal.div (∑ j'', lin Wc bc comb j'') c64)) c64 + eps)) * g j + be j)))) q

end Cert.Row

end
-- ==== Proof.RowIdx.lean ====
/-
  Arrays as matrices and vectors: a rank-2 array's entry `(p, q)` is the matrix's, a rank-1 array's entry `p` the
  vector's, and row `p` of a rank-2 array is the vector of its entries `(p, ·)`. The whole network on arrays:
  entry `(r, q)` of the result is entry `q` of the network applied to row `r` of the input.
-/
import proofs.«166149_j47193100648813_2_alg».proof.Proof.RowSpec
import Idealize.ShloMosaic.Lib.ValueIdx

noncomputable section

namespace Cert.Row

open Idealize.ShloMosaic Idealize.ShloMosaic.ValueIdx

/-- A rank-2 array as a matrix. -/
def mat {a b : ℕ} (X : (⟨2, ![a, b]⟩ : Shape).Idx → EReal) : Fin a → Fin b → EReal := fun p q => X (ix2 p q)

/-- A rank-1 array as a vector. -/
def vec {a : ℕ} (X : (⟨1, ![a]⟩ : Shape).Idx → EReal) : Fin a → EReal := fun p => X (ix1 p)

/-- Row `p` of a rank-2 array. -/
def row {a b : ℕ} (X : (⟨2, ![a, b]⟩ : Shape).Idx → EReal) (p : Fin a) : Fin b → EReal := fun k => X (ix2 p k)

/-- The divisor of the two means, the real number 64, as the word both programs print. -/
abbrev c64 : EReal := Ideal.ofBits .f32 0x42800000#32
/-- The variance's offset, as the word both programs print. -/
abbrev eps : EReal := Ideal.ofBits .f32 0x3727C5AC#32

/-- The network with fused first layers, on arrays: `n` rows of eight inputs to `n` rows of 64 results. -/
def fusedNet {n : ℕ} (X : (⟨2, ![n, 8]⟩ : Shape).Idx → EReal)
    (W1 : (⟨2, ![32, 8]⟩ : Shape).Idx → EReal) (b1 : (⟨1, ![32]⟩ : Shape).Idx → EReal)
    (W2 : (⟨2, ![32, 32]⟩ : Shape).Idx → EReal) (b2 : (⟨1, ![32]⟩ : Shape).Idx → EReal)
    (Wc : (⟨2, ![64, 32]⟩ : Shape).Idx → EReal) (bc g be : (⟨1, ![64]⟩ : Shape).Idx → EReal)
    (Ws1 : (⟨2, ![32, 64]⟩ : Shape).Idx → EReal) (bs1 : (⟨1, ![32]⟩ : Shape).Idx → EReal)
    (Ws2 : (⟨2, ![64, 32]⟩ : Shape).Idx → EReal) (bs2 : (⟨1, ![64]⟩ : Shape).Idx → EReal) :
    (⟨2, ![n, 64]⟩ : Shape).Idx → EReal :=
  fun i => rest c64 eps (mat Wc) (vec bc) (vec g) (vec be) (mat Ws1) (vec bs1) (mat Ws2) (vec bs2)
    (lin (mat W2) (vec b2) (relu (lin (mat W1) (vec b1) (row X (i 0))))) (i 1)

/-- The network with its three separate branches, on arrays. -/
def branchNet {n : ℕ} (X : (⟨2, ![n, 8]⟩ : Shape).Idx → EReal)
    (Wr1 : (⟨2, ![16, 3]⟩ : Shape).Idx → EReal) (br1 : (⟨1, ![16]⟩ : Shape).Idx → EReal)
    (Wr2 : (⟨2, ![16, 16]⟩ : Shape).Idx → EReal) (br2 : (⟨1, ![16]⟩ : Shape).Idx → EReal)
    (Wi1 : (⟨2, ![8, 2]⟩ : Shape).Idx → EReal) (bi1 : (⟨1, ![8]⟩ : Shape).Idx → EReal)
    (Wi2 : (⟨2, ![8, 8]⟩ : Shape).Idx → EReal) (bi2 : (⟨1, ![8]⟩ : Shape).Idx → EReal)
    (Wn1 : (⟨2, ![8, 3]⟩ : Shape).Idx → EReal) (bn1 : (⟨1, ![8]⟩ : Shape).Idx → EReal)
    (Wn2 : (⟨2, ![8, 8]⟩ : Shape).Idx → EReal) (bn2 : (⟨1, ![8]⟩ : Shape).Idx → EReal)
    (Wc : (⟨2, ![64, 32]⟩ : Shape).Idx → EReal) (bc g be : (⟨1, ![64]⟩ : Shape).Idx → EReal)
    (Ws1 : (⟨2, ![32, 64]⟩ : Shape).Idx → EReal) (bs1 : (⟨1, ![32]⟩ : Shape).Idx → EReal)
    (Ws2 : (⟨2, ![64, 32]⟩ : Shape).Idx → EReal) (bs2 : (⟨1, ![64]⟩ : Shape).Idx → EReal) :
    (⟨2, ![n, 64]⟩ : Shape).Idx → EReal :=
  fun i => rest c64 eps (mat Wc) (vec bc) (vec g) (vec be) (mat Ws1) (vec bs1) (mat Ws2) (vec bs2)
    (branches (mat Wr1) (vec br1) (mat Wr2) (vec br2) (mat Wi1) (vec bi1) (mat Wi2) (vec bi2)
      (mat Wn1) (vec bn1) (mat Wn2) (vec bn2) (row X (i 0))) (i 1)

end Cert.Row

end
-- ==== Proof.KernelIdealPayload.lean ====
/-
  The body's arithmetic read at an entry of the block. Each of the five matrix products followed by its bias is a
  dense layer of the row: entry `(p, q)` is the sum over `k` of the row's entry `k` times the weight matrix's entry
  `(q, k)`, plus the bias's entry `q` (the weights are loaded untransposed and transposed before the product; a
  change of float format is the identity here). The mean and the variance of a row are sums over its 64 entries
  divided by 64, kept as a column and spread back over the row. So entry `(p, q)` of the block the body stores is
  entry `q` of the network with fused first layers applied to row `p` of the input block.
-/
import proofs.«166149_j47193100648813_2_alg».proof.Proof.KernelIdealOps
import proofs.«166149_j47193100648813_2_alg».proof.Proof.RowIdx

open scoped BigOperators

noncomputable section

namespace Cert.KernelIdeal.Hand

open Cert.KernelIdeal Cert.KernelIdeal.Gen Cert.Row
open Idealize.ShloMosaic Idealize.ShloMosaic.ValueIdx

/-- A product of rows of 8 entries with the transposed 32 × 8 weights, plus the bias spread over the rows,
    is the dense layer of each row. -/
theorem dense_8_32 (Y : FVec Ideal S8192x8 .f32) (W : FVec Ideal S32x8 .f32) (b : FVec Ideal S32 .f32)
    (hlt : FTy.bits .bf16 < FTy.bits .f32) (hT : S32x8.Transposes [1, 0] S8x32) (hC : S32.ShapeCasts S1x32)
    (hB : S1x32.Broadcasts S8192x32) (p : Fin 8192) (q : Fin 32) :
    addf (matmul dot_S8192x8_S8x32_S8192x32_1_0_0_1_n_n none (truncf .bf16 Y hlt) (transpose S8x32 [1, 0] (truncf .bf16 W hlt) hT)
        (constant (F := Ideal) S8192x32 .f32 0x00000000#32)) (broadcastTo S8192x32 (shapeCast S1x32 b hC) hB) (ix2 p q)
      = lin (mat W) (vec b) (fun k => Y (ix2 p k)) q := by
  rw [addf_apply, mm_8_32, broadcastTo_1b_ab_apply, shapeCast_a_1a_apply]
  unfold lin mat vec
  refine congrArg (· + b (ix1 q)) (Finset.sum_congr rfl fun k _ => ?_)
  rw [truncf_apply, transpose_ix2_apply, truncf_apply]

/-- A product of rows of 32 entries with the transposed 32 × 32 weights, plus the bias spread over the rows,
    is the dense layer of each row. -/
theorem dense_32_32 (Y : FVec Ideal S8192x32 .f32) (W : FVec Ideal S32x32 .f32) (b : FVec Ideal S32 .f32)
    (hlt : FTy.bits .bf16 < FTy.bits .f32) (hT : S32x32.Transposes [1, 0] S32x32) (hC : S32.ShapeCasts S1x32)
    (hB : S1x32.Broadcasts S8192x32) (p : Fin 8192) (q : Fin 32) :
    addf (matmul dot_S8192x32_S32x32_S8192x32_1_0_0_1_n_n none (truncf .bf16 Y hlt) (transpose S32x32 [1, 0] (truncf .bf16 W hlt) hT)
        (constant (F := Ideal) S8192x32 .f32 0x00000000#32)) (broadcastTo S8192x32 (shapeCast S1x32 b hC) hB) (ix2 p q)
      = lin (mat W) (vec b) (fun k => Y (ix2 p k)) q := by
  rw [addf_apply, mm_32_32, broadcastTo_1b_ab_apply, shapeCast_a_1a_apply]
  unfold lin mat vec
  refine congrArg (· + b (ix1 q)) (Finset.sum_congr rfl fun k _ => ?_)
  rw [truncf_apply, transpose_ix2_apply, truncf_apply]

/-- A product of rows of 32 entries with the transposed 64 × 32 weights, plus the bias spread over the rows,
    is the dense layer of each row. -/
theorem dense_32_64 (Y : FVec Ideal S8192x32 .f32) (W : FVec Ideal S64x32 .f32) (b : FVec Ideal S64 .f32)
    (hlt : FTy.bits .bf16 < FTy.bits .f32) (hT : S64x32.Transposes [1, 0] S32x64) (hC : S64.ShapeCasts S1x64)
    (hB : S1x64.Broadcasts S8192x64) (p : Fin 8192) (q : Fin 64) :
    addf (matmul dot_S8192x32_S32x64_S8192x64_1_0_0_1_n_n none (truncf .bf16 Y hlt) (transpose S32x64 [1, 0] (truncf .bf16 W hlt) hT)
        (constant (F := Ideal) S8192x64 .f32 0x00000000#32)) (broadcastTo S8192x64 (shapeCast S1x64 b hC) hB) (ix2 p q)
      = lin (mat W) (vec b) (fun k => Y (ix2 p k)) q := by
  rw [addf_apply, mm_32_64, broadcastTo_1b_ab_apply, shapeCast_a_1a_apply]
  unfold lin mat vec
  refine congrArg (· + b (ix1 q)) (Finset.sum_congr rfl fun k _ => ?_)
  rw [truncf_apply, transpose_ix2_apply, truncf_apply]

/-- A product of rows of 64 entries with the transposed 32 × 64 weights, plus the bias spread over the rows,
    is the dense layer of each row. -/
theorem dense_64_32 (Y : FVec Ideal S8192x64 .f32) (W : FVec Ideal S32x64 .f32) (b : FVec Ideal S32 .f32)
    (hlt : FTy.bits .bf16 < FTy.bits .f32) (hT : S32x64.Transposes [1, 0] S64x32) (hC : S32.ShapeCasts S1x32)
    (hB : S1x32.Broadcasts S8192x32) (p : Fin 8192) (q : Fin 32) :
    addf (matmul dot_S8192x64_S64x32_S8192x32_1_0_0_1_n_n none (truncf .bf16 Y hlt) (transpose S64x32 [1, 0] (truncf .bf16 W hlt) hT)
        (constant (F := Ideal) S8192x32 .f32 0x00000000#32)) (broadcastTo S8192x32 (shapeCast S1x32 b hC) hB) (ix2 p q)
      = lin (mat W) (vec b) (fun k => Y (ix2 p k)) q := by
  rw [addf_apply, mm_64_32, broadcastTo_1b_ab_apply, shapeCast_a_1a_apply]
  unfold lin mat vec
  refine congrArg (· + b (ix1 q)) (Finset.sum_congr rfl fun k _ => ?_)
  rw [truncf_apply, transpose_ix2_apply, truncf_apply]

/-- The first three layers: the 64 entries before normalisation, from the row. -/
theorem pay2_at (x0 : Vec Ideal S8192x8 .f32) (x1 : Vec Ideal S32x8 .f32) (x2 : Vec Ideal S32 .f32) (x3 : Vec Ideal S32x32 .f32) (x4 : Vec Ideal S32 .f32) (x5 : Vec Ideal S64x32 .f32) (x6 : Vec Ideal S64 .f32) (p : Fin 8192) (q : Fin 64) :
    k0_pay2 x0 x1 x2 x3 x4 x5 x6 (ix2 p q)
      = lin (mat x5) (vec x6) (lin (mat x3) (vec x4) (relu (lin (mat x1) (vec x2) (row x0 p)))) q := by
  unfold k0_pay2
  try dsimp only
  simp only [shapeCast_self]
  rw [dense_32_64]
  refine congrArg (fun y => lin (mat x5) (vec x6) y q) (funext fun k => ?_)
  rw [dense_32_32]
  refine congrArg (fun y => lin (mat x3) (vec x4) y k) (funext fun k' => ?_)
  rw [maximumf_apply, dense_8_32, broadcast_apply]
  show max _ (Ideal.ofBits .f32 0x00000000#32) = max _ 0
  rw [Ideal.ofBits_zero_f32]
  rfl

/-- The mean of a row's 64 entries, kept as a column. -/
theorem pay3_at (x0 : Vec Ideal S8192x8 .f32) (x1 : Vec Ideal S32x8 .f32) (x2 : Vec Ideal S32 .f32) (x3 : Vec Ideal S32x32 .f32) (x4 : Vec Ideal S32 .f32) (x5 : Vec Ideal S64x32 .f32) (x6 : Vec Ideal S64 .f32) (p : Fin 8192) (u : Fin 1) :
    k0_pay3 x0 x1 x2 x3 x4 x5 x6 (ix2 p u) = Ideal.div (∑ k : Fin 64, k0_pay2 x0 x1 x2 x3 x4 x5 x6 (ix2 p k)) c64 := by
  unfold k0_pay3
  try dsimp only
  rw [divf_apply, cast_col, broadcast_apply, rowsum64]
  rfl

/-- The squared deviation from the mean. -/
theorem pay4_at (x0 : Vec Ideal S8192x8 .f32) (x1 : Vec Ideal S32x8 .f32) (x2 : Vec Ideal S32 .f32) (x3 : Vec Ideal S32x32 .f32) (x4 : Vec Ideal S32 .f32) (x5 : Vec Ideal S64x32 .f32) (x6 : Vec Ideal S64 .f32) (p : Fin 8192) (q : Fin 64) :
    k0_pay4 x0 x1 x2 x3 x4 x5 x6 (ix2 p q)
      = (k0_pay2 x0 x1 x2 x3 x4 x5 x6 (ix2 p q) - k0_pay3 x0 x1 x2 x3 x4 x5 x6 (ix2 p (0 : Fin 1)))
        * (k0_pay2 x0 x1 x2 x3 x4 x5 x6 (ix2 p q) - k0_pay3 x0 x1 x2 x3 x4 x5 x6 (ix2 p (0 : Fin 1))) := by
  unfold k0_pay4
  try dsimp only
  rw [mulf_apply, subf_apply, bcast_col]

/-- The normalised, scaled, shifted row under the hyperbolic tangent, from the entries `h`, the column of means `mu`
    and the squared deviations `sq`. -/
def baseOf (h : FVec Ideal S8192x64 .f32) (mu : FVec Ideal S8192x1 .f32) (sq : FVec Ideal S8192x64 .f32)
    (g be : Vec Ideal S64 .f32) (p : Fin 8192) : Fin 64 → EReal :=
  fun j => Ideal.tanh ((h (ix2 p j) - mu (ix2 p (0 : Fin 1)))
    * Ideal.rsqrt (Ideal.div (∑ k : Fin 64, sq (ix2 p k)) c64 + eps) * g (ix1 j) + be (ix1 j))

/-- The rest of the body, over whatever the first part handed it. -/
theorem pay1_gen (h : FVec Ideal S8192x64 .f32) (mu : FVec Ideal S8192x1 .f32) (sq : FVec Ideal S8192x64 .f32)
    (x7 x8 : Vec Ideal S64 .f32) (x9 : Vec Ideal S32x64 .f32) (x10 : Vec Ideal S32 .f32) (x11 : Vec Ideal S64x32 .f32)
    (x12 : Vec Ideal S64 .f32) (p : Fin 8192) (q : Fin 64) :
    k0_pay1 h mu sq x7 x8 x9 x10 x11 x12 (ix2 p q)
      = baseOf h mu sq x7 x8 p q
        + lin (mat x11) (vec x12) (relu (lin (mat x9) (vec x10) (baseOf h mu sq x7 x8 p))) q := by
  have hbase : ∀ j : Fin 64,
      tanh (addf (mulf (mulf (subf h (broadcastTo S8192x64 mu broadcasts_S8192x1_S8192x64))
          (broadcastTo S8192x64 (rsqrt (addf (divf (shapeCast S8192x1 (multiReduction .add [1] S8192 sq 0x00000000#32 reduces_S8192x64_S8192 (.inl rfl) rfl) shapeCasts_S8192_S8192x1)
            (broadcast S8192x1 (Scalar.ofBits (F := Ideal) .f32 0x42800000#32))) (broadcast S8192x1 (Scalar.ofBits (F := Ideal) .f32 0x3727C5AC#32)))) broadcasts_S8192x1_S8192x64))
          (broadcastTo S8192x64 (shapeCast S1x64 x7 shapeCasts_S64_S1x64) broadcasts_S1x64_S8192x64))
          (broadcastTo S8192x64 (shapeCast S1x64 x8 shapeCasts_S64_S1x64) broadcasts_S1x64_S8192x64)) (ix2 p j)
        = baseOf h mu sq x7 x8 p j := by
    intro j
    show FloatOps.tanh (_ + _) = _
    rw [mulf_apply, mulf_apply, subf_apply, bcast_col, bcast_col, broadcastTo_1b_ab_apply, shapeCast_a_1a_apply,
      broadcastTo_1b_ab_apply, shapeCast_a_1a_apply]
    show FloatOps.tanh ((h (ix2 p j) - mu (ix2 p 0)) * FloatOps.rsqrt (addf _ _ (ix2 p 0)) * x7 (ix1 j) + x8 (ix1 j)) = _
    rw [addf_apply, divf_apply, cast_col, broadcast_apply, broadcast_apply, rowsum64]
    rfl
  unfold k0_pay1
  try dsimp only
  rw [addf_apply, hbase q, dense_32_64]
  refine congrArg (fun y => baseOf h mu sq x7 x8 p q + lin (mat x11) (vec x12) y q) (funext fun k => ?_)
  rw [maximumf_apply, dense_64_32, broadcast_apply]
  show max _ (Ideal.ofBits .f32 0x00000000#32) = max _ 0
  rw [Ideal.ofBits_zero_f32]
  refine congrArg (fun y => max (lin (mat x9) (vec x10) y k) 0) (funext fun j => ?_)
  exact hbase j

/-- The whole body at an entry: the network with fused first layers on the row. -/
theorem pay1_at (x0 : Vec Ideal S8192x8 .f32) (x1 : Vec Ideal S32x8 .f32) (x2 : Vec Ideal S32 .f32) (x3 : Vec Ideal S32x32 .f32) (x4 : Vec Ideal S32 .f32) (x5 : Vec Ideal S64x32 .f32) (x6 : Vec Ideal S64 .f32) (x7 x8 : Vec Ideal S64 .f32) (x9 : Vec Ideal S32x64 .f32) (x10 : Vec Ideal S32 .f32)
    (x11 : Vec Ideal S64x32 .f32) (x12 : Vec Ideal S64 .f32) (p : Fin 8192) (q : Fin 64) :
    k0_pay1 (k0_pay2 x0 x1 x2 x3 x4 x5 x6) (k0_pay3 x0 x1 x2 x3 x4 x5 x6) (k0_pay4 x0 x1 x2 x3 x4 x5 x6) x7 x8 x9 x10 x11 x12 (ix2 p q)
      = rest c64 eps (mat x5) (vec x6) (vec x7) (vec x8) (mat x9) (vec x10) (mat x11) (vec x12)
          (lin (mat x3) (vec x4) (relu (lin (mat x1) (vec x2) (row x0 p)))) q := by
  rw [pay1_gen]
  unfold baseOf
  simp only [pay4_at, pay3_at, pay2_at]
  rfl

end Cert.KernelIdeal.Hand

end
-- ==== Proof.KernelIdealValue.lean ====
/-
  What the kernel computes, as one function of the arrays the launch finds. The 256 grid points' output blocks
  are the 256 consecutive groups of 8192 rows, so they tile the result; block `t` of the row input is rows
  `8192 t …` and every other operand's block is the whole operand at every point. Hence what point `t` writes
  back is block `t` of the network with fused first layers applied row by row, and the result array ends as that
  network of the launch-time arrays.
-/
import proofs.«166149_j47193100648813_2_alg».proof.Proof.KernelIdealFrame
import proofs.«166149_j47193100648813_2_alg».proof.Proof.KernelIdealPayload
import Idealize.ShloMosaic.Lib.Pipeline.Value

set_option maxRecDepth 16384

noncomputable section

namespace Cert.KernelIdeal.Hand

open Cert.KernelIdeal Cert.KernelIdeal.Gen Cert.Row
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The index maps, decided over the grid -/

/-- The row input's block index is the grid point on the rows and 0 on the columns, -/
theorem idxw0 : ∀ t : Fin cfg0.N, win0_0.index t (0 : Fin 2) = t.val ∧ win0_0.index t (1 : Fin 2) = 0 :=
  (by decide +kernel : ∀ t : Fin grid0.N, _)
/-- and so is the output's. -/
theorem idxw13 : ∀ t : Fin cfg0.N, win0_13.index t (0 : Fin 2) = t.val ∧ win0_13.index t (1 : Fin 2) = 0 :=
  (by decide +kernel : ∀ t : Fin grid0.N, _)
/-- Window 1's block index is 0 at every point. -/
theorem idxw1 : ∀ t : Fin cfg0.N, win0_1.index t (0 : Fin 2) = 0 ∧ win0_1.index t (1 : Fin 2) = 0 :=
  (by decide +kernel : ∀ t : Fin grid0.N, _)
/-- Window 2's block index is 0 at every point. -/
theorem idxw2 : ∀ t : Fin cfg0.N, win0_2.index t (0 : Fin 1) = 0 :=
  (by decide +kernel : ∀ t : Fin grid0.N, _)
/-- Window 3's block index is 0 at every point. -/
theorem idxw3 : ∀ t : Fin cfg0.N, win0_3.index t (0 : Fin 2) = 0 ∧ win0_3.index t (1 : Fin 2) = 0 :=
  (by decide +kernel : ∀ t : Fin grid0.N, _)
/-- Window 4's block index is 0 at every point. -/
theorem idxw4 : ∀ t : Fin cfg0.N, win0_4.index t (0 : Fin 1) = 0 :=
  (by decide +kernel : ∀ t : Fin grid0.N, _)
/-- Window 5's block index is 0 at every point. -/
theorem idxw5 : ∀ t : Fin cfg0.N, win0_5.index t (0 : Fin 2) = 0 ∧ win0_5.index t (1 : Fin 2) = 0 :=
  (by decide +kernel : ∀ t : Fin grid0.N, _)
/-- Window 6's block index is 0 at every point. -/
theorem idxw6 : ∀ t : Fin cfg0.N, win0_6.index t (0 : Fin 1) = 0 :=
  (by decide +kernel : ∀ t : Fin grid0.N, _)
/-- Window 7's block index is 0 at every point. -/
theorem idxw7 : ∀ t : Fin cfg0.N, win0_7.index t (0 : Fin 1) = 0 :=
  (by decide +kernel : ∀ t : Fin grid0.N, _)
/-- Window 8's block index is 0 at every point. -/
theorem idxw8 : ∀ t : Fin cfg0.N, win0_8.index t (0 : Fin 1) = 0 :=
  (by decide +kernel : ∀ t : Fin grid0.N, _)
/-- Window 9's block index is 0 at every point. -/
theorem idxw9 : ∀ t : Fin cfg0.N, win0_9.index t (0 : Fin 2) = 0 ∧ win0_9.index t (1 : Fin 2) = 0 :=
  (by decide +kernel : ∀ t : Fin grid0.N, _)
/-- Window 10's block index is 0 at every point. -/
theorem idxw10 : ∀ t : Fin cfg0.N, win0_10.index t (0 : Fin 1) = 0 :=
  (by decide +kernel : ∀ t : Fin grid0.N, _)
/-- Window 11's block index is 0 at every point. -/
theorem idxw11 : ∀ t : Fin cfg0.N, win0_11.index t (0 : Fin 2) = 0 ∧ win0_11.index t (1 : Fin 2) = 0 :=
  (by decide +kernel : ∀ t : Fin grid0.N, _)
/-- Window 12's block index is 0 at every point. -/
theorem idxw12 : ∀ t : Fin cfg0.N, win0_12.index t (0 : Fin 1) = 0 :=
  (by decide +kernel : ∀ t : Fin grid0.N, _)

/-! ## The small operands' blocks are the whole operands -/

theorem iblk1_eq (c : Dev nD) (t : Fin cfg0.N) : (iblk m c 1 t : S32x8.Idx → EReal) = V m c main_v12 := by
  funext y
  show V m c main_v12 (((cfg0.win 1).blk t).view.emb y) = V m c main_v12 y
  refine congrArg _ (funext fun a => Fin.ext ?_)
  have e := idxw1 t
  match a with
  | ⟨0, _⟩ => show win0_1.index t (0 : Fin 2) * 32 + 1 * (y 0).val = (y 0).val; omega
  | ⟨1, _⟩ => show win0_1.index t (1 : Fin 2) * 8 + 1 * (y 1).val = (y 1).val; omega
theorem iblk2_eq (c : Dev nD) (t : Fin cfg0.N) : (iblk m c 2 t : S32.Idx → EReal) = V m c main_v13 := by
  funext y
  show V m c main_v13 (((cfg0.win 2).blk t).view.emb y) = V m c main_v13 y
  refine congrArg _ (funext fun a => Fin.ext ?_)
  have e := idxw2 t
  match a with
  | ⟨0, _⟩ => show win0_2.index t (0 : Fin 1) * 32 + 1 * (y 0).val = (y 0).val; omega
theorem iblk3_eq (c : Dev nD) (t : Fin cfg0.N) : (iblk m c 3 t : S32x32.Idx → EReal) = V m c main_v26 := by
  funext y
  show V m c main_v26 (((cfg0.win 3).blk t).view.emb y) = V m c main_v26 y
  refine congrArg _ (funext fun a => Fin.ext ?_)
  have e := idxw3 t
  match a with
  | ⟨0, _⟩ => show win0_3.index t (0 : Fin 2) * 32 + 1 * (y 0).val = (y 0).val; omega
  | ⟨1, _⟩ => show win0_3.index t (1 : Fin 2) * 32 + 1 * (y 1).val = (y 1).val; omega
theorem iblk4_eq (c : Dev nD) (t : Fin cfg0.N) : (iblk m c 4 t : S32.Idx → EReal) = V m c main_v27 := by
  funext y
  show V m c main_v27 (((cfg0.win 4).blk t).view.emb y) = V m c main_v27 y
  refine congrArg _ (funext fun a => Fin.ext ?_)
  have e := idxw4 t
  match a with
  | ⟨0, _⟩ => show win0_4.index t (0 : Fin 1) * 32 + 1 * (y 0).val = (y 0).val; omega
theorem iblk5_eq (c : Dev nD) (t : Fin cfg0.N) : (iblk m c 5 t : S64x32.Idx → EReal) = V m c main_arg13 := by
  funext y
  show V m c main_arg13 (((cfg0.win 5).blk t).view.emb y) = V m c main_arg13 y
  refine congrArg _ (funext fun a => Fin.ext ?_)
  have e := idxw5 t
  match a with
  | ⟨0, _⟩ => show win0_5.index t (0 : Fin 2) * 64 + 1 * (y 0).val = (y 0).val; omega
  | ⟨1, _⟩ => show win0_5.index t (1 : Fin 2) * 32 + 1 * (y 1).val = (y 1).val; omega
theorem iblk6_eq (c : Dev nD) (t : Fin cfg0.N) : (iblk m c 6 t : S64.Idx → EReal) = V m c main_arg14 := by
  funext y
  show V m c main_arg14 (((cfg0.win 6).blk t).view.emb y) = V m c main_arg14 y
  refine congrArg _ (funext fun a => Fin.ext ?_)
  have e := idxw6 t
  match a with
  | ⟨0, _⟩ => show win0_6.index t (0 : Fin 1) * 64 + 1 * (y 0).val = (y 0).val; omega
theorem iblk7_eq (c : Dev nD) (t : Fin cfg0.N) : (iblk m c 7 t : S64.Idx → EReal) = V m c main_arg15 := by
  funext y
  show V m c main_arg15 (((cfg0.win 7).blk t).view.emb y) = V m c main_arg15 y
  refine congrArg _ (funext fun a => Fin.ext ?_)
  have e := idxw7 t
  match a with
  | ⟨0, _⟩ => show win0_7.index t (0 : Fin 1) * 64 + 1 * (y 0).val = (y 0).val; omega
theorem iblk8_eq (c : Dev nD) (t : Fin cfg0.N) : (iblk m c 8 t : S64.Idx → EReal) = V m c main_arg16 := by
  funext y
  show V m c main_arg16 (((cfg0.win 8).blk t).view.emb y) = V m c main_arg16 y
  refine congrArg _ (funext fun a => Fin.ext ?_)
  have e := idxw8 t
  match a with
  | ⟨0, _⟩ => show win0_8.index t (0 : Fin 1) * 64 + 1 * (y 0).val = (y 0).val; omega
theorem iblk9_eq (c : Dev nD) (t : Fin cfg0.N) : (iblk m c 9 t : S32x64.Idx → EReal) = V m c main_arg17 := by
  funext y
  show V m c main_arg17 (((cfg0.win 9).blk t).view.emb y) = V m c main_arg17 y
  refine congrArg _ (funext fun a => Fin.ext ?_)
  have e := idxw9 t
  match a with
  | ⟨0, _⟩ => show win0_9.index t (0 : Fin 2) * 32 + 1 * (y 0).val = (y 0).val; omega
  | ⟨1, _⟩ => show win0_9.index t (1 : Fin 2) * 64 + 1 * (y 1).val = (y 1).val; omega
theorem iblk10_eq (c : Dev nD) (t : Fin cfg0.N) : (iblk m c 10 t : S32.Idx → EReal) = V m c main_arg18 := by
  funext y
  show V m c main_arg18 (((cfg0.win 10).blk t).view.emb y) = V m c main_arg18 y
  refine congrArg _ (funext fun a => Fin.ext ?_)
  have e := idxw10 t
  match a with
  | ⟨0, _⟩ => show win0_10.index t (0 : Fin 1) * 32 + 1 * (y 0).val = (y 0).val; omega
theorem iblk11_eq (c : Dev nD) (t : Fin cfg0.N) : (iblk m c 11 t : S64x32.Idx → EReal) = V m c main_arg19 := by
  funext y
  show V m c main_arg19 (((cfg0.win 11).blk t).view.emb y) = V m c main_arg19 y
  refine congrArg _ (funext fun a => Fin.ext ?_)
  have e := idxw11 t
  match a with
  | ⟨0, _⟩ => show win0_11.index t (0 : Fin 2) * 64 + 1 * (y 0).val = (y 0).val; omega
  | ⟨1, _⟩ => show win0_11.index t (1 : Fin 2) * 32 + 1 * (y 1).val = (y 1).val; omega
theorem iblk12_eq (c : Dev nD) (t : Fin cfg0.N) : (iblk m c 12 t : S64.Idx → EReal) = V m c main_arg20 := by
  funext y
  show V m c main_arg20 (((cfg0.win 12).blk t).view.emb y) = V m c main_arg20 y
  refine congrArg _ (funext fun a => Fin.ext ?_)
  have e := idxw12 t
  match a with
  | ⟨0, _⟩ => show win0_12.index t (0 : Fin 1) * 64 + 1 * (y 0).val = (y 0).val; omega

/-! ## The result array -/

/-- The network with fused first layers of the arrays the launch finds. -/
def outArr (c : Dev nD) : S2097152x64.Idx → EReal :=
  fusedNet (V m c main_arg0) (V m c main_v12) (V m c main_v13) (V m c main_v26) (V m c main_v27) (V m c main_arg13)
    (V m c main_arg14) (V m c main_arg15) (V m c main_arg16) (V m c main_arg17) (V m c main_arg18) (V m c main_arg19)
    (V m c main_arg20)

/-- What point `t` writes back is block `t` of that array. -/
theorem flushed13_eq (c : Dev nD) (t : Fin cfg0.N) :
    (dats m 0 c).flushed 13 t = ((cfg0.win 13).blk t).view.read (Elt Ideal) (outArr m c) := by
  show (cfg0.win 13).cut (grid0.coords t) ((dats m 0 c).after 13 t) = _
  rw [after13]
  unfold out13
  rw [View.canon_unit_zero hz2]
  simp only [View.ld_unit_zero (S := S8192x8) hz2, View.ld_unit_zero (S := S32x8) hz2, View.ld_unit_zero (S := S32) hz1,
    View.ld_unit_zero (S := S32x32) hz2, View.ld_unit_zero (S := S64x32) hz2, View.ld_unit_zero (S := S64) hz1,
    View.ld_unit_zero (S := S32x64) hz2]
  funext j
  obtain ⟨jp, jq, rfl⟩ : ∃ (jp : Fin 8192) (jq : Fin 64), j = ix2 jp jq := ⟨j 0, j 1, eq_ix2 j⟩
  refine (pay1_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) jp jq).trans ?_
  rw [iblk1_eq, iblk2_eq, iblk3_eq, iblk4_eq, iblk5_eq, iblk6_eq, iblk7_eq, iblk8_eq, iblk9_eq, iblk10_eq, iblk11_eq, iblk12_eq]
  obtain ⟨a0, a1⟩ := idxw0 t
  obtain ⟨b0, b1⟩ := idxw13 t
  have e1 : (((cfg0.win 13).blk t).view.emb (ix2 jp jq)) 1 = jq := Fin.ext (by
    show win0_13.index t (1 : Fin 2) * 64 + 1 * jq.val = jq.val; omega)
  have er : row (iblk m c 0 t) jp = row (V m c main_arg0) ((((cfg0.win 13).blk t).view.emb (ix2 jp jq)) 0) := funext fun k => by
    show V m c main_arg0 (((cfg0.win 0).blk t).view.emb (ix2 jp k)) = V m c main_arg0 (ix2 ((((cfg0.win 13).blk t).view.emb (ix2 jp jq)) 0) k)
    refine congrArg _ (funext fun a => Fin.ext ?_)
    match a with
    | ⟨0, _⟩ => show win0_0.index t (0 : Fin 2) * 8192 + 1 * jp.val = win0_13.index t (0 : Fin 2) * 8192 + 1 * jp.val; omega
    | ⟨1, _⟩ => show win0_0.index t (1 : Fin 2) * 8 + 1 * k.val = k.val; omega
  show _ = fusedNet _ _ _ _ _ _ _ _ _ _ _ _ _ (((cfg0.win 13).blk t).view.emb (ix2 jp jq))
  unfold fusedNet
  rw [er, e1]

/-- An index of the result is in point `t`'s block iff each coordinate is in the block's range. -/
theorem mem_blk13 (t : Fin cfg0.N) (i : S2097152x64.Idx) :
    i ∈ ((cfg0.win 13).blk t).view.set ↔ ∀ a : Fin 2, win0_13.index t a * S8192x64.size a ≤ (i a).val ∧ (i a).val < win0_13.index t a * S8192x64.size a + S8192x64.size a := by
  show i ∈ ((View.whole main_v28).slice (win0_13.rect t)).set ↔ _
  rw [View.set_slice_whole, Rect.mem_set_unit]
  exact Iff.rfl

/-- Every row of the result is in the block of the point `row / 8192`. -/
theorem covered13 (i : S2097152x64.Idx) :
    ∃ t : Fin cfg0.N, (cfg0.win 13).flush t = true ∧ i ∈ ((cfg0.win 13).blk t).view.set := by
  have hi0 : (i 0).val < 2097152 := (i 0).isLt
  have hi1 : (i 1).val < 64 := (i 1).isLt
  have hN : grid0.N = 256 := N_0
  have ht : (i 0).val / 8192 < cfg0.N := by show (i 0).val / 8192 < grid0.N; omega
  refine ⟨⟨(i 0).val / 8192, ht⟩, flush0_13 _, ?_⟩
  rw [mem_blk13]
  obtain ⟨b0, b1⟩ := idxw13 ⟨(i 0).val / 8192, ht⟩
  intro a
  match a with
  | ⟨0, _⟩ =>
    show win0_13.index ⟨(i 0).val / 8192, ht⟩ (0 : Fin 2) * 8192 ≤ (i 0).val ∧ (i 0).val < win0_13.index ⟨(i 0).val / 8192, ht⟩ (0 : Fin 2) * 8192 + 8192
    rw [b0]; show (i 0).val / 8192 * 8192 ≤ (i 0).val ∧ (i 0).val < (i 0).val / 8192 * 8192 + 8192; omega
  | ⟨1, _⟩ =>
    show win0_13.index ⟨(i 0).val / 8192, ht⟩ (1 : Fin 2) * 64 ≤ (i 1).val ∧ (i 1).val < win0_13.index ⟨(i 0).val / 8192, ht⟩ (1 : Fin 2) * 64 + 64
    rw [b1]; omega

/-- The result array after the run. -/
theorem final13 (c : Dev nD) : (dats m 0 c).arrAt 13 cfg0.N = outArr m c :=
  (dats m 0 c).arrAt_eq_of_cover 13 (outArr m c) (fun t _ => flushed13_eq m c t) covered13

/-! ## The run, read -/

/-- From the pipeline's post, the result array is the fused network of the arrays the launch found. -/
theorem post13 (r : PUnit × MemSt nD τ sig (Elt Ideal)) (h : Pipeline.FramePost cfgs (dats m) 0 (V m) r) (c : Dev nD) :
    r.2.mem ((c.tc : Thread nD τ).loc main_v28) = outArr m c :=
  ((h c).1 13).trans (final13 m c)

/-- From the pipeline's post, argument 0 is as it began: an input window stages it and never writes it back. -/
theorem kept_arg0 (r : PUnit × MemSt nD τ sig (Elt Ideal)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- From the pipeline's post, argument 1 is as it began: no window stages it and nothing writes it. -/
theorem kept_arg1 (r : PUnit × MemSt nD τ sig (Elt Ideal)) (h : Pipeline.FramePost cfgs (dats m) 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)

/-- From the pipeline's post, argument 2 is as it began: no window stages it and nothing writes it. -/
theorem kept_arg2 (r : PUnit × MemSt nD τ sig (Elt Ideal)) (h : Pipeline.FramePost cfgs (dats m) 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)

/-- From the pipeline's post, argument 3 is as it began: no window stages it and nothing writes it. -/
theorem kept_arg3 (r : PUnit × MemSt nD τ sig (Elt Ideal)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)

/-- From the pipeline's post, argument 4 is as it began: no window stages it and nothing writes it. -/
theorem kept_arg4 (r : PUnit × MemSt nD τ sig (Elt Ideal)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)

/-- From the pipeline's post, argument 5 is as it began: no window stages it and nothing writes it. -/
theorem kept_arg5 (r : PUnit × MemSt nD τ sig (Elt Ideal)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)

/-- From the pipeline's post, argument 6 is as it began: no window stages it and nothing writes it. -/
theorem kept_arg6 (r : PUnit × MemSt nD τ sig (Elt Ideal)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)

/-- From the pipeline's post, argument 7 is as it began: no window stages it and nothing writes it. -/
theorem kept_arg7 (r : PUnit × MemSt nD τ sig (Elt Ideal)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)

/-- From the pipeline's post, argument 8 is as it began: no window stages it and nothing writes it. -/
theorem kept_arg8 (r : PUnit × MemSt nD τ sig (Elt Ideal)) (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)

/-- From the pipeline's post, argument 9 is as it began: no window stages it and nothing writes it. -/
theorem kept_arg9 (r : PUnit × MemSt nD τ sig (Elt Ideal)) (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)

/-- From the pipeline's post, argument 10 is as it began: no window stages it and nothing writes it. -/
theorem kept_arg10 (r : PUnit × MemSt nD τ sig (Elt Ideal)) (h : Pipeline.FramePost cfgs (dats m) 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)

/-- From the pipeline's post, argument 11 is as it began: no window stages it and nothing writes it. -/
theorem kept_arg11 (r : PUnit × MemSt nD τ sig (Elt Ideal)) (h : Pipeline.FramePost cfgs (dats m) 0 (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_main_arg11 m c)

/-- From the pipeline's post, argument 12 is as it began: no window stages it and nothing writes it. -/
theorem kept_arg12 (r : PUnit × MemSt nD τ sig (Elt Ideal)) (h : Pipeline.FramePost cfgs (dats m) 0 (V m) r) (c : Dev nD) :
    r.2.mem ((c.tc : Thread nD τ).loc main_arg12) = m ((c.tc : Thread nD τ).loc main_arg12) :=
  ((h c).2 main_arg12 (Pipeline.mem_restRefs_of main_arg12 (by decide) (by decide))).trans (V_main_arg12 m c)

/-- From the pipeline's post, argument 13 is as it began: an input window stages it and never writes it back. -/
theorem kept_arg13 (r : PUnit × MemSt nD τ sig (Elt Ideal)) (h : Pipeline.FramePost cfgs (dats m) 0 (V m) r) (c : Dev nD) :
    r.2.mem ((c.tc : Thread nD τ).loc main_arg13) = m ((c.tc : Thread nD τ).loc main_arg13) :=
  ((h c).1 5).trans (((dats m 0 c).arrAt_in 5 rfl _).trans ((A_eq m c 5).trans (V_main_arg13 m c)))

/-- From the pipeline's post, argument 14 is as it began: an input window stages it and never writes it back. -/
theorem kept_arg14 (r : PUnit × MemSt nD τ sig (Elt Ideal)) (h : Pipeline.FramePost cfgs (dats m) 0 (V m) r) (c : Dev nD) :
    r.2.mem ((c.tc : Thread nD τ).loc main_arg14) = m ((c.tc : Thread nD τ).loc main_arg14) :=
  ((h c).1 6).trans (((dats m 0 c).arrAt_in 6 rfl _).trans ((A_eq m c 6).trans (V_main_arg14 m c)))

/-- From the pipeline's post, argument 15 is as it began: an input window stages it and never writes it back. -/
theorem kept_arg15 (r : PUnit × MemSt nD τ sig (Elt Ideal)) (h : Pipeline.FramePost cfgs (dats m) 0 (V m) r) (c : Dev nD) :
    r.2.mem ((c.tc : Thread nD τ).loc main_arg15) = m ((c.tc : Thread nD τ).loc main_arg15) :=
  ((h c).1 7).trans (((dats m 0 c).arrAt_in 7 rfl _).trans ((A_eq m c 7).trans (V_main_arg15 m c)))

/-- From the pipeline's post, argument 16 is as it began: an input window stages it and never writes it back. -/
theorem kept_arg16 (r : PUnit × MemSt nD τ sig (Elt Ideal)) (h : Pipeline.FramePost cfgs (dats m) 0 (V m) r) (c : Dev nD) :
    r.2.mem ((c.tc : Thread nD τ).loc main_arg16) = m ((c.tc : Thread nD τ).loc main_arg16) :=
  ((h c).1 8).trans (((dats m 0 c).arrAt_in 8 rfl _).trans ((A_eq m c 8).trans (V_main_arg16 m c)))

/-- From the pipeline's post, argument 17 is as it began: an input window stages it and never writes it back. -/
theorem kept_arg17 (r : PUnit × MemSt nD τ sig (Elt Ideal)) (h : Pipeline.FramePost cfgs (dats m) 0 (V m) r) (c : Dev nD) :
    r.2.mem ((c.tc : Thread nD τ).loc main_arg17) = m ((c.tc : Thread nD τ).loc main_arg17) :=
  ((h c).1 9).trans (((dats m 0 c).arrAt_in 9 rfl _).trans ((A_eq m c 9).trans (V_main_arg17 m c)))

/-- From the pipeline's post, argument 18 is as it began: an input window stages it and never writes it back. -/
theorem kept_arg18 (r : PUnit × MemSt nD τ sig (Elt Ideal)) (h : Pipeline.FramePost cfgs (dats m) 0 (V m) r) (c : Dev nD) :
    r.2.mem ((c.tc : Thread nD τ).loc main_arg18) = m ((c.tc : Thread nD τ).loc main_arg18) :=
  ((h c).1 10).trans (((dats m 0 c).arrAt_in 10 rfl _).trans ((A_eq m c 10).trans (V_main_arg18 m c)))

/-- From the pipeline's post, argument 19 is as it began: an input window stages it and never writes it back. -/
theorem kept_arg19 (r : PUnit × MemSt nD τ sig (Elt Ideal)) (h : Pipeline.FramePost cfgs (dats m) 0 (V m) r) (c : Dev nD) :
    r.2.mem ((c.tc : Thread nD τ).loc main_arg19) = m ((c.tc : Thread nD τ).loc main_arg19) :=
  ((h c).1 11).trans (((dats m 0 c).arrAt_in 11 rfl _).trans ((A_eq m c 11).trans (V_main_arg19 m c)))

/-- From the pipeline's post, argument 20 is as it began: an input window stages it and never writes it back. -/
theorem kept_arg20 (r : PUnit × MemSt nD τ sig (Elt Ideal)) (h : Pipeline.FramePost cfgs (dats m) 0 (V m) r) (c : Dev nD) :
    r.2.mem ((c.tc : Thread nD τ).loc main_arg20) = m ((c.tc : Thread nD τ).loc main_arg20) :=
  ((h c).1 12).trans (((dats m 0 c).arrAt_in 12 rfl _).trans ((A_eq m c 12).trans (V_main_arg20 m c)))

set_option maxHeartbeats 1600000 in
/-- Every weakly fair execution terminates without a fault, the result array at the fused network of the arrays the
    launch found and every argument as it began. -/
theorem run_value : θ_run defs (onTc (τ := τ) (main (F := Ideal))) ⟨m, fun _ => 0, ρ⟩ (fun r => ∀ c : Dev nD,
      r.2.mem ((c.tc : Thread nD τ).loc main_v28) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨post13 m r h c,
      kept_arg0 m r h c,
      kept_arg1 m r h c,
      kept_arg2 m r h c,
      kept_arg3 m r h c,
      kept_arg4 m r h c,
      kept_arg5 m r h c,
      kept_arg6 m r h c,
      kept_arg7 m r h c,
      kept_arg8 m r h c,
      kept_arg9 m r h c,
      kept_arg10 m r h c,
      kept_arg11 m r h c,
      kept_arg12 m r h c,
      kept_arg13 m r h c,
      kept_arg14 m r h c,
      kept_arg15 m r h c,
      kept_arg16 m r h c,
      kept_arg17 m r h c,
      kept_arg18 m r h c,
      kept_arg19 m r h c,
      kept_arg20 m r h c⟩) (run_main m ρ)

end Cert.KernelIdeal.Hand

end
-- ==== Proof.LibWindowScatter.lean ====
/-
  A scatter whose body returns the update, read at an index.

  The host's scatter is a left fold of point updates over the update's indices in row-major order.
  When the body keeps the update and discards the old value, the fold at an index i is the update at
  the one update index that lands on i, and the operand at i when no update index lands there.
  The special case of one whole H x W window written at a fixed start (r0, c0) into an A x B array
  follows: inside the window the result is the update at the offset (p - r0, q - c0), outside it is
  the operand.
-/
import Idealize.ShloMosaic.PureOps.Ideal
import Idealize.ShloMosaic.Lib.ValueIdx

namespace Cert.Lib.WindowScatter

open Idealize.ShloMosaic Idealize.ShloMosaic.ValueIdx

/-! ## A left fold of point updates, read at one index -/

/-- A left fold whose step leaves the value at i alone for every list member outside P
    leaves the starting array's value at i, when no member of the list is in P. -/
theorem foldl_miss {ι κ α : Type} (g : (ι → α) → κ → (ι → α)) (i : ι) (P : κ → Prop)
    (hmiss : ∀ r n, ¬ P n → g r n i = r i) :
    ∀ (l : List κ) (x : ι → α), (∀ n ∈ l, ¬ P n) → l.foldl g x i = x i := by
  intro l
  induction l with
  | nil => intro x _; rfl
  | cons a l ih =>
    intro x h
    rw [List.foldl_cons, ih (g x a) (fun n hn => h n (List.mem_cons_of_mem a hn)),
      hmiss x a (h a (by simp))]

/-- A left fold over a list without duplicates whose step writes val n at i for the members n in P
    and leaves the value at i alone for the others gives val n0 at i, when n0 is the only member in P. -/
theorem foldl_hit {ι κ α : Type} (g : (ι → α) → κ → (ι → α)) (i : ι) (P : κ → Prop) (val : κ → α)
    (hmiss : ∀ r n, ¬ P n → g r n i = r i) (hhit : ∀ r n, P n → g r n i = val n) (n0 : κ) (hP : P n0) :
    ∀ (l : List κ) (x : ι → α), l.Nodup → n0 ∈ l → (∀ n ∈ l, P n → n = n0) → l.foldl g x i = val n0 := by
  intro l
  induction l with
  | nil => intro x _ hmem _; exact absurd hmem (by simp)
  | cons a l ih =>
    intro x hnd hmem huniq
    rw [List.foldl_cons]
    rw [List.nodup_cons] at hnd
    by_cases ha : a = n0
    · subst ha
      rw [foldl_miss g i P hmiss l (g x a) (fun n hn hPn => by
        have := huniq n (List.mem_cons_of_mem a hn) hPn
        subst this
        exact hnd.1 hn)]
      exact hhit x a hP
    · have hmem' : n0 ∈ l := by
        rcases List.mem_cons.1 hmem with h | h
        · exact absurd h.symm ha
        · exact h
      exact ih (g x a) hnd.2 hmem' (fun n hn => huniq n (List.mem_cons_of_mem a hn))

/-! ## The host's scatter with the body that returns the update -/

section Scatter
variable {s si u : Shape} {w : Nat} {α : Type}

/-- A scatter whose body returns the update, read at an index exactly one update index lands on:
    the result there is the update at that update index. -/
theorem scatter_set_hit (d : ScatterDims s si u) (x : s.Idx → α) (idx : IVec si w) (upd : u.Idx → α)
    (j : u.Idx) (i : s.Idx) (hj : d.resultIdx? j idx = some i)
    (hinj : ∀ j', d.resultIdx? j' idx = some i → j' = j) :
    Host.scatter d (fun _ b => b) x idx upd i = upd j := by
  unfold Host.scatter
  have key := foldl_hit
    (fun (r : s.Idx → α) (n : Fin u.numel) =>
      match d.resultIdx? (u.rowMajor.symm n) idx with
      | some i0 => fun i' => if i' = i0 then (fun (_ b : α) => b) (r i0) (upd (u.rowMajor.symm n)) else r i'
      | none => r)
    i (fun n => d.resultIdx? (u.rowMajor.symm n) idx = some i) (fun n => upd (u.rowMajor.symm n))
    (by
      intro r n hn
      revert hn
      generalize d.resultIdx? (u.rowMajor.symm n) idx = o
      intro hn
      cases o with
      | none => rfl
      | some i0 =>
        have hne : i ≠ i0 := fun e => hn (by rw [e])
        exact if_neg hne)
    (by
      intro r n hn
      revert hn
      generalize d.resultIdx? (u.rowMajor.symm n) idx = o
      intro hn
      subst hn
      exact if_pos rfl)
    (u.rowMajor j) (by show d.resultIdx? (u.rowMajor.symm (u.rowMajor j)) idx = some i; rw [Equiv.symm_apply_apply]; exact hj)
    (List.finRange u.numel) x (List.nodup_finRange _) (List.mem_finRange _)
    (by
      intro n _ hn
      have := hinj _ hn
      rw [← this, Equiv.apply_symm_apply])
  have key' : upd (u.rowMajor.symm (u.rowMajor j)) = upd j := by rw [Equiv.symm_apply_apply]
  exact key.trans key'

/-- A scatter whose body returns the update, read at an index no update index lands on:
    the result there is the operand. -/
theorem scatter_set_miss (d : ScatterDims s si u) (x : s.Idx → α) (idx : IVec si w) (upd : u.Idx → α)
    (i : s.Idx) (h : ∀ j, d.resultIdx? j idx ≠ some i) :
    Host.scatter d (fun _ b => b) x idx upd i = x i := by
  unfold Host.scatter
  exact foldl_miss
    (fun (r : s.Idx → α) (n : Fin u.numel) =>
      match d.resultIdx? (u.rowMajor.symm n) idx with
      | some i0 => fun i' => if i' = i0 then (fun (_ b : α) => b) (r i0) (upd (u.rowMajor.symm n)) else r i'
      | none => r)
    i (fun n => d.resultIdx? (u.rowMajor.symm n) idx = some i)
    (by
      intro r n hn
      revert hn
      generalize d.resultIdx? (u.rowMajor.symm n) idx = o
      intro hn
      cases o with
      | none => rfl
      | some i0 =>
        have hne : i ≠ i0 := fun e => hn (by rw [e])
        exact if_neg hne)
    (List.finRange u.numel) x (fun n _ => h _)

end Scatter

/-! ## One whole window written at a fixed start -/

section Window
variable {A B H W w : Nat} {si : Shape} {α : Type}

/-- When every update index's window starts at (r0, c0), its window coordinates are its own
    coordinates, and the H x W window at (r0, c0) lies inside the A x B array, update index j lands
    on the array index (r0 + j 0, c0 + j 1). -/
theorem resultIdx?_window (d : ScatterDims ⟨2, ![A, B]⟩ si ⟨2, ![H, W]⟩) (idx : IVec si w) (r0 c0 : Nat)
    (hwin : ∀ (j : (⟨2, ![H, W]⟩ : Shape).Idx) (a : Fin 2), d.window j a = (j a).val)
    (hs0 : ∀ j, d.start j idx 0 = (r0 : Int)) (hs1 : ∀ j, d.start j idx 1 = (c0 : Int))
    (hA : r0 + H ≤ A) (hB : c0 + W ≤ B) (j : (⟨2, ![H, W]⟩ : Shape).Idx) :
    d.resultIdx? j idx
      = some (ix2 ⟨r0 + (j 0).val, by have := idx2_lt0 j; omega⟩ ⟨c0 + (j 1).val, by have := idx2_lt1 j; omega⟩) := by
  have h0 : d.start j idx 0 + (d.window j 0 : Int) = ((r0 + (j 0).val : Nat) : Int) := by
    rw [hs0, hwin]; push_cast; rfl
  have h1 : d.start j idx 1 + (d.window j 1 : Int) = ((c0 + (j 1).val : Nat) : Int) := by
    rw [hs1, hwin]; push_cast; rfl
  have hj0 := idx2_lt0 j
  have hj1 := idx2_lt1 j
  unfold ScatterDims.resultIdx?
  rw [dif_pos (by
    intro a
    match a with
    | ⟨0, _⟩ =>
      show 0 ≤ d.start j idx 0 + (d.window j 0 : Int) ∧ d.start j idx 0 + (d.window j 0 : Int) < (A : Int)
      rw [h0]; omega
    | ⟨1, _⟩ =>
      show 0 ≤ d.start j idx 1 + (d.window j 1 : Int) ∧ d.start j idx 1 + (d.window j 1 : Int) < (B : Int)
      rw [h1]; omega)]
  congr 1
  funext a
  match a with
  | ⟨0, _⟩ =>
    apply Fin.ext
    show (d.start j idx 0 + (d.window j 0 : Int)).toNat = r0 + (j 0).val
    rw [h0]; exact Int.toNat_natCast _
  | ⟨1, _⟩ =>
    apply Fin.ext
    show (d.start j idx 1 + (d.window j 1 : Int)).toNat = c0 + (j 1).val
    rw [h1]; exact Int.toNat_natCast _

/-- One whole H x W window written at start (r0, c0) into an A x B array by a scatter whose body
    returns the update: at (p, q) inside the window the result is the update at (p - r0, q - c0), and
    at (p, q) outside the window it is the operand. -/
theorem scatter_window_apply (d : ScatterDims ⟨2, ![A, B]⟩ si ⟨2, ![H, W]⟩) (idx : IVec si w) (r0 c0 : Nat)
    (hwin : ∀ (j : (⟨2, ![H, W]⟩ : Shape).Idx) (a : Fin 2), d.window j a = (j a).val)
    (hs0 : ∀ j, d.start j idx 0 = (r0 : Int)) (hs1 : ∀ j, d.start j idx 1 = (c0 : Int))
    (hA : r0 + H ≤ A) (hB : c0 + W ≤ B)
    (x : (⟨2, ![A, B]⟩ : Shape).Idx → α) (upd : (⟨2, ![H, W]⟩ : Shape).Idx → α) (p : Fin A) (q : Fin B) :
    Host.scatter d (fun _ b => b) x idx upd (ix2 p q)
      = if h : (r0 ≤ p.val ∧ p.val < r0 + H) ∧ (c0 ≤ q.val ∧ q.val < c0 + W) then
          upd (ix2 ⟨p.val - r0, by omega⟩ ⟨q.val - c0, by omega⟩)
        else x (ix2 p q) := by
  have hres := resultIdx?_window d idx r0 c0 hwin hs0 hs1 hA hB
  -- an update index that lands on (p, q) has coordinates (p - r0, q - c0)
  have hcoord : ∀ j, d.resultIdx? j idx = some (ix2 p q) → r0 + (j 0).val = p.val ∧ c0 + (j 1).val = q.val := by
    intro j hj
    rw [hres j] at hj
    have e := Option.some.inj hj
    exact ⟨congrArg Fin.val (congrFun e 0), congrArg Fin.val (congrFun e 1)⟩
  by_cases h : (r0 ≤ p.val ∧ p.val < r0 + H) ∧ (c0 ≤ q.val ∧ q.val < c0 + W)
  · rw [dif_pos h]
    apply scatter_set_hit d x idx upd
    · rw [hres]
      congr 1
      funext a
      match a with
      | ⟨0, _⟩ => apply Fin.ext; show r0 + (p.val - r0) = p.val; omega
      | ⟨1, _⟩ => apply Fin.ext; show c0 + (q.val - c0) = q.val; omega
    · intro j' hj'
      obtain ⟨e0, e1⟩ := hcoord j' hj'
      funext a
      match a with
      | ⟨0, _⟩ => apply Fin.ext; show (j' 0).val = p.val - r0; omega
      | ⟨1, _⟩ => apply Fin.ext; show (j' 1).val = q.val - c0; omega
  · rw [dif_neg h]
    apply scatter_set_miss d x idx upd
    intro j hj
    obtain ⟨e0, e1⟩ := hcoord j hj
    have hj0 := idx2_lt0 j
    have hj1 := idx2_lt1 j
    exact h ⟨⟨by omega, by omega⟩, ⟨by omega, by omega⟩⟩

end Window

end Cert.Lib.WindowScatter
-- ==== Proof.KernelIdealScatters.lean ====
/-
  The six block writes of the program's host code, read at an index.

  The host code builds two block-diagonal arrays by writing whole blocks at fixed corners: three blocks
  into a 32 x 8 array at (0, 0), (16, 3), (24, 5) and three into a 32 x 32 array at (0, 0), (16, 16),
  (24, 24). Each write is a scatter with ONE start index, made of two constants, and the whole block as
  its update window. This file instantiates the general reading of such a scatter at an index
  (LibWindowScatter.lean) at the program's five dimension records and six start indices: at (p, q)
  inside the block's rectangle the result is the block at the offset from the corner, elsewhere it is
  the array written into.
-/
import proofs.«166149_j47193100648813_2_alg».proof.KernelIdeal
import proofs.«166149_j47193100648813_2_alg».proof.Proof.LibWindowScatter
import Idealize.ShloMosaic.Lib.ValueIdx
import Idealize.ShloMosaic.Lib.Pipeline.Value

noncomputable section

namespace Cert.KernelIdeal.Hand

open Idealize.ShloMosaic Idealize.ShloMosaic.ValueIdx Cert.KernelIdeal Cert.Lib.WindowScatter

/-! ## The dimension numbers of a whole-window scatter -/

section Dims
variable {A B H W w : Nat}

/-- When both update axes are window axes and no operand axis is inserted, the window coordinate of
    update index j on operand axis a is j's own coordinate on a. -/
theorem window_eq_coord (d : ScatterDims ⟨2, ![A, B]⟩ ⟨1, ![2]⟩ ⟨2, ![H, W]⟩)
    (h1 : d.updateWindowDims = [0, 1]) (h2 : d.insertedWindowDims = [])
    (j : (⟨2, ![H, W]⟩ : Shape).Idx) (a : Fin 2) : d.window j a = (j a).val := by
  obtain ⟨uwd, iwd, sdto, ivd, wf⟩ := d
  dsimp only at h1 h2
  subst h1 h2
  match a with
  | ⟨0, _⟩ => rfl
  | ⟨1, _⟩ => rfl

/-- When the start index's two components go to the operand's two axes in order and the index vector
    is the one axis of the length-2 scatter indices, the window's start on operand axis a is component a
    of the scatter indices, read signed. -/
theorem start_eq_idx (d : ScatterDims ⟨2, ![A, B]⟩ ⟨1, ![2]⟩ ⟨2, ![H, W]⟩)
    (h3 : d.scatterDimsToOperandDims = [0, 1]) (h4 : d.indexVectorDim = 0)
    (j : (⟨2, ![H, W]⟩ : Shape).Idx) (idx : IVec ⟨1, ![2]⟩ w) (a : Fin 2) :
    d.start j idx a = (idx (ix1 a)).toInt := by
  obtain ⟨uwd, iwd, sdto, ivd, wf⟩ := d
  dsimp only at h3 h4
  subst h3 h4
  match a with
  | ⟨0, _⟩ =>
    unfold ScatterDims.start
    split
    · congr 2; funext b; match b with | ⟨0, _⟩ => rfl
    · next ha => exact absurd (show (0 : Fin 2) ∈ ([0, 1] : List (Fin 2)) by decide) ha
  | ⟨1, _⟩ =>
    unfold ScatterDims.start
    split
    · congr 2; funext b; match b with | ⟨0, _⟩ => rfl
    · next ha => exact absurd (show (1 : Fin 2) ∈ ([0, 1] : List (Fin 2)) by decide) ha

end Dims

/-! ## The start index: two broadcast constants, concatenated -/

section Uses
variable [Facts₀]
open Facts₀

/-- The concatenation of the one-element broadcasts of two constants a and b has a at position 0. -/
theorem startIdx_0 (a b : BitVec 32) :
    concatenate S2 0 [⟨S1, broadcastInDim S1 ![] bcast_S_S1 (constantI S_ 32 a)⟩,
      ⟨S1, broadcastInDim S1 ![] bcast_S_S1 (constantI S_ 32 b)⟩] concatenates_S1_S1_S2_d0 (ix1 0) = a := by
  rw [concatenate_pair_apply_left (0 : Fin S2.rank) _ _ concatenates_S1_S1_S2_d0 (ix1 0) rfl (ix1 0)
    (by intro c; match c with | ⟨0, _⟩ => rfl)]
  rfl

/-- The concatenation of the one-element broadcasts of two constants a and b has b at position 1. -/
theorem startIdx_1 (a b : BitVec 32) :
    concatenate S2 0 [⟨S1, broadcastInDim S1 ![] bcast_S_S1 (constantI S_ 32 a)⟩,
      ⟨S1, broadcastInDim S1 ![] bcast_S_S1 (constantI S_ 32 b)⟩] concatenates_S1_S1_S2_d0 (ix1 1) = b := by
  rw [concatenate_pair_apply_right (0 : Fin S2.rank) _ _ concatenates_S1_S1_S2_d0 (ix1 1) rfl rfl (ix1 0)
    (by intro c hc; match c with | ⟨0, _⟩ => exact absurd rfl hc) rfl]
  rfl

/-- A whole H x W window written into an A x B array at the start index made of the constants a and b,
    which read signed are r0 and c0: inside the window the update at the offset, outside the operand. -/
theorem scatter_at {A B H W : Nat} {α : Type} (d : ScatterDims ⟨2, ![A, B]⟩ S2 ⟨2, ![H, W]⟩)
    (h1 : d.updateWindowDims = [0, 1]) (h2 : d.insertedWindowDims = [])
    (h3 : d.scatterDimsToOperandDims = [0, 1]) (h4 : d.indexVectorDim = 0)
    (a b : BitVec 32) (r0 c0 : Nat) (ha : a.toInt = (r0 : Int)) (hb : b.toInt = (c0 : Int))
    (hA : r0 + H ≤ A) (hB : c0 + W ≤ B)
    (x : (⟨2, ![A, B]⟩ : Shape).Idx → α) (upd : (⟨2, ![H, W]⟩ : Shape).Idx → α) (p : Fin A) (q : Fin B) :
    Host.scatter d (fun _ b => b) x
      (concatenate S2 0 [⟨S1, broadcastInDim S1 ![] bcast_S_S1 (constantI S_ 32 a)⟩,
        ⟨S1, broadcastInDim S1 ![] bcast_S_S1 (constantI S_ 32 b)⟩] concatenates_S1_S1_S2_d0) upd (ix2 p q)
      = if h : (r0 ≤ p.val ∧ p.val < r0 + H) ∧ (c0 ≤ q.val ∧ q.val < c0 + W) then
          upd (ix2 ⟨p.val - r0, by omega⟩ ⟨q.val - c0, by omega⟩)
        else x (ix2 p q) :=
  scatter_window_apply d _ r0 c0 (window_eq_coord d h1 h2)
    (fun j => by rw [start_eq_idx d h3 h4, startIdx_0]; exact ha)
    (fun j => by rw [start_eq_idx d h3 h4, startIdx_1]; exact hb)
    hA hB x upd p q

/-! ## The six uses in the program -/

/-- The 16 x 3 block written at (0, 0) into a 32 x 8 array: at (p, q) with p < 16 and q < 3
    the result is the block at (p, q), elsewhere the array. -/
theorem scatter_S32x8_S16x3_at_0_0 {α : Type} (x : S32x8.Idx → α) (upd : S16x3.Idx → α) (p : Fin 32) (q : Fin 8) :
    Host.scatter scatter_S32x8_S2_S16x3_01_n_01_0 (fun _ b => b) x
      (concatenate S2 0 [⟨S1, broadcastInDim S1 ![] bcast_S_S1 (constantI S_ 32 0#32)⟩,
        ⟨S1, broadcastInDim S1 ![] bcast_S_S1 (constantI S_ 32 0#32)⟩] concatenates_S1_S1_S2_d0) upd (ix2 p q)
      = if h : p.val < 16 ∧ q.val < 3 then
          upd (ix2 ⟨p.val, h.1⟩ ⟨q.val, h.2⟩)
        else x (ix2 p q) := by
  rw [scatter_at scatter_S32x8_S2_S16x3_01_n_01_0 rfl rfl rfl rfl 0#32 0#32 0 0 (by decide) (by decide) (by omega) (by omega) x upd p q]
  by_cases h : p.val < 16 ∧ q.val < 3
  · rw [dif_pos h, dif_pos ⟨⟨Nat.zero_le _, by omega⟩, ⟨Nat.zero_le _, by omega⟩⟩]
    rfl
  · rw [dif_neg h, dif_neg (fun h' => h ⟨by omega, by omega⟩)]

/-- The 8 x 2 block written at (16, 3) into a 32 x 8 array: at (p, q) with 16 ≤ p < 24 and
    3 ≤ q < 5 the result is the block at (p - 16, q - 3), elsewhere the array. -/
theorem scatter_S32x8_S8x2_at_16_3 {α : Type} (x : S32x8.Idx → α) (upd : S8x2.Idx → α) (p : Fin 32) (q : Fin 8) :
    Host.scatter scatter_S32x8_S2_S8x2_01_n_01_0 (fun _ b => b) x
      (concatenate S2 0 [⟨S1, broadcastInDim S1 ![] bcast_S_S1 (constantI S_ 32 16#32)⟩,
        ⟨S1, broadcastInDim S1 ![] bcast_S_S1 (constantI S_ 32 3#32)⟩] concatenates_S1_S1_S2_d0) upd (ix2 p q)
      = if h : (16 ≤ p.val ∧ p.val < 24) ∧ (3 ≤ q.val ∧ q.val < 5) then
          upd (ix2 ⟨p.val - 16, by omega⟩ ⟨q.val - 3, by omega⟩)
        else x (ix2 p q) := by
  exact scatter_at scatter_S32x8_S2_S8x2_01_n_01_0 rfl rfl rfl rfl 16#32 3#32 16 3 (by decide) (by decide) (by omega) (by omega) x upd p q

/-- The 8 x 3 block written at (24, 5) into a 32 x 8 array: at (p, q) with 24 ≤ p < 32 and
    5 ≤ q < 8 the result is the block at (p - 24, q - 5), elsewhere the array. -/
theorem scatter_S32x8_S8x3_at_24_5 {α : Type} (x : S32x8.Idx → α) (upd : S8x3.Idx → α) (p : Fin 32) (q : Fin 8) :
    Host.scatter scatter_S32x8_S2_S8x3_01_n_01_0 (fun _ b => b) x
      (concatenate S2 0 [⟨S1, broadcastInDim S1 ![] bcast_S_S1 (constantI S_ 32 24#32)⟩,
        ⟨S1, broadcastInDim S1 ![] bcast_S_S1 (constantI S_ 32 5#32)⟩] concatenates_S1_S1_S2_d0) upd (ix2 p q)
      = if h : (24 ≤ p.val ∧ p.val < 32) ∧ (5 ≤ q.val ∧ q.val < 8) then
          upd (ix2 ⟨p.val - 24, by omega⟩ ⟨q.val - 5, by omega⟩)
        else x (ix2 p q) := by
  exact scatter_at scatter_S32x8_S2_S8x3_01_n_01_0 rfl rfl rfl rfl 24#32 5#32 24 5 (by decide) (by decide) (by omega) (by omega) x upd p q

/-- The 16 x 16 block written at (0, 0) into a 32 x 32 array: at (p, q) with p < 16 and q < 16
    the result is the block at (p, q), elsewhere the array. -/
theorem scatter_S32x32_S16x16_at_0_0 {α : Type} (x : S32x32.Idx → α) (upd : S16x16.Idx → α) (p : Fin 32) (q : Fin 32) :
    Host.scatter scatter_S32x32_S2_S16x16_01_n_01_0 (fun _ b => b) x
      (concatenate S2 0 [⟨S1, broadcastInDim S1 ![] bcast_S_S1 (constantI S_ 32 0#32)⟩,
        ⟨S1, broadcastInDim S1 ![] bcast_S_S1 (constantI S_ 32 0#32)⟩] concatenates_S1_S1_S2_d0) upd (ix2 p q)
      = if h : p.val < 16 ∧ q.val < 16 then
          upd (ix2 ⟨p.val, h.1⟩ ⟨q.val, h.2⟩)
        else x (ix2 p q) := by
  rw [scatter_at scatter_S32x32_S2_S16x16_01_n_01_0 rfl rfl rfl rfl 0#32 0#32 0 0 (by decide) (by decide) (by omega) (by omega) x upd p q]
  by_cases h : p.val < 16 ∧ q.val < 16
  · rw [dif_pos h, dif_pos ⟨⟨Nat.zero_le _, by omega⟩, ⟨Nat.zero_le _, by omega⟩⟩]
    rfl
  · rw [dif_neg h, dif_neg (fun h' => h ⟨by omega, by omega⟩)]

/-- The 8 x 8 block written at (16, 16) into a 32 x 32 array: at (p, q) with 16 ≤ p < 24 and
    16 ≤ q < 24 the result is the block at (p - 16, q - 16), elsewhere the array. -/
theorem scatter_S32x32_S8x8_at_16_16 {α : Type} (x : S32x32.Idx → α) (upd : S8x8.Idx → α) (p : Fin 32) (q : Fin 32) :
    Host.scatter scatter_S32x32_S2_S8x8_01_n_01_0 (fun _ b => b) x
      (concatenate S2 0 [⟨S1, broadcastInDim S1 ![] bcast_S_S1 (constantI S_ 32 16#32)⟩,
        ⟨S1, broadcastInDim S1 ![] bcast_S_S1 (constantI S_ 32 16#32)⟩] concatenates_S1_S1_S2_d0) upd (ix2 p q)
      = if h : (16 ≤ p.val ∧ p.val < 24) ∧ (16 ≤ q.val ∧ q.val < 24) then
          upd (ix2 ⟨p.val - 16, by omega⟩ ⟨q.val - 16, by omega⟩)
        else x (ix2 p q) := by
  exact scatter_at scatter_S32x32_S2_S8x8_01_n_01_0 rfl rfl rfl rfl 16#32 16#32 16 16 (by decide) (by decide) (by omega) (by omega) x upd p q

/-- The 8 x 8 block written at (24, 24) into a 32 x 32 array: at (p, q) with 24 ≤ p < 32 and
    24 ≤ q < 32 the result is the block at (p - 24, q - 24), elsewhere the array. -/
theorem scatter_S32x32_S8x8_at_24_24 {α : Type} (x : S32x32.Idx → α) (upd : S8x8.Idx → α) (p : Fin 32) (q : Fin 32) :
    Host.scatter scatter_S32x32_S2_S8x8_01_n_01_0 (fun _ b => b) x
      (concatenate S2 0 [⟨S1, broadcastInDim S1 ![] bcast_S_S1 (constantI S_ 32 24#32)⟩,
        ⟨S1, broadcastInDim S1 ![] bcast_S_S1 (constantI S_ 32 24#32)⟩] concatenates_S1_S1_S2_d0) upd (ix2 p q)
      = if h : (24 ≤ p.val ∧ p.val < 32) ∧ (24 ≤ q.val ∧ q.val < 32) then
          upd (ix2 ⟨p.val - 24, by omega⟩ ⟨q.val - 24, by omega⟩)
        else x (ix2 p q) := by
  exact scatter_at scatter_S32x32_S2_S8x8_01_n_01_0 rfl rfl rfl rfl 24#32 24#32 24 24 (by decide) (by decide) (by omega) (by omega) x upd p q

end Uses

end Cert.KernelIdeal.Hand
-- ==== Proof.KernelIdealWeights.lean ====
/-
  The four arrays the host code builds before the launch, as the specification's block matrices and joined
  vectors.

  Two of them are block-diagonal: a matrix of zeros into which three blocks are written, one after the other, at
  fixed corners — the three first-layer matrices at (0, 0), (16, 3), (24, 5) of a 32 x 8 matrix, the three
  second-layer matrices at (0, 0), (16, 16), (24, 24) of a 32 x 32 matrix. The other two are the three bias
  vectors of a layer (16, 8 and 8 entries) joined into one of 32. Each is first read off the host operations as
  a term over the arguments' arrays, then compared entry by entry with the specification's matrix or vector.
-/
import proofs.«166149_j47193100648813_2_alg».proof.Proof.KernelIdealFrame
import proofs.«166149_j47193100648813_2_alg».proof.Proof.KernelIdealScatters
import proofs.«166149_j47193100648813_2_alg».proof.Proof.RowIdx
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal
open Idealize.ShloMosaic Idealize.ShloMosaic.TcCoe Idealize.ShloMosaic.ValueIdx
open Facts₀

/-! ## Block writes and joins as matrices and vectors -/

/-- A whole-window scatter at the start index made of the constants a and b, as matrices: the operand's
    matrix with the update's matrix written over it at (r0, c0). -/
theorem mat_scatter_at {A B H W : Nat} (d : ScatterDims ⟨2, ![A, B]⟩ S2 ⟨2, ![H, W]⟩)
    (h1 : d.updateWindowDims = [0, 1]) (h2 : d.insertedWindowDims = [])
    (h3 : d.scatterDimsToOperandDims = [0, 1]) (h4 : d.indexVectorDim = 0)
    (a b : BitVec 32) (r0 c0 : Nat) (ha : a.toInt = (r0 : Int)) (hb : b.toInt = (c0 : Int))
    (hA : r0 + H ≤ A) (hB : c0 + W ≤ B)
    (x : (⟨2, ![A, B]⟩ : Shape).Idx → EReal) (upd : (⟨2, ![H, W]⟩ : Shape).Idx → EReal) :
    Cert.Row.mat (Host.scatter d (fun _ b => b) x
      (concatenate S2 0 [⟨S1, broadcastInDim S1 ![] bcast_S_S1 (constantI S_ 32 a)⟩,
        ⟨S1, broadcastInDim S1 ![] bcast_S_S1 (constantI S_ 32 b)⟩] concatenates_S1_S1_S2_d0) upd)
      = Cert.Row.win r0 c0 (Cert.Row.mat x) (Cert.Row.mat upd) := by
  funext p q
  exact scatter_at d h1 h2 h3 h4 a b r0 c0 ha hb hA hB x upd p q

/-- The broadcast of the constant zero, as a matrix: every entry is zero. -/
theorem mat_zero {A B : Nat} (h : S_.BroadcastsInDim ⟨2, ![A, B]⟩ (![] : Fin 0 → Fin 2)) :
    Cert.Row.mat (broadcastInDim ⟨2, ![A, B]⟩ ![] h (constant (F := Ideal) S_ .f32 0x00000000#32))
      = fun _ _ => (0 : EReal) := by
  funext p q
  exact Ideal.ofBits_zero_f32

/-- Three vectors of 16, 8 and 8 entries concatenated, read as the joined vector. -/
theorem vec_concat3 (a : S16.Idx → EReal) (b d : S8.Idx → EReal) :
    Cert.Row.vec (concatenate S32 0 [⟨S16, a⟩, ⟨S8, b⟩, ⟨S8, d⟩] concatenates_S16_S8_S8_S32_d0)
      = Cert.Row.cat3 (Cert.Row.vec a) (Cert.Row.vec b) (Cert.Row.vec d) := by
  funext j
  unfold Cert.Row.vec Cert.Row.cat3
  by_cases h : j.val < 16
  · rw [dif_pos h]
    exact concatenate_apply_piece (0 : Fin S32.rank) [⟨S16, a⟩, ⟨S8, b⟩, ⟨S8, d⟩] concatenates_S16_S8_S8_S32_d0 (ix1 j) 0 (by simp) S16 a rfl rfl 0
      (by rfl) (ix1 ⟨j.val, h⟩) (by intro e he; match e with | ⟨0, _⟩ => exact absurd rfl he)
      (by show 0 + j.val = j.val; omega)
  · rw [dif_neg h]
    by_cases h2 : j.val < 24
    · rw [dif_pos h2]
      exact concatenate_apply_piece (0 : Fin S32.rank) [⟨S16, a⟩, ⟨S8, b⟩, ⟨S8, d⟩] concatenates_S16_S8_S8_S32_d0 (ix1 j) 1 (by simp) S8 b rfl rfl 16
        (by rfl) (ix1 ⟨j.val - 16, by omega⟩) (by intro e he; match e with | ⟨0, _⟩ => exact absurd rfl he)
        (by show 16 + (j.val - 16) = j.val; omega)
    · rw [dif_neg h2]
      exact concatenate_apply_piece (0 : Fin S32.rank) [⟨S16, a⟩, ⟨S8, b⟩, ⟨S8, d⟩] concatenates_S16_S8_S8_S32_d0 (ix1 j) 2 (by simp) S8 d rfl rfl 24
        (by rfl) (ix1 ⟨j.val - 24, by have := j.isLt; omega⟩) (by intro e he; match e with | ⟨0, _⟩ => exact absurd rfl he)
        (by show 24 + (j.val - 24) = j.val; omega)

/-! ## What the four arrays hold when the launch is reached, as the operations' terms -/

/-- The result of an operation on three operands reads each operand at its own buffer. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

open Idealize.ShloMosaic.StableHlo in
/-- What one buffer holds after a line of operations: each operation's result at its own buffer is its function of
    its operands' contents, at another buffer what was there; a three-operand result is read operand by operand. -/
local macro "after_results3" : tactic =>
  `(tactic| (simp only [after_cons, after_nil]
             repeat (first
               | rw [nary3_result]
               | rw [nullary_result] | rw [unary_result] | rw [binary_result] | rw [ternary_result]
               | (rw [nullary_result_ne]; rotate_left; decide)
               | (rw [unary_result_ne]; rotate_left; decide)
               | (rw [binary_result_ne]; rotate_left; decide)
               | (rw [ternary_result_ne]; rotate_left; decide)
               | (rw [nary_result_ne]; rotate_left; decide))))

section Terms
variable (m : (ℓ : Loc nD τ sig) → Buf (Elt Ideal) ℓ) (c : Dev nD)

set_option maxHeartbeats 4000000 in
/-- The first block-diagonal array: three block writes over the broadcast zero. -/
theorem V_v12_term :
    (V m c main_v12 : S32x8.Idx → EReal)
      = Host.scatter scatter_S32x8_S2_S8x3_01_n_01_0 (fun _ b => b)
      (Host.scatter scatter_S32x8_S2_S8x2_01_n_01_0 (fun _ b => b)
      (Host.scatter scatter_S32x8_S2_S16x3_01_n_01_0 (fun _ b => b)
      (broadcastInDim S32x8 ![] bcast_S_S32x8 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (m ((c : Thread nD τ).loc main_arg1)))
      (concatenate S2 0 [⟨S1, broadcastInDim S1 ![] bcast_S_S1 (constantI S_ 32 16#32)⟩, ⟨S1, broadcastInDim S1 ![] bcast_S_S1 (constantI S_ 32 3#32)⟩] concatenates_S1_S1_S2_d0)
      (m ((c : Thread nD τ).loc main_arg5)))
      (concatenate S2 0 [⟨S1, broadcastInDim S1 ![] bcast_S_S1 (constantI S_ 32 24#32)⟩, ⟨S1, broadcastInDim S1 ![] bcast_S_S1 (constantI S_ 32 5#32)⟩] concatenates_S1_S1_S2_d0)
      (m ((c : Thread nD τ).loc main_arg9)) := by
  dsimp only [V]
  simp only [Gen.hostOps0, List.flatten_cons, List.flatten_nil, List.append_nil]
  after_results

set_option maxHeartbeats 4000000 in
/-- The second block-diagonal array: three block writes over the broadcast zero. -/
theorem V_v26_term :
    (V m c main_v26 : S32x32.Idx → EReal)
      = Host.scatter scatter_S32x32_S2_S8x8_01_n_01_0 (fun _ b => b)
      (Host.scatter scatter_S32x32_S2_S8x8_01_n_01_0 (fun _ b => b)
      (Host.scatter scatter_S32x32_S2_S16x16_01_n_01_0 (fun _ b => b)
      (broadcastInDim S32x32 ![] bcast_S_S32x32 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (m ((c : Thread nD τ).loc main_arg3)))
      (concatenate S2 0 [⟨S1, broadcastInDim S1 ![] bcast_S_S1 (constantI S_ 32 16#32)⟩, ⟨S1, broadcastInDim S1 ![] bcast_S_S1 (constantI S_ 32 16#32)⟩] concatenates_S1_S1_S2_d0)
      (m ((c : Thread nD τ).loc main_arg7)))
      (concatenate S2 0 [⟨S1, broadcastInDim S1 ![] bcast_S_S1 (constantI S_ 32 24#32)⟩, ⟨S1, broadcastInDim S1 ![] bcast_S_S1 (constantI S_ 32 24#32)⟩] concatenates_S1_S1_S2_d0)
      (m ((c : Thread nD τ).loc main_arg11)) := by
  dsimp only [V]
  simp only [Gen.hostOps0, List.flatten_cons, List.flatten_nil, List.append_nil]
  after_results

set_option maxHeartbeats 4000000 in
/-- The first joined vector: the concatenation of three arguments. -/
theorem V_v13_term :
    (V m c main_v13 : S32.Idx → EReal)
      = concatenate S32 0 [⟨S16, (m ((c : Thread nD τ).loc main_arg2))⟩, ⟨S8, (m ((c : Thread nD τ).loc main_arg6))⟩, ⟨S8, (m ((c : Thread nD τ).loc main_arg10))⟩] concatenates_S16_S8_S8_S32_d0 := by
  dsimp only [V]
  simp only [Gen.hostOps0, List.flatten_cons, List.flatten_nil, List.append_nil]
  after_results3
  rfl

set_option maxHeartbeats 4000000 in
/-- The second joined vector: the concatenation of three arguments. -/
theorem V_v27_term :
    (V m c main_v27 : S32.Idx → EReal)
      = concatenate S32 0 [⟨S16, (m ((c : Thread nD τ).loc main_arg4))⟩, ⟨S8, (m ((c : Thread nD τ).loc main_arg8))⟩, ⟨S8, (m ((c : Thread nD τ).loc main_arg12))⟩] concatenates_S16_S8_S8_S32_d0 := by
  dsimp only [V]
  simp only [Gen.hostOps0, List.flatten_cons, List.flatten_nil, List.append_nil]
  after_results3
  rfl

end Terms

/-! ## The four arrays as the specification's block matrices and joined vectors -/

section Weights
variable (m : (ℓ : Loc nD τ sig) → Buf (Elt Ideal) ℓ) (c : Dev nD)

/-- The first block-diagonal array is the 32 x 8 matrix of zeros with the three first-layer matrices
    written at (0, 0), (16, 3) and (24, 5). -/
theorem V_v12 :
    Cert.Row.mat (V m c main_v12 : S32x8.Idx → EReal)
      = Cert.Row.W1b (Cert.Row.mat (m ((c : Thread nD τ).loc main_arg1) : S16x3.Idx → EReal))
          (Cert.Row.mat (m ((c : Thread nD τ).loc main_arg5) : S8x2.Idx → EReal))
          (Cert.Row.mat (m ((c : Thread nD τ).loc main_arg9) : S8x3.Idx → EReal)) := by
  rw [V_v12_term,
    mat_scatter_at _ rfl rfl rfl rfl 24#32 5#32 24 5 (by decide) (by decide) (by omega) (by omega),
    mat_scatter_at _ rfl rfl rfl rfl 16#32 3#32 16 3 (by decide) (by decide) (by omega) (by omega),
    mat_scatter_at _ rfl rfl rfl rfl 0#32 0#32 0 0 (by decide) (by decide) (by omega) (by omega),
    mat_zero]
  rfl

/-- The first joined vector is the three first-layer bias vectors joined. -/
theorem V_v13 :
    Cert.Row.vec (V m c main_v13 : S32.Idx → EReal)
      = Cert.Row.cat3 (Cert.Row.vec (m ((c : Thread nD τ).loc main_arg2) : S16.Idx → EReal))
          (Cert.Row.vec (m ((c : Thread nD τ).loc main_arg6) : S8.Idx → EReal))
          (Cert.Row.vec (m ((c : Thread nD τ).loc main_arg10) : S8.Idx → EReal)) := by
  rw [V_v13_term, vec_concat3]

/-- The second block-diagonal array is the 32 x 32 matrix of zeros with the three second-layer matrices
    written at (0, 0), (16, 16) and (24, 24). -/
theorem V_v26 :
    Cert.Row.mat (V m c main_v26 : S32x32.Idx → EReal)
      = Cert.Row.W2b (Cert.Row.mat (m ((c : Thread nD τ).loc main_arg3) : S16x16.Idx → EReal))
          (Cert.Row.mat (m ((c : Thread nD τ).loc main_arg7) : S8x8.Idx → EReal))
          (Cert.Row.mat (m ((c : Thread nD τ).loc main_arg11) : S8x8.Idx → EReal)) := by
  rw [V_v26_term,
    mat_scatter_at _ rfl rfl rfl rfl 24#32 24#32 24 24 (by decide) (by decide) (by omega) (by omega),
    mat_scatter_at _ rfl rfl rfl rfl 16#32 16#32 16 16 (by decide) (by decide) (by omega) (by omega),
    mat_scatter_at _ rfl rfl rfl rfl 0#32 0#32 0 0 (by decide) (by decide) (by omega) (by omega),
    mat_zero]
  rfl

/-- The second joined vector is the three second-layer bias vectors joined. -/
theorem V_v27 :
    Cert.Row.vec (V m c main_v27 : S32.Idx → EReal)
      = Cert.Row.cat3 (Cert.Row.vec (m ((c : Thread nD τ).loc main_arg4) : S16.Idx → EReal))
          (Cert.Row.vec (m ((c : Thread nD τ).loc main_arg8) : S8.Idx → EReal))
          (Cert.Row.vec (m ((c : Thread nD τ).loc main_arg12) : S8.Idx → EReal)) := by
  rw [V_v27_term, vec_concat3]

end Weights

end Cert.KernelIdeal.Hand
-- ==== Proof.ReferenceValue.lean ====
/-
  The reference program read at one entry: entry (r, q) of its result is entry q of the specified
  network applied to row r of the input.

  Each dense layer of the program is a transpose of the weights, a contraction over the shared axis, a bias
  broadcast over the rows and an addition: at entry (r, j) that is (∑ k, input (r, k) * W (j, k)) + b j. The
  three branches read columns 0-2, 3-4 and 5-7 of the row; their results are joined along the columns; the
  mean and the variance of the 64 hidden entries are sums over the row divided by 64.
-/
import proofs.«166149_j47193100648813_2_alg».proof.Proof.Gen.ReferenceIdeal.Read
import proofs.«166149_j47193100648813_2_alg».proof.Proof.RowIdx

open scoped BigOperators

noncomputable section

namespace Cert.ReferenceIdeal.Hand

open Cert.ReferenceIdeal Cert.ReferenceIdeal.Gen Cert.ReferenceIdeal.Read Idealize.ShloMosaic Idealize.ShloMosaic.ValueIdx
open Cert.Row (lin mat vec part row cat3 branches rest branchNet c64 eps)

/-- Two rank-2 indices with the same coordinates are equal. -/
theorem idx2_ext {n0 n1 : ℕ} (I J : (⟨2, ![n0, n1]⟩ : Shape).Idx) (h0 : (I 0).val = (J 0).val)
    (h1 : (I 1).val = (J 1).val) : I = J := by
  funext a
  match a with
  | ⟨0, _⟩ => exact Fin.ext h0
  | ⟨1, _⟩ => exact Fin.ext h1

/-- Two rank-1 indices with the same coordinate are equal. -/
theorem idx1_ext {n : ℕ} (I J : (⟨1, ![n]⟩ : Shape).Idx) (h0 : (I 0).val = (J 0).val) : I = J := by
  funext a
  match a with
  | ⟨0, _⟩ => exact Fin.ext h0

/-- A sum of products plus a bias is the dense-layer entry, once the factors and the bias are identified. -/
theorem lin_eq {n k : ℕ} {A B : Fin k → EReal} {c : EReal} (W : Fin n → Fin k → EReal) (b : Fin n → EReal)
    (x : Fin k → EReal) (j : Fin n) (hA : ∀ t, A t = x t) (hB : ∀ t, B t = W j t) (hc : c = b j) :
    (∑ t, A t * B t) + c = lin W b x j := by
  unfold lin
  simp only [hA, hB, hc]

variable (x0 : S2097152x8.Idx → EReal) (x1 : S16x3.Idx → EReal) (x2 : S16.Idx → EReal) (x3 : S16x16.Idx → EReal) (x4 : S16.Idx → EReal)
  (x5 : S8x2.Idx → EReal) (x6 : S8.Idx → EReal) (x7 : S8x8.Idx → EReal) (x8 : S8.Idx → EReal) (x9 : S8x3.Idx → EReal) (x10 : S8.Idx → EReal)
  (x11 : S8x8.Idx → EReal) (x12 : S8.Idx → EReal) (x13 : S64x32.Idx → EReal) (x14 x15 x16 : S64.Idx → EReal) (x17 : S32x64.Idx → EReal)
  (x18 : S32.Idx → EReal) (x19 : S64x32.Idx → EReal) (x20 : S64.Idx → EReal)

/-- The first branch's first layer at entry (r, j): the dense layer of columns 0-2 of row r. -/
theorem v7_at (i : S2097152x16.Idx) :
    val_main_v7 (F := Ideal) x0 x1 x2 i = lin (mat x1) (vec x2) (part 0 (by decide) (row x0 (i 0))) (i 1) := by
  rw [val_main_v7_apply, val_main_v4_apply, val_main_v6_apply, val_main_v5_apply, Ideal.addf_def]
  refine lin_eq _ _ _ _ (fun t => ?_) (fun t => ?_) ?_
  · rw [val_main_v0_apply]
    exact congrArg x0 (idx2_ext _ _ rfl (Nat.zero_add _).symm)
  · rw [val_main_v3_apply]
    exact congrArg x1 (idx2_ext _ _ rfl rfl)
  · exact congrArg x2 (idx1_ext _ _ rfl)

/-- The first branch's first layer after the rectifier. -/
theorem v8_at (i : S2097152x16.Idx) :
    val_main_v8 (F := Ideal) x0 x1 x2 i = Cert.Row.relu (lin (mat x1) (vec x2) (part 0 (by decide) (row x0 (i 0)))) (i 1) := by
  rw [val_main_v8_apply, v7_at, val_main_call0_v0_apply, val_main_call0_cst_apply, Ideal.maximumf_def,
    Ideal.ofBits_def, Ideal.ofBits_zero_f32]
  rfl

/-- The first branch's second layer at entry (r, j). -/
theorem v13_at (i : S2097152x16.Idx) :
    val_main_v13 (F := Ideal) x0 x1 x2 x3 x4 i = lin (mat x3) (vec x4) (Cert.Row.relu (lin (mat x1) (vec x2) (part 0 (by decide) (row x0 (i 0))))) (i 1) := by
  rw [val_main_v13_apply, val_main_v10_apply, val_main_v12_apply, val_main_v11_apply, Ideal.addf_def]
  refine lin_eq _ _ _ _ (fun t => ?_) (fun t => ?_) ?_
  · exact v8_at x0 x1 x2 (lidx_main_v10 i t)
  · rw [val_main_v9_apply]
    exact congrArg x3 (idx2_ext _ _ rfl rfl)
  · exact congrArg x4 (idx1_ext _ _ rfl)

/-- The second branch's first layer at entry (r, j): the dense layer of columns 3-4 of row r. -/
theorem v18_at (i : S2097152x8.Idx) :
    val_main_v18 (F := Ideal) x0 x5 x6 i = lin (mat x5) (vec x6) (part 3 (by decide) (row x0 (i 0))) (i 1) := by
  rw [val_main_v18_apply, val_main_v15_apply, val_main_v17_apply, val_main_v16_apply, Ideal.addf_def]
  refine lin_eq _ _ _ _ (fun t => ?_) (fun t => ?_) ?_
  · rw [val_main_v1_apply]
    exact congrArg x0 (idx2_ext _ _ rfl rfl)
  · rw [val_main_v14_apply]
    exact congrArg x5 (idx2_ext _ _ rfl rfl)
  · exact congrArg x6 (idx1_ext _ _ rfl)

/-- The second branch's first layer after the rectifier. -/
theorem v19_at (i : S2097152x8.Idx) :
    val_main_v19 (F := Ideal) x0 x5 x6 i = Cert.Row.relu (lin (mat x5) (vec x6) (part 3 (by decide) (row x0 (i 0)))) (i 1) := by
  rw [val_main_v19_apply, v18_at, val_main_call1_v0_apply, val_main_call1_cst_apply, Ideal.maximumf_def,
    Ideal.ofBits_def, Ideal.ofBits_zero_f32]
  rfl

/-- The second branch's second layer at entry (r, j). -/
theorem v24_at (i : S2097152x8.Idx) :
    val_main_v24 (F := Ideal) x0 x5 x6 x7 x8 i = lin (mat x7) (vec x8) (Cert.Row.relu (lin (mat x5) (vec x6) (part 3 (by decide) (row x0 (i 0))))) (i 1) := by
  rw [val_main_v24_apply, val_main_v21_apply, val_main_v23_apply, val_main_v22_apply, Ideal.addf_def]
  refine lin_eq _ _ _ _ (fun t => ?_) (fun t => ?_) ?_
  · exact v19_at x0 x5 x6 (lidx_main_v21 i t)
  · rw [val_main_v20_apply]
    exact congrArg x7 (idx2_ext _ _ rfl rfl)
  · exact congrArg x8 (idx1_ext _ _ rfl)

/-- The third branch's first layer at entry (r, j): the dense layer of columns 5-7 of row r. -/
theorem v29_at (i : S2097152x8.Idx) :
    val_main_v29 (F := Ideal) x0 x9 x10 i = lin (mat x9) (vec x10) (part 5 (by decide) (row x0 (i 0))) (i 1) := by
  rw [val_main_v29_apply, val_main_v26_apply, val_main_v28_apply, val_main_v27_apply, Ideal.addf_def]
  refine lin_eq _ _ _ _ (fun t => ?_) (fun t => ?_) ?_
  · rw [val_main_v2_apply]
    exact congrArg x0 (idx2_ext _ _ rfl rfl)
  · rw [val_main_v25_apply]
    exact congrArg x9 (idx2_ext _ _ rfl rfl)
  · exact congrArg x10 (idx1_ext _ _ rfl)

/-- The third branch's first layer after the rectifier. -/
theorem v30_at (i : S2097152x8.Idx) :
    val_main_v30 (F := Ideal) x0 x9 x10 i = Cert.Row.relu (lin (mat x9) (vec x10) (part 5 (by decide) (row x0 (i 0)))) (i 1) := by
  rw [val_main_v30_apply, v29_at, val_main_call2_v0_apply, val_main_call2_cst_apply, Ideal.maximumf_def,
    Ideal.ofBits_def, Ideal.ofBits_zero_f32]
  rfl

/-- The third branch's second layer at entry (r, j). -/
theorem v35_at (i : S2097152x8.Idx) :
    val_main_v35 (F := Ideal) x0 x9 x10 x11 x12 i = lin (mat x11) (vec x12) (Cert.Row.relu (lin (mat x9) (vec x10) (part 5 (by decide) (row x0 (i 0))))) (i 1) := by
  rw [val_main_v35_apply, val_main_v32_apply, val_main_v34_apply, val_main_v33_apply, Ideal.addf_def]
  refine lin_eq _ _ _ _ (fun t => ?_) (fun t => ?_) ?_
  · exact v30_at x0 x9 x10 (lidx_main_v32 i t)
  · rw [val_main_v31_apply]
    exact congrArg x11 (idx2_ext _ _ rfl rfl)
  · exact congrArg x12 (idx1_ext _ _ rfl)

/-- Entries 0-15 of three joined vectors are the first vector's. -/
theorem cat3_fst (a : Fin 16 → EReal) (b c : Fin 8 → EReal) (j : Fin 32) (h : j.val < 16) :
    cat3 a b c j = a ⟨j.val, h⟩ := by
  unfold cat3
  rw [dif_pos h]

/-- Entries 16-23 of three joined vectors are the second vector's. -/
theorem cat3_snd (a : Fin 16 → EReal) (b c : Fin 8 → EReal) (j : Fin 32) (h1 : ¬ j.val < 16) (h2 : j.val < 24) :
    cat3 a b c j = b ⟨j.val - 16, by omega⟩ := by
  unfold cat3
  rw [dif_neg h1, dif_pos h2]

/-- Entries 24-31 of three joined vectors are the third vector's. -/
theorem cat3_trd (a : Fin 16 → EReal) (b c : Fin 8 → EReal) (j : Fin 32) (h2 : ¬ j.val < 24) :
    cat3 a b c j = c ⟨j.val - 24, by have := j.isLt; omega⟩ := by
  unfold cat3
  rw [dif_neg (by omega), dif_neg h2]

/-- The 32 joined entries of row `r`: the three branches' results on the row, joined. -/
def comb (r : Fin 2097152) : Fin 32 → EReal :=
  branches (mat x1) (vec x2) (mat x3) (vec x4) (mat x5) (vec x6) (mat x7) (vec x8) (mat x9) (vec x10) (mat x11) (vec x12)
    (row x0 r)

/-- The joined array at entry (r, j): by the column `j`, an entry of the first, second or third branch's result. -/
theorem v36_at (i : S2097152x32.Idx) :
    val_main_v36 (F := Ideal) x0 x1 x2 x3 x4 x5 x6 x7 x8 x9 x10 x11 x12 i = comb x0 x1 x2 x3 x4 x5 x6 x7 x8 x9 x10 x11 x12 (i 0) (i 1) := by
  have hlt : (i 1).val < 32 := idx2_lt1 i
  unfold val_main_v36
  by_cases h16 : (i 1).val < 16
  · refine Eq.trans (concatenate_apply_piece (1 : Fin 2) _ _ i 0 (by show (0 : ℕ) < 3; omega) S2097152x16 _ rfl rfl 0 rfl
      (ix2 (i 0) ⟨(i 1).val, h16⟩) (fun b hb => ?_) ?_) ?_
    · match b with
      | ⟨0, _⟩ => rfl
      | ⟨1, _⟩ => exact absurd rfl hb
    · exact Nat.zero_add _
    · exact (v13_at x0 x1 x2 x3 x4 _).trans (cat3_fst _ _ _ (i 1) h16).symm
  · by_cases h24 : (i 1).val < 24
    · refine Eq.trans (concatenate_apply_piece (1 : Fin 2) _ _ i 1 (by show (1 : ℕ) < 3; omega) S2097152x8 _ rfl rfl 16 rfl
        (ix2 (i 0) ⟨(i 1).val - 16, by omega⟩) (fun b hb => ?_) ?_) ?_
      · match b with
        | ⟨0, _⟩ => rfl
        | ⟨1, _⟩ => exact absurd rfl hb
      · show 16 + ((i 1).val - 16) = (i 1).val
        omega
      · exact (v24_at x0 x5 x6 x7 x8 _).trans (cat3_snd _ _ _ (i 1) h16 h24).symm
    · refine Eq.trans (concatenate_apply_piece (1 : Fin 2) _ _ i 2 (by show (2 : ℕ) < 3; omega) S2097152x8 _ rfl rfl 24 rfl
        (ix2 (i 0) ⟨(i 1).val - 24, by omega⟩) (fun b hb => ?_) ?_) ?_
      · match b with
        | ⟨0, _⟩ => rfl
        | ⟨1, _⟩ => exact absurd rfl hb
      · show 24 + ((i 1).val - 24) = (i 1).val
        omega
      · exact (v35_at x0 x9 x10 x11 x12 _).trans (cat3_trd _ _ _ (i 1) h24).symm

/-- The dense layer to 64 entries at entry (r, q), on the 32 joined entries of row r. -/
theorem v41_at (i : S2097152x64.Idx) :
    val_main_v41 (F := Ideal) x0 x1 x2 x3 x4 x5 x6 x7 x8 x9 x10 x11 x12 x13 x14 i = lin (mat x13) (vec x14) (comb x0 x1 x2 x3 x4 x5 x6 x7 x8 x9 x10 x11 x12 (i 0)) (i 1) := by
  rw [val_main_v41_apply, val_main_v38_apply, val_main_v40_apply, val_main_v39_apply, Ideal.addf_def]
  refine lin_eq _ _ _ _ (fun t => ?_) (fun t => ?_) ?_
  · exact v36_at x0 x1 x2 x3 x4 x5 x6 x7 x8 x9 x10 x11 x12 (lidx_main_v38 i t)
  · rw [val_main_v37_apply]
    exact congrArg x13 (idx2_ext _ _ rfl rfl)
  · exact congrArg x14 (idx1_ext _ _ rfl)

/-- The 64 hidden entries of row `r`. -/
def hid (r : Fin 2097152) : Fin 64 → EReal := lin (mat x13) (vec x14) (comb x0 x1 x2 x3 x4 x5 x6 x7 x8 x9 x10 x11 x12 r)

/-- The mean of the 64 hidden entries of row `r`: their sum divided by 64. -/
def mean (r : Fin 2097152) : EReal := Ideal.div (∑ j, hid x0 x1 x2 x3 x4 x5 x6 x7 x8 x9 x10 x11 x12 x13 x14 r j) c64

/-- The variance of the 64 hidden entries of row `r`: the sum of the squares of their differences from the mean,
    divided by 64. -/
def var (r : Fin 2097152) : EReal :=
  Ideal.div (∑ j, (hid x0 x1 x2 x3 x4 x5 x6 x7 x8 x9 x10 x11 x12 x13 x14 r j - mean x0 x1 x2 x3 x4 x5 x6 x7 x8 x9 x10 x11 x12 x13 x14 r) * (hid x0 x1 x2 x3 x4 x5 x6 x7 x8 x9 x10 x11 x12 x13 x14 r j - mean x0 x1 x2 x3 x4 x5 x6 x7 x8 x9 x10 x11 x12 x13 x14 r)) c64

/-- The normalised, scaled and shifted hidden entries of row `r` after the hyperbolic tangent. -/
def base (r : Fin 2097152) : Fin 64 → EReal :=
  fun j => Ideal.tanh (((hid x0 x1 x2 x3 x4 x5 x6 x7 x8 x9 x10 x11 x12 x13 x14 r j - mean x0 x1 x2 x3 x4 x5 x6 x7 x8 x9 x10 x11 x12 x13 x14 r) * Ideal.rsqrt (var x0 x1 x2 x3 x4 x5 x6 x7 x8 x9 x10 x11 x12 x13 x14 r + eps)) * vec x15 j + vec x16 j)

/-- The sum of the hidden entries along row r, from zero. -/
theorem v42_at (i : S2097152.Idx) :
    val_main_v42 (F := Ideal) x0 x1 x2 x3 x4 x5 x6 x7 x8 x9 x10 x11 x12 x13 x14 i = ∑ k : Fin 64, hid x0 x1 x2 x3 x4 x5 x6 x7 x8 x9 x10 x11 x12 x13 x14 (i 0) k := by
  rw [val_main_v42_apply, val_main_cst_apply, Ideal.ofBits_def, Ideal.ofBits_zero_f32, zero_add]
  exact Finset.sum_congr rfl fun k _ => v41_at x0 x1 x2 x3 x4 x5 x6 x7 x8 x9 x10 x11 x12 x13 x14 (idx_main_v42 i k)

/-- The mean of row r. -/
theorem v45_at (i : S2097152x1.Idx) :
    val_main_v45 (F := Ideal) x0 x1 x2 x3 x4 x5 x6 x7 x8 x9 x10 x11 x12 x13 x14 i = mean x0 x1 x2 x3 x4 x5 x6 x7 x8 x9 x10 x11 x12 x13 x14 (i 0) := by
  rw [val_main_v45_apply, val_main_v43_apply, v42_at, val_main_v44_apply, val_main_cst_0_apply, Ideal.hostDivf_def,
    Ideal.ofBits_def]
  rfl

/-- A hidden entry minus its row's mean. -/
theorem v47_at (i : S2097152x64.Idx) :
    val_main_v47 (F := Ideal) x0 x1 x2 x3 x4 x5 x6 x7 x8 x9 x10 x11 x12 x13 x14 i = hid x0 x1 x2 x3 x4 x5 x6 x7 x8 x9 x10 x11 x12 x13 x14 (i 0) (i 1) - mean x0 x1 x2 x3 x4 x5 x6 x7 x8 x9 x10 x11 x12 x13 x14 (i 0) := by
  rw [val_main_v47_apply, v41_at, val_main_v46_apply, v45_at, Ideal.subf_def]
  rfl

/-- The same difference, as the program computes it a second time. -/
theorem v54_at (i : S2097152x64.Idx) :
    val_main_v54 (F := Ideal) x0 x1 x2 x3 x4 x5 x6 x7 x8 x9 x10 x11 x12 x13 x14 i = hid x0 x1 x2 x3 x4 x5 x6 x7 x8 x9 x10 x11 x12 x13 x14 (i 0) (i 1) - mean x0 x1 x2 x3 x4 x5 x6 x7 x8 x9 x10 x11 x12 x13 x14 (i 0) := by
  rw [val_main_v54_apply, v41_at, val_main_v53_apply, v45_at, Ideal.subf_def]
  rfl

/-- The sum of the squared differences along row r, from zero. -/
theorem v49_at (i : S2097152.Idx) :
    val_main_v49 (F := Ideal) x0 x1 x2 x3 x4 x5 x6 x7 x8 x9 x10 x11 x12 x13 x14 i
      = ∑ k : Fin 64, (hid x0 x1 x2 x3 x4 x5 x6 x7 x8 x9 x10 x11 x12 x13 x14 (i 0) k - mean x0 x1 x2 x3 x4 x5 x6 x7 x8 x9 x10 x11 x12 x13 x14 (i 0)) * (hid x0 x1 x2 x3 x4 x5 x6 x7 x8 x9 x10 x11 x12 x13 x14 (i 0) k - mean x0 x1 x2 x3 x4 x5 x6 x7 x8 x9 x10 x11 x12 x13 x14 (i 0)) := by
  rw [val_main_v49_apply, val_main_cst_1_apply, Ideal.ofBits_def, Ideal.ofBits_zero_f32, zero_add]
  refine Finset.sum_congr rfl fun k _ => ?_
  rw [val_main_v48_apply, v47_at, Ideal.mulf_def]
  rfl

/-- The variance of row r. -/
theorem v52_at (i : S2097152x1.Idx) :
    val_main_v52 (F := Ideal) x0 x1 x2 x3 x4 x5 x6 x7 x8 x9 x10 x11 x12 x13 x14 i = var x0 x1 x2 x3 x4 x5 x6 x7 x8 x9 x10 x11 x12 x13 x14 (i 0) := by
  rw [val_main_v52_apply, val_main_v50_apply, v49_at, val_main_v51_apply, val_main_cst_2_apply, Ideal.hostDivf_def,
    Ideal.ofBits_def]
  rfl

/-- The reciprocal square root of the variance plus the offset. -/
theorem v57_at (i : S2097152x1.Idx) :
    val_main_v57 (F := Ideal) x0 x1 x2 x3 x4 x5 x6 x7 x8 x9 x10 x11 x12 x13 x14 i = Ideal.rsqrt (var x0 x1 x2 x3 x4 x5 x6 x7 x8 x9 x10 x11 x12 x13 x14 (i 0) + eps) := by
  rw [val_main_v57_apply, val_main_v56_apply, v52_at, val_main_v55_apply, val_main_cst_3_apply, Ideal.hostUnary_rsqrt_def,
    Ideal.addf_def, Ideal.ofBits_def]

/-- The normalised, scaled and shifted hidden entry after the hyperbolic tangent. -/
theorem v66_at (i : S2097152x64.Idx) :
    val_main_v66 (F := Ideal) x0 x1 x2 x3 x4 x5 x6 x7 x8 x9 x10 x11 x12 x13 x14 x15 x16 i = base x0 x1 x2 x3 x4 x5 x6 x7 x8 x9 x10 x11 x12 x13 x14 x15 x16 (i 0) (i 1) := by
  rw [val_main_v66_apply, val_main_v65_apply, val_main_v62_apply, val_main_v59_apply, v54_at, val_main_v58_apply, v57_at,
    val_main_v61_apply, val_main_v60_apply, val_main_v64_apply, val_main_v63_apply, Ideal.hostUnary_tanh_def,
    Ideal.addf_def, Ideal.mulf_def, Ideal.mulf_def]
  have h15 : x15 (idx_main_v60 (idx_main_v61 i)) = vec x15 (i 1) := congrArg x15 (idx1_ext _ _ rfl)
  have h16 : x16 (idx_main_v63 (idx_main_v64 i)) = vec x16 (i 1) := congrArg x16 (idx1_ext _ _ rfl)
  rw [h15, h16]
  rfl

/-- The residual network's first layer at entry (r, j). -/
theorem v71_at (i : S2097152x32.Idx) :
    val_main_v71 (F := Ideal) x0 x1 x2 x3 x4 x5 x6 x7 x8 x9 x10 x11 x12 x13 x14 x15 x16 x17 x18 i = lin (mat x17) (vec x18) (base x0 x1 x2 x3 x4 x5 x6 x7 x8 x9 x10 x11 x12 x13 x14 x15 x16 (i 0)) (i 1) := by
  rw [val_main_v71_apply, val_main_v68_apply, val_main_v70_apply, val_main_v69_apply, Ideal.addf_def]
  refine lin_eq _ _ _ _ (fun t => ?_) (fun t => ?_) ?_
  · exact v66_at x0 x1 x2 x3 x4 x5 x6 x7 x8 x9 x10 x11 x12 x13 x14 x15 x16 (lidx_main_v68 i t)
  · rw [val_main_v67_apply]
    exact congrArg x17 (idx2_ext _ _ rfl rfl)
  · exact congrArg x18 (idx1_ext _ _ rfl)

/-- The residual network's first layer after the rectifier. -/
theorem v72_at (i : S2097152x32.Idx) :
    val_main_v72 (F := Ideal) x0 x1 x2 x3 x4 x5 x6 x7 x8 x9 x10 x11 x12 x13 x14 x15 x16 x17 x18 i = Cert.Row.relu (lin (mat x17) (vec x18) (base x0 x1 x2 x3 x4 x5 x6 x7 x8 x9 x10 x11 x12 x13 x14 x15 x16 (i 0))) (i 1) := by
  rw [val_main_v72_apply, v71_at, val_main_call3_v0_apply, val_main_call3_cst_apply, Ideal.maximumf_def,
    Ideal.ofBits_def, Ideal.ofBits_zero_f32]
  rfl

/-- The residual network's second layer at entry (r, q). -/
theorem v77_at (i : S2097152x64.Idx) :
    val_main_v77 (F := Ideal) x0 x1 x2 x3 x4 x5 x6 x7 x8 x9 x10 x11 x12 x13 x14 x15 x16 x17 x18 x19 x20 i = lin (mat x19) (vec x20) (Cert.Row.relu (lin (mat x17) (vec x18) (base x0 x1 x2 x3 x4 x5 x6 x7 x8 x9 x10 x11 x12 x13 x14 x15 x16 (i 0)))) (i 1) := by
  rw [val_main_v77_apply, val_main_v74_apply, val_main_v76_apply, val_main_v75_apply, Ideal.addf_def]
  refine lin_eq _ _ _ _ (fun t => ?_) (fun t => ?_) ?_
  · exact v72_at x0 x1 x2 x3 x4 x5 x6 x7 x8 x9 x10 x11 x12 x13 x14 x15 x16 x17 x18 (lidx_main_v74 i t)
  · rw [val_main_v73_apply]
    exact congrArg x19 (idx2_ext _ _ rfl rfl)
  · exact congrArg x20 (idx1_ext _ _ rfl)

/-- The result at entry (r, q): the normalised entry plus the residual network of the normalised row. -/
theorem v78_at (i : S2097152x64.Idx) :
    val_main_v78 (F := Ideal) x0 x1 x2 x3 x4 x5 x6 x7 x8 x9 x10 x11 x12 x13 x14 x15 x16 x17 x18 x19 x20 i
      = base x0 x1 x2 x3 x4 x5 x6 x7 x8 x9 x10 x11 x12 x13 x14 x15 x16 (i 0) (i 1)
        + lin (mat x19) (vec x20) (Cert.Row.relu (lin (mat x17) (vec x18) (base x0 x1 x2 x3 x4 x5 x6 x7 x8 x9 x10 x11 x12 x13 x14 x15 x16 (i 0)))) (i 1) := by
  rw [val_main_v78_apply, v66_at, v77_at, Ideal.addf_def]

/-- The reference program's result is the network of the specification on every row: entry (r, q) of the result
    is entry q of the three branches, the join, the dense layer, the normalisation, the hyperbolic tangent and the
    residual network applied to row r of the input. -/
theorem ref_value (x0 : S2097152x8.Idx → EReal) (x1 : S16x3.Idx → EReal) (x2 : S16.Idx → EReal) (x3 : S16x16.Idx → EReal)
    (x4 : S16.Idx → EReal) (x5 : S8x2.Idx → EReal) (x6 : S8.Idx → EReal) (x7 : S8x8.Idx → EReal) (x8 : S8.Idx → EReal)
    (x9 : S8x3.Idx → EReal) (x10 : S8.Idx → EReal) (x11 : S8x8.Idx → EReal) (x12 : S8.Idx → EReal) (x13 : S64x32.Idx → EReal)
    (x14 x15 x16 : S64.Idx → EReal) (x17 : S32x64.Idx → EReal) (x18 : S32.Idx → EReal) (x19 : S64x32.Idx → EReal)
    (x20 : S64.Idx → EReal) :
    Cert.ReferenceIdeal.Read.val_main_v78 (F := Ideal) x0 x1 x2 x3 x4 x5 x6 x7 x8 x9 x10 x11 x12 x13 x14 x15 x16 x17 x18 x19 x20
      = Cert.Row.branchNet x0 x1 x2 x3 x4 x5 x6 x7 x8 x9 x10 x11 x12 x13 x14 x15 x16 x17 x18 x19 x20 := by
  funext i
  rw [v78_at]
  rfl

end Cert.ReferenceIdeal.Hand

end
-- ==== Proof.RowAlgebra.lean ====
/-
  A two-layer network with block-diagonal weight matrices is three two-layer networks side by side.

  A dense layer sends `x` to `j ↦ (∑ i, x i * W j i) + b j`. When row `j` of `W` is zero outside the columns
  `a, …, a + k - 1`, every product outside those columns is `x i * 0 = 0` (for every extended real `x i`,
  infinite or not), so the sum over all columns is the sum over those `k` columns alone. Only the monoid laws
  of addition and `x * 0 = 0` are used: no distributivity and no finiteness.
-/
import proofs.«166149_j47193100648813_2_alg».proof.Proof.RowSpec
import Mathlib.Algebra.BigOperators.Group.Finset.Basic
import Mathlib.Data.EReal.Basic

open scoped BigOperators

noncomputable section

namespace Cert.Row

/-- A sum over `Fin n` of a function that vanishes outside the positions `a, …, a + k - 1` is the sum of its
    values at those `k` positions. -/
theorem sum_eq_sum_window {M : Type*} [AddCommMonoid M] {n k : ℕ} (a : ℕ) (h : a + k ≤ n) (f : Fin n → M)
    (hf : ∀ i : Fin n, ¬ (a ≤ i.val ∧ i.val < a + k) → f i = 0) :
    ∑ i, f i = ∑ i : Fin k, f ⟨a + i.val, by have := i.isLt; omega⟩ := by
  classical
  let e : Fin k ↪ Fin n :=
    ⟨fun i => ⟨a + i.val, by have := i.isLt; omega⟩, fun i j hij => by
      apply Fin.ext
      have := congrArg Fin.val hij
      simp only at this
      omega⟩
  have h1 : ∑ i, f i = ∑ i ∈ Finset.univ.map e, f i := by
    symm
    apply Finset.sum_subset (Finset.subset_univ _)
    intro i _ hi
    apply hf
    intro hc
    apply hi
    rw [Finset.mem_map]
    exact ⟨⟨i.val - a, by omega⟩, Finset.mem_univ _, Fin.ext (by show a + (i.val - a) = i.val; omega)⟩
  rw [h1, Finset.sum_map]
  rfl

/-- Entry `j` of a dense layer whose row `j` is `row` on the columns `a, …, a + k - 1` and zero on every other
    column: it is the dense-layer entry of `row` on those `k` entries of the input. -/
theorem lin_window {m n k : ℕ} (W : Fin m → Fin n → EReal) (b : Fin m → EReal) (x : Fin n → EReal) (j : Fin m)
    (a : ℕ) (h : a + k ≤ n) (row : Fin k → EReal)
    (hin : ∀ i : Fin k, W j ⟨a + i.val, by have := i.isLt; omega⟩ = row i)
    (hout : ∀ i : Fin n, ¬ (a ≤ i.val ∧ i.val < a + k) → W j i = 0) :
    lin W b x j = (∑ i : Fin k, part a h x i * row i) + b j := by
  unfold lin
  rw [sum_eq_sum_window a h (fun i => x i * W j i) (fun i hi => by rw [hout i hi, mul_zero])]
  simp only [part, hin]

/-- The rectifier of a joined vector is the joined vector of the rectifiers. -/
theorem relu_cat3 (a : Fin 16 → EReal) (b c : Fin 8 → EReal) :
    relu (cat3 a b c) = cat3 (relu a) (relu b) (relu c) := by
  funext j
  unfold relu cat3
  split_ifs <;> rfl

/-- Entries 0-15 of a joined vector are its first part. -/
theorem part_cat3_fst (a : Fin 16 → EReal) (b c : Fin 8 → EReal) (h : 0 + 16 ≤ 32) :
    part 0 h (cat3 a b c) = a := by
  funext i
  have := i.isLt
  simp only [part, cat3]
  split_ifs
  · congr 1; apply Fin.ext; simp
  · omega
  · omega

/-- Entries 16-23 of a joined vector are its second part. -/
theorem part_cat3_snd (a : Fin 16 → EReal) (b c : Fin 8 → EReal) (h : 16 + 8 ≤ 32) :
    part 16 h (cat3 a b c) = b := by
  funext i
  have := i.isLt
  simp only [part, cat3]
  split_ifs
  · omega
  · congr 1; apply Fin.ext; simp
  · omega

/-- Entries 24-31 of a joined vector are its third part. -/
theorem part_cat3_trd (a : Fin 16 → EReal) (b c : Fin 8 → EReal) (h : 24 + 8 ≤ 32) :
    part 24 h (cat3 a b c) = c := by
  funext i
  have := i.isLt
  simp only [part, cat3]
  split_ifs
  · omega
  · omega
  · congr 1; apply Fin.ext; simp

/-- Rows 0-15 of the 32 × 8 block matrix: the first block on columns 0-2. -/
theorem W1b_fst_in (Wr : Fin 16 → Fin 3 → EReal) (Wi : Fin 8 → Fin 2 → EReal) (Wn : Fin 8 → Fin 3 → EReal)
    (j : Fin 32) (hj : j.val < 16) (i : Fin 3) :
    W1b Wr Wi Wn j ⟨0 + i.val, by have := i.isLt; omega⟩ = Wr ⟨j.val, hj⟩ i := by
  have := i.isLt
  have := j.isLt
  simp only [W1b, win]
  split_ifs
  all_goals first
    | omega
    | simp only [Nat.sub_zero, Nat.zero_add, Nat.add_sub_cancel_left, Fin.eta]

/-- Rows 0-15 of the 32 × 8 block matrix: zero outside columns 0-2. -/
theorem W1b_fst_out (Wr : Fin 16 → Fin 3 → EReal) (Wi : Fin 8 → Fin 2 → EReal) (Wn : Fin 8 → Fin 3 → EReal)
    (j : Fin 32) (hj : j.val < 16) (i : Fin 8) (hi : ¬ (0 ≤ i.val ∧ i.val < 0 + 3)) :
    W1b Wr Wi Wn j i = 0 := by
  have := j.isLt
  simp only [W1b, win]
  split_ifs
  all_goals first
    | omega
    | rfl

/-- Rows 16-23 of the 32 × 8 block matrix: the second block on columns 3-4. -/
theorem W1b_snd_in (Wr : Fin 16 → Fin 3 → EReal) (Wi : Fin 8 → Fin 2 → EReal) (Wn : Fin 8 → Fin 3 → EReal)
    (j : Fin 32) (h16 : ¬ j.val < 16) (h24 : j.val < 24) (i : Fin 2) :
    W1b Wr Wi Wn j ⟨3 + i.val, by have := i.isLt; omega⟩ = Wi ⟨j.val - 16, by omega⟩ i := by
  have := i.isLt
  have := j.isLt
  simp only [W1b, win]
  split_ifs
  all_goals first
    | omega
    | simp only [Nat.sub_zero, Nat.zero_add, Nat.add_sub_cancel_left, Fin.eta]

/-- Rows 16-23 of the 32 × 8 block matrix: zero outside columns 3-4. -/
theorem W1b_snd_out (Wr : Fin 16 → Fin 3 → EReal) (Wi : Fin 8 → Fin 2 → EReal) (Wn : Fin 8 → Fin 3 → EReal)
    (j : Fin 32) (h16 : ¬ j.val < 16) (h24 : j.val < 24) (i : Fin 8) (hi : ¬ (3 ≤ i.val ∧ i.val < 3 + 2)) :
    W1b Wr Wi Wn j i = 0 := by
  have := j.isLt
  simp only [W1b, win]
  split_ifs
  all_goals first
    | omega
    | rfl

/-- Rows 24-31 of the 32 × 8 block matrix: the third block on columns 5-7. -/
theorem W1b_trd_in (Wr : Fin 16 → Fin 3 → EReal) (Wi : Fin 8 → Fin 2 → EReal) (Wn : Fin 8 → Fin 3 → EReal)
    (j : Fin 32) (h24 : ¬ j.val < 24) (i : Fin 3) :
    W1b Wr Wi Wn j ⟨5 + i.val, by have := i.isLt; omega⟩ = Wn ⟨j.val - 24, by have := j.isLt; omega⟩ i := by
  have := i.isLt
  have := j.isLt
  simp only [W1b, win]
  split_ifs
  all_goals first
    | omega
    | simp only [Nat.sub_zero, Nat.zero_add, Nat.add_sub_cancel_left, Fin.eta]

/-- Rows 24-31 of the 32 × 8 block matrix: zero outside columns 5-7. -/
theorem W1b_trd_out (Wr : Fin 16 → Fin 3 → EReal) (Wi : Fin 8 → Fin 2 → EReal) (Wn : Fin 8 → Fin 3 → EReal)
    (j : Fin 32) (h24 : ¬ j.val < 24) (i : Fin 8) (hi : ¬ (5 ≤ i.val ∧ i.val < 5 + 3)) :
    W1b Wr Wi Wn j i = 0 := by
  have := j.isLt
  simp only [W1b, win]
  split_ifs
  all_goals first
    | omega
    | rfl

/-- Rows 0-15 of the 32 × 32 block matrix: the first block on columns 0-15. -/
theorem W2b_fst_in (Wr : Fin 16 → Fin 16 → EReal) (Wi Wn : Fin 8 → Fin 8 → EReal)
    (j : Fin 32) (hj : j.val < 16) (i : Fin 16) :
    W2b Wr Wi Wn j ⟨0 + i.val, by have := i.isLt; omega⟩ = Wr ⟨j.val, hj⟩ i := by
  have := i.isLt
  have := j.isLt
  simp only [W2b, win]
  split_ifs
  all_goals first
    | omega
    | simp only [Nat.sub_zero, Nat.zero_add, Nat.add_sub_cancel_left, Fin.eta]

/-- Rows 0-15 of the 32 × 32 block matrix: zero outside columns 0-15. -/
theorem W2b_fst_out (Wr : Fin 16 → Fin 16 → EReal) (Wi Wn : Fin 8 → Fin 8 → EReal)
    (j : Fin 32) (hj : j.val < 16) (i : Fin 32) (hi : ¬ (0 ≤ i.val ∧ i.val < 0 + 16)) :
    W2b Wr Wi Wn j i = 0 := by
  have := j.isLt
  simp only [W2b, win]
  split_ifs
  all_goals first
    | omega
    | rfl

/-- Rows 16-23 of the 32 × 32 block matrix: the second block on columns 16-23. -/
theorem W2b_snd_in (Wr : Fin 16 → Fin 16 → EReal) (Wi Wn : Fin 8 → Fin 8 → EReal)
    (j : Fin 32) (h16 : ¬ j.val < 16) (h24 : j.val < 24) (i : Fin 8) :
    W2b Wr Wi Wn j ⟨16 + i.val, by have := i.isLt; omega⟩ = Wi ⟨j.val - 16, by omega⟩ i := by
  have := i.isLt
  have := j.isLt
  simp only [W2b, win]
  split_ifs
  all_goals first
    | omega
    | simp only [Nat.sub_zero, Nat.zero_add, Nat.add_sub_cancel_left, Fin.eta]

/-- Rows 16-23 of the 32 × 32 block matrix: zero outside columns 16-23. -/
theorem W2b_snd_out (Wr : Fin 16 → Fin 16 → EReal) (Wi Wn : Fin 8 → Fin 8 → EReal)
    (j : Fin 32) (h16 : ¬ j.val < 16) (h24 : j.val < 24) (i : Fin 32) (hi : ¬ (16 ≤ i.val ∧ i.val < 16 + 8)) :
    W2b Wr Wi Wn j i = 0 := by
  have := j.isLt
  simp only [W2b, win]
  split_ifs
  all_goals first
    | omega
    | rfl

/-- Rows 24-31 of the 32 × 32 block matrix: the third block on columns 24-31. -/
theorem W2b_trd_in (Wr : Fin 16 → Fin 16 → EReal) (Wi Wn : Fin 8 → Fin 8 → EReal)
    (j : Fin 32) (h24 : ¬ j.val < 24) (i : Fin 8) :
    W2b Wr Wi Wn j ⟨24 + i.val, by have := i.isLt; omega⟩ = Wn ⟨j.val - 24, by have := j.isLt; omega⟩ i := by
  have := i.isLt
  have := j.isLt
  simp only [W2b, win]
  split_ifs
  all_goals first
    | omega
    | simp only [Nat.sub_zero, Nat.zero_add, Nat.add_sub_cancel_left, Fin.eta]

/-- Rows 24-31 of the 32 × 32 block matrix: zero outside columns 24-31. -/
theorem W2b_trd_out (Wr : Fin 16 → Fin 16 → EReal) (Wi Wn : Fin 8 → Fin 8 → EReal)
    (j : Fin 32) (h24 : ¬ j.val < 24) (i : Fin 32) (hi : ¬ (24 ≤ i.val ∧ i.val < 24 + 8)) :
    W2b Wr Wi Wn j i = 0 := by
  have := j.isLt
  simp only [W2b, win]
  split_ifs
  all_goals first
    | omega
    | rfl

/-- A dense layer with the 32 × 8 block matrix and joined biases is the three dense layers on columns 0-2, 3-4 and
    5-7 of the input, joined: in each row the products outside the block's columns are `x i * 0 = 0`. -/
theorem lin_W1b (Wr : Fin 16 → Fin 3 → EReal) (Wi : Fin 8 → Fin 2 → EReal) (Wn : Fin 8 → Fin 3 → EReal)
    (br : Fin 16 → EReal) (bi bn : Fin 8 → EReal) (x : Fin 8 → EReal)
    (h0 : 0 + 3 ≤ 8) (h1 : 3 + 2 ≤ 8) (h2 : 5 + 3 ≤ 8) :
    lin (W1b Wr Wi Wn) (cat3 br bi bn) x
      = cat3 (lin Wr br (part 0 h0 x)) (lin Wi bi (part 3 h1 x)) (lin Wn bn (part 5 h2 x)) := by
  funext j
  by_cases h16 : j.val < 16
  · rw [lin_window (W1b Wr Wi Wn) (cat3 br bi bn) x j 0 h0 (Wr ⟨j.val, h16⟩)
      (W1b_fst_in Wr Wi Wn j h16) (W1b_fst_out Wr Wi Wn j h16)]
    simp only [cat3, h16, ↓reduceDIte, lin]
  · by_cases h24 : j.val < 24
    · rw [lin_window (W1b Wr Wi Wn) (cat3 br bi bn) x j 3 h1 (Wi ⟨j.val - 16, by omega⟩)
        (W1b_snd_in Wr Wi Wn j h16 h24) (W1b_snd_out Wr Wi Wn j h16 h24)]
      simp only [cat3, h16, h24, ↓reduceDIte, lin]
    · rw [lin_window (W1b Wr Wi Wn) (cat3 br bi bn) x j 5 h2 (Wn ⟨j.val - 24, by have := j.isLt; omega⟩)
        (W1b_trd_in Wr Wi Wn j h24) (W1b_trd_out Wr Wi Wn j h24)]
      simp only [cat3, h16, h24, ↓reduceDIte, lin]

/-- A dense layer with the 32 × 32 block matrix and joined biases is the three dense layers on entries 0-15, 16-23
    and 24-31 of the input, joined: in each row the products outside the block's columns are `x i * 0 = 0`. -/
theorem lin_W2b (Wr : Fin 16 → Fin 16 → EReal) (Wi Wn : Fin 8 → Fin 8 → EReal)
    (br : Fin 16 → EReal) (bi bn : Fin 8 → EReal) (x : Fin 32 → EReal)
    (h0 : 0 + 16 ≤ 32) (h1 : 16 + 8 ≤ 32) (h2 : 24 + 8 ≤ 32) :
    lin (W2b Wr Wi Wn) (cat3 br bi bn) x
      = cat3 (lin Wr br (part 0 h0 x)) (lin Wi bi (part 16 h1 x)) (lin Wn bn (part 24 h2 x)) := by
  funext j
  by_cases h16 : j.val < 16
  · rw [lin_window (W2b Wr Wi Wn) (cat3 br bi bn) x j 0 h0 (Wr ⟨j.val, h16⟩)
      (W2b_fst_in Wr Wi Wn j h16) (W2b_fst_out Wr Wi Wn j h16)]
    simp only [cat3, h16, ↓reduceDIte, lin]
  · by_cases h24 : j.val < 24
    · rw [lin_window (W2b Wr Wi Wn) (cat3 br bi bn) x j 16 h1 (Wi ⟨j.val - 16, by omega⟩)
        (W2b_snd_in Wr Wi Wn j h16 h24) (W2b_snd_out Wr Wi Wn j h16 h24)]
      simp only [cat3, h16, h24, ↓reduceDIte, lin]
    · rw [lin_window (W2b Wr Wi Wn) (cat3 br bi bn) x j 24 h2 (Wn ⟨j.val - 24, by have := j.isLt; omega⟩)
        (W2b_trd_in Wr Wi Wn j h24) (W2b_trd_out Wr Wi Wn j h24)]
      simp only [cat3, h16, h24, ↓reduceDIte, lin]

/-- The one two-layer network with block-diagonal matrices on the whole row of eight inputs gives the same 32
    entries as the three two-layer networks on columns 0-2, 3-4 and 5-7, joined: the first block layer is the
    three first layers joined, the rectifier acts entry by entry, and the second block layer reads from the joined
    vector exactly the part that belongs to each block. -/
theorem fused_eq_branches (Wr1 : Fin 16 → Fin 3 → EReal) (br1 : Fin 16 → EReal) (Wr2 : Fin 16 → Fin 16 → EReal) (br2 : Fin 16 → EReal)
    (Wi1 : Fin 8 → Fin 2 → EReal) (bi1 : Fin 8 → EReal) (Wi2 : Fin 8 → Fin 8 → EReal) (bi2 : Fin 8 → EReal)
    (Wn1 : Fin 8 → Fin 3 → EReal) (bn1 : Fin 8 → EReal) (Wn2 : Fin 8 → Fin 8 → EReal) (bn2 : Fin 8 → EReal) (x : Fin 8 → EReal) :
    fused Wr1 br1 Wr2 br2 Wi1 bi1 Wi2 bi2 Wn1 bn1 Wn2 bn2 x = branches Wr1 br1 Wr2 br2 Wi1 bi1 Wi2 bi2 Wn1 bn1 Wn2 bn2 x := by
  unfold fused branches
  rw [lin_W1b Wr1 Wi1 Wn1 br1 bi1 bn1 x (by decide) (by decide) (by decide), relu_cat3,
    lin_W2b Wr2 Wi2 Wn2 br2 bi2 bn2 _ (by decide) (by decide) (by decide),
    part_cat3_fst, part_cat3_snd, part_cat3_trd]

end Cert.Row

end
-- ==== Proof.NetBridge.lean ====
/-
  The two networks on arrays agree: when the fused first-layer matrices are the block-diagonal matrices of the
  three branches' matrices, and the fused biases the branches' biases joined, the network with fused first layers
  and the network with three separate branches are the same function of the input, row by row.
-/
import proofs.«166149_j47193100648813_2_alg».proof.Proof.RowIdx
import proofs.«166149_j47193100648813_2_alg».proof.Proof.RowAlgebra

noncomputable section

namespace Cert.Row

open Idealize.ShloMosaic Idealize.ShloMosaic.ValueIdx

/-- Row by row the 32 joined entries are the same (the zero blocks contribute nothing), and the rest of the network
    is one function of them. -/
theorem fusedNet_eq_branchNet {n : ℕ} (X : (⟨2, ![n, 8]⟩ : Shape).Idx → EReal)
    (W1 : (⟨2, ![32, 8]⟩ : Shape).Idx → EReal) (b1 : (⟨1, ![32]⟩ : Shape).Idx → EReal)
    (W2 : (⟨2, ![32, 32]⟩ : Shape).Idx → EReal) (b2 : (⟨1, ![32]⟩ : Shape).Idx → EReal)
    (Wr1 : (⟨2, ![16, 3]⟩ : Shape).Idx → EReal) (br1 : (⟨1, ![16]⟩ : Shape).Idx → EReal)
    (Wr2 : (⟨2, ![16, 16]⟩ : Shape).Idx → EReal) (br2 : (⟨1, ![16]⟩ : Shape).Idx → EReal)
    (Wi1 : (⟨2, ![8, 2]⟩ : Shape).Idx → EReal) (bi1 : (⟨1, ![8]⟩ : Shape).Idx → EReal)
    (Wi2 : (⟨2, ![8, 8]⟩ : Shape).Idx → EReal) (bi2 : (⟨1, ![8]⟩ : Shape).Idx → EReal)
    (Wn1 : (⟨2, ![8, 3]⟩ : Shape).Idx → EReal) (bn1 : (⟨1, ![8]⟩ : Shape).Idx → EReal)
    (Wn2 : (⟨2, ![8, 8]⟩ : Shape).Idx → EReal) (bn2 : (⟨1, ![8]⟩ : Shape).Idx → EReal)
    (Wc : (⟨2, ![64, 32]⟩ : Shape).Idx → EReal) (bc g be : (⟨1, ![64]⟩ : Shape).Idx → EReal)
    (Ws1 : (⟨2, ![32, 64]⟩ : Shape).Idx → EReal) (bs1 : (⟨1, ![32]⟩ : Shape).Idx → EReal)
    (Ws2 : (⟨2, ![64, 32]⟩ : Shape).Idx → EReal) (bs2 : (⟨1, ![64]⟩ : Shape).Idx → EReal)
    (h1 : mat W1 = W1b (mat Wr1) (mat Wi1) (mat Wn1)) (h2 : vec b1 = cat3 (vec br1) (vec bi1) (vec bn1))
    (h3 : mat W2 = W2b (mat Wr2) (mat Wi2) (mat Wn2)) (h4 : vec b2 = cat3 (vec br2) (vec bi2) (vec bn2)) :
    fusedNet X W1 b1 W2 b2 Wc bc g be Ws1 bs1 Ws2 bs2
      = branchNet X Wr1 br1 Wr2 br2 Wi1 bi1 Wi2 bi2 Wn1 bn1 Wn2 bn2 Wc bc g be Ws1 bs1 Ws2 bs2 := by
  funext i
  unfold fusedNet branchNet
  rw [h1, h2, h3, h4]
  exact congrArg (fun comb => rest c64 eps (mat Wc) (vec bc) (vec g) (vec be) (mat Ws1) (vec bs1) (mat Ws2) (vec bs2) comb (i 1))
    (fused_eq_branches (mat Wr1) (vec br1) (mat Wr2) (vec br2) (mat Wi1) (vec bi1) (mat Wi2) (vec bi2)
      (mat Wn1) (vec bn1) (mat Wn2) (vec bn2) (row X (i 0)))

end Cert.Row

end
-- ==== Proof.Algebraic.lean ====
/-
  The two idealized programs compute the same array. The kernel's result is the network with fused first layers
  of the arrays its launch finds: the row input and the eight later operands are arguments, untouched by the host
  code, and the four fused operands are what the host code builds — the three branches' first-layer matrices
  written as diagonal blocks into a zero matrix, likewise the second-layer matrices, and the branches' biases
  joined. The reference's result is the network with its three separate branches of the same arguments. The two
  networks agree row by row, so from memories that agree on the arguments both programs end with the same array.
-/
import proofs.«166149_j47193100648813_2_alg».proof.Defs
import proofs.«166149_j47193100648813_2_alg».proof.Proof.Gen.Pre_finite_inputs
import proofs.«166149_j47193100648813_2_alg».proof.Proof.KernelIdealValue
import proofs.«166149_j47193100648813_2_alg».proof.Proof.KernelIdealWeights
import proofs.«166149_j47193100648813_2_alg».proof.Proof.ReferenceValue
import proofs.«166149_j47193100648813_2_alg».proof.Proof.NetBridge

noncomputable section

namespace Cert.Proof.Hand

open Idealize.ShloMosaic Idealize.ShloMosaic.TcCoe Idealize.SL.Sem Cert.Row

/-- The kernel's result array, as the network with three branches of the kernel's arguments. -/
theorem outArr_eq (m : (ℓ : Loc Cert.KernelIdeal.nD Cert.KernelIdeal.τ Cert.KernelIdeal.sig) → Buf (Elt Ideal) ℓ) (c : Dev Cert.KernelIdeal.nD) :
    Cert.KernelIdeal.Hand.outArr m c
      = branchNet (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17))
          (m ((c.tc : Thread Cert.KernelIdeal.nD Cert.KernelIdeal.τ).loc Cert.KernelIdeal.main_arg18))
          (m ((c.tc : Thread Cert.KernelIdeal.nD Cert.KernelIdeal.τ).loc Cert.KernelIdeal.main_arg19))
          (m ((c.tc : Thread Cert.KernelIdeal.nD Cert.KernelIdeal.τ).loc Cert.KernelIdeal.main_arg20)) := by
  unfold Cert.KernelIdeal.Hand.outArr
  rw [Cert.KernelIdeal.Hand.V_main_arg0, Cert.KernelIdeal.Hand.V_main_arg13, Cert.KernelIdeal.Hand.V_main_arg14, Cert.KernelIdeal.Hand.V_main_arg15, Cert.KernelIdeal.Hand.V_main_arg16, Cert.KernelIdeal.Hand.V_main_arg17, Cert.KernelIdeal.Hand.V_main_arg18, Cert.KernelIdeal.Hand.V_main_arg19, Cert.KernelIdeal.Hand.V_main_arg20]
  exact fusedNet_eq_branchNet _ _ _ _ _ _ _ _ _ _ _ _ _ _ _ _ _ _ _ _ _ _ _ _ _
    (Cert.KernelIdeal.Hand.V_v12 m c) (Cert.KernelIdeal.Hand.V_v13 m c) (Cert.KernelIdeal.Hand.V_v26 m c) (Cert.KernelIdeal.Hand.V_v27 m c)

/-- From memories agreeing on the arguments both idealized programs run to their ends with equal results and
    unchanged arguments. -/
theorem algebraic : Cert.algebraic_KernelIdeal_ReferenceIdeal := by
  intro m ρ m' ρ' _ hagree
  refine ⟨fun c => Cert.KernelIdeal.Hand.outArr m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20⟩ := hagree c
  show Cert.ReferenceIdeal.Value.res_main_v78 m' c = Cert.KernelIdeal.Hand.outArr m c
  rw [Cert.ReferenceIdeal.Read.val_main_v78_eq, Cert.ReferenceIdeal.Hand.ref_value, outArr_eq,
    e0, e1, e2, e3, e4, e5, e6, e7, e8, e9, e10, e11, e12, e13, e14, e15, e16, e17, e18, e19, e20]

end Cert.Proof.Hand

end
-- ==== Proof.lean ====
/-
  The certificate's claim. Both printed kernel programs, as printed and idealized, run to their ends without a
  fault and leave their arguments unchanged: the host operations before the launch write only buffers of their
  own, and the pipeline writes back only the result's blocks. The idealization rewrote no operation, so that it is
  the program's sanctioned idealization needs nothing. The reference, a straight line of host operations, runs to
  its end with each result at the operations' composed term. At the ideal instance the kernel's result and the
  reference's are the same function of the arguments: the kernel's one two-layer network with block-diagonal
  weights is the reference's three separate two-layer networks joined, and the rest of the two programs is the
  same arithmetic, entry by entry.
-/
import proofs.«166149_j47193100648813_2_alg».proof.Defs
import proofs.«166149_j47193100648813_2_alg».proof.Proof.Gen.Kernel
import proofs.«166149_j47193100648813_2_alg».proof.Proof.Gen.KernelIdeal
import proofs.«166149_j47193100648813_2_alg».proof.Proof.Gen.ReferenceIdeal
import proofs.«166149_j47193100648813_2_alg».proof.Proof.Gen.Pre_finite_inputs
import proofs.«166149_j47193100648813_2_alg».proof.Proof.Gen.ReferenceIdeal.Run
import proofs.«166149_j47193100648813_2_alg».proof.Proof.KernelFrame
import proofs.«166149_j47193100648813_2_alg».proof.Proof.KernelIdealFrame
import proofs.«166149_j47193100648813_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => (θ_run Cert.ReferenceIdeal.defs _ _).mono (fun _ h c => (h c).2) (Cert.ReferenceIdeal.Value.run (F := Ideal) m ρ),
    trivial,
    Cert.Proof.Hand.algebraic⟩

end Cert.Proof

end
